-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S2x200000 : Shape := ⟨2, ![2, 200000]⟩
abbrev S200000 : Shape := ⟨1, ![200000]⟩
abbrev S128 : Shape := ⟨1, ![128]⟩
abbrev S256x128 : Shape := ⟨2, ![256, 128]⟩
abbrev S384x128 : Shape := ⟨2, ![384, 128]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S200000 : S_.BroadcastsInDim S200000 (![] : Fin 0 → Fin S200000.rank)
  reducesTo_S200000_S_d0 : S200000.ReducesTo [0] S_

variable [Facts]

def fn_part1 {F : FTy → Type} [FloatOps F] (main_arg2 : IVec S200000 32) (main_arg7 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S200000 32 := broadcastInDim S200000 ![] bcast_S_S200000 main_c_8
  let main_v25 : IVec S200000 1 := cmpi .sge main_arg2 main_v24
  let main_c_9 : IVec S_ 32 := constantI S_ 32 128#32
  let main_v26 : IVec S200000 32 := broadcastInDim S200000 ![] bcast_S_S200000 main_c_9
  let main_v27 : IVec S200000 1 := cmpi .slt main_arg2 main_v26
  let main_v28 : IVec S200000 1 := andi main_v25 main_v27
  let main_c_10 : IVec S_ 1 := constantI S_ 1 1#1
  let main_v29 : IVec S_ 1 := (fun x v => Host.reduce IntOp.andi x v reducesTo_S200000_S_d0 h_S_) main_v28 main_c_10
  let main_v30 : IVec S_ 1 := andi main_v23 main_v29
  main_v30

def fn {F : FTy → Type} [FloatOps F] (main_arg0 : FVec F S200000x256 .f32) (main_arg1 : IVec S2x200000 32) (main_arg2 : IVec S200000 32) (main_arg3 : IVec S128 32) (main_arg4 : FVec F S256x128 .f32) (main_arg5 : FVec F S128 .f32) (main_arg6 : FVec F S384x128 .f32) (main_arg7 : FVec F S128 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S256x128 .f32 := Host.absf main_arg4
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S384x128 .f32 := Host.absf main_arg6
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg2 main_arg7 main_v13 main_v16
-- ==== Kernel.lean ====
abbrev S200000x256 : Shape := ⟨2, ![200000, 256]⟩
abbrev S2x200000 : Shape := ⟨2, ![2, 200000]⟩
abbrev S200000 : Shape := ⟨1, ![200000]⟩
abbrev S128 : Shape := ⟨1, ![128]⟩
abbrev S256x128 : Shape := ⟨2, ![256, 128]⟩
abbrev S384x128 : Shape := ⟨2, ![384, 128]⟩
abbrev S1x200000 : Shape := ⟨2, ![1, 200000]⟩
abbrev S_ : Shape := ⟨0, ![]⟩
abbrev S200000x1 : Shape := ⟨2, ![200000, 1]⟩
abbrev S200000x128 : Shape := ⟨2, ![200000, 128]⟩
abbrev S8000x256 : Shape := ⟨2, ![8000, 256]⟩
abbrev S8000x128 : Shape := ⟨2, ![8000, 128]⟩
abbrev S1x128 : Shape := ⟨2, ![1, 128]⟩
abbrev S8000x1 : Shape := ⟨2, ![8000, 1]⟩
abbrev S128x1 : Shape := ⟨2, ![128, 1]⟩
abbrev S128x256 : Shape := ⟨2, ![128, 256]⟩
abbrev S128x128 : Shape := ⟨2, ![128, 128]⟩

abbrev nBuf : Space → Nat
  | .hbm => 130
  | .vmem => 32
  | .smem => 0
  | _ => 0

abbrev hbmTy0_0 (i : Nat) : BufTy := match i % 128 with
  | 0 => ⟨S200000x256, .f32⟩
  | 1 => ⟨S2x200000, .i32⟩
  | 2 => ⟨S200000, .i32⟩
  | 3 => ⟨S128, .i32⟩
  | 4 => ⟨S256x128, .f32⟩
  | 5 => ⟨S128, .f32⟩
  | 6 => ⟨S384x128, .f32⟩
  | 7 => ⟨S128, .f32⟩
  | 8 => ⟨S1x200000, .i32⟩
  | 9 => ⟨S200000, .i32⟩
  | 10 => ⟨S1x200000, .i32⟩
  | 11 => ⟨S200000, .i32⟩
  | 12 => ⟨S_, .f32⟩
  | 13 => ⟨S200000, .f32⟩
  | 14 => ⟨S_, .f32⟩
  | 15 => ⟨S200000, .f32⟩
  | 16 => ⟨S200000x1, .i32⟩
  | 17 => ⟨S200000, .f32⟩
  | 18 => ⟨S_, .f32⟩
  | 19 => ⟨S200000, .f32⟩
  | 20 => ⟨S200000, .f32⟩
  | 21 => ⟨S200000, .f32⟩
  | 22 => ⟨S_, .i32⟩
  | 23 => ⟨S200000, .i32⟩
  | 24 => ⟨S200000, .i1⟩
  | 25 => ⟨S_, .i32⟩
  | 26 => ⟨S200000, .i32⟩
  | 27 => ⟨S200000, .i32⟩
  | 28 => ⟨S200000, .i32⟩
  | 29 => ⟨S200000x1, .i32⟩
  | 30 => ⟨S200000, .f32⟩
  | 31 => ⟨S_, .i32⟩
  | 32 => ⟨S200000, .i32⟩
  | 33 => ⟨S200000, .i1⟩
  | 34 => ⟨S_, .i32⟩
  | 35 => ⟨S200000, .i32⟩
  | 36 => ⟨S200000, .i32⟩
  | 37 => ⟨S200000, .i32⟩
  | 38 => ⟨S200000x1, .i32⟩
  | 39 => ⟨S200000, .f32⟩
  | 40 => ⟨S200000, .f32⟩
  | 41 => ⟨S200000, .f32⟩
  | 42 => ⟨S200000x128, .f32⟩
  | 43 => ⟨S_, .i32⟩
  | 44 => ⟨S200000, .i32⟩
  | 45 => ⟨S200000, .i1⟩
  | 46 => ⟨S_, .i32⟩
  | 47 => ⟨S200000, .i32⟩
  | 48 => ⟨S200000, .i32⟩
  | 49 => ⟨S200000, .i32⟩
  | 50 => ⟨S200000x1, .i32⟩
  | 51 => ⟨S200000x128, .f32⟩
  | 52 => ⟨S200000x1, .f32⟩
  | 53 => ⟨S200000x128, .f32⟩
  | 54 => ⟨S200000x128, .f32⟩
  | 55 => ⟨S_, .f32⟩
  | 56 => ⟨S200000x128, .f32⟩
  | 57 => ⟨S200000x1, .i32⟩
  | 58 => ⟨S200000x128, .f32⟩
  | 59 => ⟨S200000x1, .f32⟩
  | 60 => ⟨S1x128, .f32⟩
  | 61 => ⟨S200000x128, .f32⟩
  | 62 => ⟨S_, .i32⟩
  | 63 => ⟨S128, .i32⟩
  | 64 => ⟨S128, .i1⟩
  | 65 => ⟨S_, .i32⟩
  | 66 => ⟨S128, .i32⟩
  | 67 => ⟨S128, .i32⟩
  | 68 => ⟨S128, .i32⟩
  | 69 => ⟨S128x1, .i32⟩
  | 70 => ⟨S128x256, .f32⟩
  | 71 => ⟨S_, .f32⟩
  | 72 => ⟨S128x256, .f32⟩
  | 73 => ⟨S128x256, .f32⟩
  | 74 => ⟨S256x128, .f32⟩
  | 75 => ⟨S128x128, .f32⟩
  | 76 => ⟨S128x128, .f32⟩
  | 77 => ⟨S200000x1, .i32⟩
  | 78 => ⟨S200000x128, .f32⟩
  | 79 => ⟨S_, .i32⟩
  | 80 => ⟨S200000, .i32⟩
  | 81 => ⟨S200000, .i1⟩
  | 82 => ⟨S_, .i32⟩
  | 83 => ⟨S200000, .i32⟩
  | 84 => ⟨S200000, .i32⟩
  | 85 => ⟨S200000, .i32⟩
  | 86 => ⟨S200000x1, .i32⟩
  | 87 => ⟨S200000x128, .f32⟩
  | 88 => ⟨S200000x1, .f32⟩
  | 89 => ⟨S200000x128, .f32⟩
  | 90 => ⟨S200000x128, .f32⟩
  | 91 => ⟨S_, .f32⟩
  | 92 => ⟨S200000x128, .f32⟩
  | 93 => ⟨S200000x1, .i32⟩
  | 94 => ⟨S200000x128, .f32⟩
  | 95 => ⟨S200000x1, .f32⟩
  | 96 => ⟨S1x128, .f32⟩
  | 97 => ⟨S200000x1, .i32⟩
  | 98 => ⟨S128x128, .f32⟩
  | 99 => ⟨S_, .f32⟩
  | 100 => ⟨S200000, .f32⟩
  | 101 => ⟨S_, .f32⟩
  | 102 => ⟨S128, .f32⟩
  | 103 => ⟨S200000x1, .i32⟩
  | 104 => ⟨S128, .f32⟩
  | 105 => ⟨S_, .f32⟩
  | 106 => ⟨S128, .f32⟩
  | 107 => ⟨S128, .f32⟩
  | 108 => ⟨S128x1, .f32⟩
  | 109 => ⟨S128x128, .f32⟩
  | 110 => ⟨S128x128, .f32⟩
  | 111 => ⟨S128x1, .f32⟩
  | 112 => ⟨S_, .f32⟩
  | 113 => ⟨S128x1, .f32⟩
  | 114 => ⟨S128x1, .i1⟩
  | 115 => ⟨S_, .i32⟩
  | 116 => ⟨S128, .i32⟩
  | 117 => ⟨S128, .i1⟩
  | 118 => ⟨S_, .i32⟩
  | 119 => ⟨S128, .i32⟩
  | 120 => ⟨S128, .i32⟩
  | 121 => ⟨S128, .i32⟩
  | 122 => ⟨S128x1, .i32⟩
  | 123 => ⟨S128x128, .f32⟩
  | 124 => ⟨S_, .f32⟩
  | 125 => ⟨S_, .f32⟩
  | 126 => ⟨S128x128, .i1⟩
  | 127 => ⟨S128x128, .f32⟩
  | _ => ⟨S200000x256, .f32⟩

abbrev hbmTy0_1 (i : Nat) : BufTy := match i % 128 with
  | 0 => ⟨S128x128, .f32⟩
  | 1 => ⟨S128x256, .f32⟩
  | _ => ⟨S200000x256, .f32⟩

abbrev hbmTy (i : Nat) : BufTy := match i / 128 with
  | 0 => hbmTy0_0 i
  | 1 => hbmTy0_1 i
  | _ => ⟨S200000x256, .f32⟩

abbrev bufTy : (tb : Table) → Fin (tcTables nBuf tb) → BufTy
  | .hbm, ⟨i, _⟩ => hbmTy i
  | .local _ .vmem, ⟨0, _⟩ => ⟨S8000x256, .f32⟩
  | .local _ .vmem, ⟨1, _⟩ => ⟨S8000x256, .f32⟩
  | .local _ .vmem, ⟨2, _⟩ => ⟨S256x128, .f32⟩
  | .local _ .vmem, ⟨3, _⟩ => ⟨S8000x128, .f32⟩
  | .local _ .vmem, ⟨4, _⟩ => ⟨S8000x128, .f32⟩
  | .local _ .vmem, ⟨5, _⟩ => ⟨S8000x128, .f32⟩
  | .local _ .vmem, ⟨6, _⟩ => ⟨S8000x128, .f32⟩
  | .local _ .vmem, ⟨7, _⟩ => ⟨S8000x128, .f32⟩
  | .local _ .vmem, ⟨8, _⟩ => ⟨S8000x128, .f32⟩
  | .local _ .vmem, ⟨9, _⟩ => ⟨S8000x1, .f32⟩
  | .local _ .vmem, ⟨10, _⟩ => ⟨S8000x1, .f32⟩
  | .local _ .vmem, ⟨11, _⟩ => ⟨S1x128, .f32⟩
  | .local _ .vmem, ⟨12, _⟩ => ⟨S8000x128, .f32⟩
  | .local _ .vmem, ⟨13, _⟩ => ⟨S8000x128, .f32⟩
  | .local _ .vmem, ⟨14, _⟩ => ⟨S8000x128, .f32⟩
  | .local _ .vmem, ⟨15, _⟩ => ⟨S8000x128, .f32⟩
  | .local _ .vmem, ⟨16, _⟩ => ⟨S128x128, .f32⟩
  | .local _ .vmem, ⟨17, _⟩ => ⟨S8000x1, .i32⟩
  | .local _ .vmem, ⟨18, _⟩ => ⟨S8000x1, .i32⟩
  | .local _ .vmem, ⟨19, _⟩ => ⟨S128x128, .f32⟩
  | .local _ .vmem, ⟨20, _⟩ => ⟨S8000x128, .f32⟩
  | .local _ .vmem, ⟨21, _⟩ => ⟨S8000x128, .f32⟩
  | .local _ .vmem, ⟨22, _⟩ => ⟨S8000x128, .f32⟩
  | .local _ .vmem, ⟨23, _⟩ => ⟨S8000x128, .f32⟩
  | .local _ .vmem, ⟨24, _⟩ => ⟨S8000x128, .f32⟩
  | .local _ .vmem, ⟨25, _⟩ => ⟨S8000x128, .f32⟩
  | .local _ .vmem, ⟨26, _⟩ => ⟨S8000x1, .f32⟩
  | .local _ .vmem, ⟨27, _⟩ => ⟨S8000x1, .f32⟩
  | .local _ .vmem, ⟨28, _⟩ => ⟨S1x128, .f32⟩
  | .local _ .vmem, ⟨29, _⟩ => ⟨S8000x1, .i32⟩
  | .local _ .vmem, ⟨30, _⟩ => ⟨S8000x1, .i32⟩
  | .local _ .vmem, ⟨31, _⟩ => ⟨S128x128, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_13 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_14 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_16 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_17 : Ref sig .tc := ⟨.hbm, 112, rfl⟩
abbrev main_v85 : Ref sig .tc := ⟨.hbm, 113, rfl⟩
abbrev main_v86 : Ref sig .tc := ⟨.hbm, 114, rfl⟩
abbrev main_c_18 : Ref sig .tc := ⟨.hbm, 115, rfl⟩
abbrev main_v87 : Ref sig .tc := ⟨.hbm, 116, rfl⟩
abbrev main_v88 : Ref sig .tc := ⟨.hbm, 117, rfl⟩
abbrev main_c_19 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_20 : Ref sig .tc := ⟨.hbm, 124, rfl⟩
abbrev main_call0_v0 : Ref sig .tc := ⟨.hbm, 125, rfl⟩
abbrev main_call0_v1 : Ref sig .tc := ⟨.hbm, 126, rfl⟩
abbrev main_call0_v2 : Ref sig .tc := ⟨.hbm, 127, rfl⟩
abbrev main_v94 : Ref sig .tc := ⟨.hbm, 128, rfl⟩
abbrev main_v95 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc3_stg5_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem4_1 : DmaSem sig := 30
abbrev cc3_sem5_0 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S8000x1 .i32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  inb_S8000x256_S8000x256_0_0 : ∀ a, (![0, 0] : Fin 2 → Nat) a + S8000x256.size a ≤ S8000x256.size a
  h_S8000x256 : 0 < S8000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S8000x128_S8000x128_0_0 : ∀ a, (![0, 0] : Fin 2 → Nat) a + S8000x128.size a ≤ S8000x128.size a
  h_S8000x128 : 0 < S8000x128.numel
  bcast_S200000x1_S200000x128_0_1 : S200000x1.BroadcastsInDim S200000x128 (![0, 1] : Fin 2 → Fin S200000x128.rank)
  bcast_S_S200000x128 : S_.BroadcastsInDim S200000x128 (![] : Fin 0 → Fin S200000x128.rank)
  shapeCasts_S200000_S200000x1 : S200000.ShapeCasts S200000x1
  shapeCasts_S128_S1x128 : S128.ShapeCasts S1x128
  shapeCasts_S8000x128_S8000x128 : S8000x128.ShapeCasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S128 : S_.BroadcastsInDim S128 (![] : Fin 0 → Fin S128.rank)
  bcast_S128_S128x1_0 : S128.BroadcastsInDim S128x1 (![0] : Fin 1 → Fin S128x1.rank)
  bcast_S_S128x256 : S_.BroadcastsInDim S128x256 (![] : Fin 0 → Fin S128x256.rank)
  slices_S384x128_S256x128_128_0 : S384x128.Slices ![128, 0] S256x128
  slices_S384x128_S128x128_0_0 : S384x128.Slices ![0, 0] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  iota_S8000x128_d1_w32 : S8000x128.Iotas .tc 32 [1]
  natLt_1_32 : 1 < 32
  bcast_S128x1_S128x128_0_1 : S128x1.BroadcastsInDim S128x128 (![0, 1] : Fin 2 → Fin S128x128.rank)
  bcast_S_S128x1 : S_.BroadcastsInDim S128x1 (![] : Fin 0 → Fin S128x1.rank)
  bcast_S_S128x128 : S_.BroadcastsInDim S128x128 (![] : Fin 0 → Fin S128x128.rank)
  concatenates_S128x128_S128x128_S128x256_d1 : Shape.Concatenates [S128x128, S128x128] S128x256 1
  scatter_S200000_S200000x1_S200000_n_0_0_1_wf : ScatterDims.WF S200000 S200000x1 S200000 [] [0] [0] 1
  gather_S200000_S200000x1_S200000_n_0_n_n_0_1_1_wf : GatherDims.WF S200000 S200000x1 S200000 [] [0] [] [0] [] 1 ![1]
  dot_S8000x256_S256x128_S8000x128_1_0_0_1_n_n_wf : DotDims.WF S8000x256 S256x128 S8000x128 [1] [0] [0] [1] [] []
  gather_S200000x128_S200000x1_S200000x128_1_0_n_n_0_1_1128_wf : GatherDims.WF S200000x128 S200000x1 S200000x128 [1] [0] [] [0] [] 1 ![1, 128]
  scatter_S200000x128_S200000x1_S200000x128_1_0_0_1_wf : ScatterDims.WF S200000x128 S200000x1 S200000x128 [1] [0] [0] 1
  gather_S200000x256_S128x1_S128x256_1_0_n_n_0_1_1256_wf : GatherDims.WF S200000x256 S128x1 S128x256 [1] [0] [] [0] [] 1 ![1, 256]
  dot_S128x256_S256x128_S128x128_1_0_0_1_n_n_wf : DotDims.WF S128x256 S256x128 S128x128 [1] [0] [0] [1] [] []
  dot_S8000x128_S128x128_S8000x128_1_0_0_1_n_n_wf : DotDims.WF S8000x128 S128x128 S8000x128 [1] [0] [0] [1] [] []
  dot_S8000x128_S8000x128_S128x128_0_0_1_1_n_n_wf : DotDims.WF S8000x128 S8000x128 S128x128 [0] [0] [1] [1] [] []
  scatter_S128_S200000x1_S200000_n_0_0_1_wf : ScatterDims.WF S128 S200000x1 S200000 [] [0] [0] 1
  gather_S200000x128_S128x1_S128x128_1_0_n_n_0_1_1128_wf : GatherDims.WF S200000x128 S128x1 S128x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x256.size a ≤ S200000x256.size a
  hwx0_0 : ∀ i : grid0.Coords, EltTy.bits .f32 = 32 ∨ (Rect.block (s := S200000x256) S8000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S200000x128.size a
  hwx0_2 : ∀ i : grid0.Coords, EltTy.bits .f32 = 32 ∨ (Rect.block (s := S200000x128) S8000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S200000x128.size a
  hwx1_0 : ∀ i : grid1.Coords, EltTy.bits .f32 = 32 ∨ (Rect.block (s := S200000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S200000x128.size a
  hwx1_1 : ∀ i : grid1.Coords, EltTy.bits .f32 = 32 ∨ (Rect.block (s := S200000x128) S8000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x1.size a ≤ S200000x1.size a
  hwx1_2 : ∀ i : grid1.Coords, EltTy.bits .f32 = 32 ∨ (Rect.block (s := S200000x1) S8000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x128.size a ≤ S200000x128.size a
  hwx1_4 : ∀ i : grid1.Coords, EltTy.bits .f32 = 32 ∨ (Rect.block (s := S200000x128) S8000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S200000x128.size a
  hwx2_0 : ∀ i : grid2.Coords, EltTy.bits .f32 = 32 ∨ (Rect.block (s := S200000x128) S8000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x1.size a ≤ S200000x1.size a
  hwx2_2 : ∀ i : grid2.Coords, EltTy.bits .i32 = 32 ∨ (Rect.block (s := S200000x1) S8000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x128.size a ≤ S200000x128.size a
  hwx2_4 : ∀ i : grid2.Coords, EltTy.bits .f32 = 32 ∨ (Rect.block (s := S200000x128) S8000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S200000x128.size a
  hwx3_0 : ∀ i : grid3.Coords, EltTy.bits .f32 = 32 ∨ (Rect.block (s := S200000x128) S8000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x128.size a ≤ S200000x128.size a
  hwx3_1 : ∀ i : grid3.Coords, EltTy.bits .f32 = 32 ∨ (Rect.block (s := S200000x128) S8000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x1.size a ≤ S200000x1.size a
  hwx3_2 : ∀ i : grid3.Coords, EltTy.bits .f32 = 32 ∨ (Rect.block (s := S200000x1) S8000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8000x1.size a ≤ S200000x1.size a
  hwx3_4 : ∀ i : grid3.Coords, EltTy.bits .i32 = 32 ∨ (Rect.block (s := S200000x1) S8000x1.size (cc3_transform_4 i) (hinb3_4 i)).WholeWords (EltTy.packing .i32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)

variable [Facts₀]

def scatter_S200000_S200000x1_S200000_n_0_0_1 : ScatterDims S200000 S200000x1 S200000 where
  updateWindowDims := []
  insertedWindowDims := [0]
  scatterDimsToOperandDims := [0]
  indexVectorDim := 1
  wf := scatter_S200000_S200000x1_S200000_n_0_0_1_wf
def gather_S200000_S200000x1_S200000_n_0_n_n_0_1_1 : GatherDims S200000 S200000x1 S200000 where
  offsetDims := []
  collapsedSliceDims := [0]
  operandBatchingDims := []
  startIndicesBatchingDims := []
  startIndexMap := [0]
  indexVectorDim := 1
  sliceSizes := ![1]
  wf := gather_S200000_S200000x1_S200000_n_0_n_n_0_1_1_wf
def dot_S8000x256_S256x128_S8000x128_1_0_0_1_n_n : DotDims S8000x256 S256x128 S8000x128 where
  lhsContracting := [1]
  rhsContracting := [0]
  lhsNonContracting := [0]
  rhsNonContracting := [1]
  lhsBatch := []
  rhsBatch := []
  wf := dot_S8000x256_S256x128_S8000x128_1_0_0_1_n_n_wf
def gather_S200000x128_S200000x1_S200000x128_1_0_n_n_0_1_1128 : GatherDims S200000x128 S200000x1 S200000x128 where
  offsetDims := [1]
  collapsedSliceDims := [0]
  operandBatchingDims := []
  startIndicesBatchingDims := []
  startIndexMap := [0]
  indexVectorDim := 1
  sliceSizes := ![1, 128]
  wf := gather_S200000x128_S200000x1_S200000x128_1_0_n_n_0_1_1128_wf
def scatter_S200000x128_S200000x1_S200000x128_1_0_0_1 : ScatterDims S200000x128 S200000x1 S200000x128 where
  updateWindowDims := [1]
  insertedWindowDims := [0]
  scatterDimsToOperandDims := [0]
  indexVectorDim := 1
  wf := scatter_S200000x128_S200000x1_S200000x128_1_0_0_1_wf
def gather_S200000x256_S128x1_S128x256_1_0_n_n_0_1_1256 : GatherDims S200000x256 S128x1 S128x256 where
  offsetDims := [1]
  collapsedSliceDims := [0]
  operandBatchingDims := []
  startIndicesBatchingDims := []
  startIndexMap := [0]
  indexVectorDim := 1
  sliceSizes := ![1, 256]
  wf := gather_S200000x256_S128x1_S128x256_1_0_n_n_0_1_1256_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S8000x128_S128x128_0_0_1_1_n_n : DotDims S8000x128 S8000x128 S128x128 where
  lhsContracting := [0]
  rhsContracting := [0]
  lhsNonContracting := [1]
  rhsNonContracting := [1]
  lhsBatch := []
  rhsBatch := []
  wf := dot_S8000x128_S8000x128_S128x128_0_0_1_1_n_n_wf
def scatter_S128_S200000x1_S200000_n_0_0_1 : ScatterDims S128 S200000x1 S200000 where
  updateWindowDims := []
  insertedWindowDims := [0]
  scatterDimsToOperandDims := [0]
  indexVectorDim := 1
  wf := scatter_S128_S200000x1_S200000_n_0_0_1_wf
def gather_S200000x128_S128x1_S128x128_1_0_n_n_0_1_1128 : GatherDims S200000x128 S128x1 S128x128 where
  offsetDims := [1]
  collapsedSliceDims := [0]
  operandBatchingDims := []
  startIndicesBatchingDims := []
  startIndexMap := [0]
  indexVectorDim := 1
  sliceSizes := ![1, 128]
  wf := gather_S200000x128_S128x1_S128x128_1_0_n_n_0_1_1128_wf

abbrev win0_0 : Pipeline.Window sig grid0 :=
  Pipeline.Window.ofSpec (Memref.whole main_arg0) S8000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S8000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S8000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S8000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v54) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S8000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v70) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S8000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v71) S8000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v72) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S8000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v74) S128x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S200000x256 : Shape := ⟨2, ![200000, 256]⟩
abbrev S2x200000 : Shape := ⟨2, ![2, 200000]⟩
abbrev S200000 : Shape := ⟨1, ![200000]⟩
abbrev S128 : Shape := ⟨1, ![128]⟩
abbrev S256x128 : Shape := ⟨2, ![256, 128]⟩
abbrev S384x128 : Shape := ⟨2, ![384, 128]⟩
abbrev S1x200000 : Shape := ⟨2, ![1, 200000]⟩
abbrev S200000x128 : Shape := ⟨2, ![200000, 128]⟩
abbrev S_ : Shape := ⟨0, ![]⟩
abbrev S200000x1 : Shape := ⟨2, ![200000, 1]⟩
abbrev S1x128 : Shape := ⟨2, ![1, 128]⟩
abbrev S200000x384 : Shape := ⟨2, ![200000, 384]⟩
abbrev S128x256 : Shape := ⟨2, ![128, 256]⟩
abbrev S128x1 : Shape := ⟨2, ![128, 1]⟩

abbrev nBuf : Space → Nat
  | .hbm => 184
  | .vmem => 0
  | .smem => 0
  | _ => 0

abbrev hbmTy0_0 (i : Nat) : BufTy := match i % 128 with
  | 0 => ⟨S200000x256, .f32⟩
  | 1 => ⟨S2x200000, .i32⟩
  | 2 => ⟨S200000, .i32⟩
  | 3 => ⟨S128, .i32⟩
  | 4 => ⟨S256x128, .f32⟩
  | 5 => ⟨S128, .f32⟩
  | 6 => ⟨S384x128, .f32⟩
  | 7 => ⟨S128, .f32⟩
  | 8 => ⟨S1x200000, .i32⟩
  | 9 => ⟨S200000, .i32⟩
  | 10 => ⟨S1x200000, .i32⟩
  | 11 => ⟨S200000, .i32⟩
  | 12 => ⟨S200000x128, .f32⟩
  | 13 => ⟨S_, .f32⟩
  | 14 => ⟨S200000, .f32⟩
  | 15 => ⟨S_, .f32⟩
  | 16 => ⟨S200000, .f32⟩
  | 17 => ⟨S200000x1, .i32⟩
  | 18 => ⟨S200000, .f32⟩
  | 19 => ⟨S_, .f32⟩
  | 20 => ⟨S200000, .f32⟩
  | 21 => ⟨S200000, .f32⟩
  | 22 => ⟨S200000, .f32⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S200000, .f32⟩
  | 32 => ⟨S_, .i32⟩
  | 33 => ⟨S200000, .i32⟩
  | 34 => ⟨S200000, .i1⟩
  | 35 => ⟨S_, .i32⟩
  | 36 => ⟨S200000, .i32⟩
  | 37 => ⟨S200000, .i32⟩
  | 38 => ⟨S200000, .i32⟩
  | 39 => ⟨S200000x1, .i32⟩
  | 40 => ⟨S200000, .f32⟩
  | 41 => ⟨S200000, .f32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S200000x128, .f32⟩
  | 51 => ⟨S200000x1, .f32⟩
  | 52 => ⟨S200000x128, .f32⟩
  | 53 => ⟨S200000x128, .f32⟩
  | 54 => ⟨S_, .f32⟩
  | 55 => ⟨S200000x128, .f32⟩
  | 56 => ⟨S200000x1, .i32⟩
  | 57 => ⟨S200000x128, .f32⟩
  | 58 => ⟨S_, .f32⟩
  | 59 => ⟨S200000, .f32⟩
  | 60 => ⟨S200000, .f32⟩
  | 61 => ⟨S200000x1, .f32⟩
  | 62 => ⟨S200000x128, .f32⟩
  | 63 => ⟨S200000x128, .f32⟩
  | 64 => ⟨S200000x128, .f32⟩
  | 65 => ⟨S1x128, .f32⟩
  | 66 => ⟨S200000x128, .f32⟩
  | 67 => ⟨S200000x128, .f32⟩
  | 68 => ⟨S_, .i32⟩
  | 69 => ⟨S200000, .i32⟩
  | 70 => ⟨S200000, .i1⟩
  | 71 => ⟨S_, .i32⟩
  | 72 => ⟨S200000, .i32⟩
  | 73 => ⟨S200000, .i32⟩
  | 74 => ⟨S200000, .i32⟩
  | 75 => ⟨S200000x1, .i32⟩
  | 76 => ⟨S200000, .i32⟩
  | 77 => ⟨S_, .i32⟩
  | 78 => ⟨S200000, .i32⟩
  | 79 => ⟨S200000, .i1⟩
  | 80 => ⟨S_, .i32⟩
  | 81 => ⟨S200000, .i32⟩
  | 82 => ⟨S200000, .i32⟩
  | 83 => ⟨S200000, .i32⟩
  | 84 => ⟨S200000x1, .i32⟩
  | 85 => ⟨S200000x256, .f32⟩
  | 86 => ⟨S200000x384, .f32⟩
  | 87 => ⟨S_, .f32⟩
  | 88 => ⟨S200000x384, .f32⟩
  | 89 => ⟨S200000x384, .f32⟩
  | 90 => ⟨S200000x128, .f32⟩
  | 91 => ⟨S_, .f32⟩
  | 92 => ⟨S200000, .f32⟩
  | 93 => ⟨S_, .f32⟩
  | 94 => ⟨S200000, .f32⟩
  | 95 => ⟨S200000x1, .i32⟩
  | 96 => ⟨S200000, .f32⟩
  | 97 => ⟨S_, .f32⟩
  | 98 => ⟨S200000, .f32⟩
  | 99 => ⟨S200000, .f32⟩
  | 100 => ⟨S200000, .f32⟩
  | 101 => ⟨S_, .i32⟩
  | 102 => ⟨S200000, .i32⟩
  | 103 => ⟨S200000, .i1⟩
  | 104 => ⟨S_, .i32⟩
  | 105 => ⟨S200000, .i32⟩
  | 106 => ⟨S200000, .i32⟩
  | 107 => ⟨S200000, .i32⟩
  | 108 => ⟨S200000x1, .i32⟩
  | 109 => ⟨S200000, .f32⟩
  | 110 => ⟨S_, .i32⟩
  | 111 => ⟨S200000, .i32⟩
  | 112 => ⟨S200000, .i1⟩
  | 113 => ⟨S_, .i32⟩
  | 114 => ⟨S200000, .i32⟩
  | 115 => ⟨S200000, .i32⟩
  | 116 => ⟨S200000, .i32⟩
  | 117 => ⟨S200000x1, .i32⟩
  | 118 => ⟨S200000, .f32⟩
  | 119 => ⟨S200000, .f32⟩
  | 120 => ⟨S_, .i32⟩
  | 121 => ⟨S200000, .i32⟩
  | 122 => ⟨S200000, .i1⟩
  | 123 => ⟨S_, .i32⟩
  | 124 => ⟨S200000, .i32⟩
  | 125 => ⟨S200000, .i32⟩
  | 126 => ⟨S200000, .i32⟩
  | 127 => ⟨S200000x1, .i32⟩
  | _ => ⟨S200000x256, .f32⟩

abbrev hbmTy0_1 (i : Nat) : BufTy := match i % 128 with
  | 0 => ⟨S200000x128, .f32⟩
  | 1 => ⟨S200000x1, .f32⟩
  | 2 => ⟨S200000x128, .f32⟩
  | 3 => ⟨S200000x128, .f32⟩
  | 4 => ⟨S_, .f32⟩
  | 5 => ⟨S200000x128, .f32⟩
  | 6 => ⟨S200000x1, .i32⟩
  | 7 => ⟨S200000x128, .f32⟩
  | 8 => ⟨S_, .f32⟩
  | 9 => ⟨S200000, .f32⟩
  | 10 => ⟨S200000, .f32⟩
  | 11 => ⟨S200000x1, .f32⟩
  | 12 => ⟨S200000x128, .f32⟩
  | 13 => ⟨S200000x128, .f32⟩
  | 14 => ⟨S200000x128, .f32⟩
  | 15 => ⟨S1x128, .f32⟩
  | 16 => ⟨S200000x128, .f32⟩
  | 17 => ⟨S200000x128, .f32⟩
  | 18 => ⟨S_, .f32⟩
  | 19 => ⟨S200000x128, .f32⟩
  | 20 => ⟨S200000x128, .f32⟩
  | 21 => ⟨S_, .i32⟩
  | 22 => ⟨S200000, .i32⟩
  | 23 => ⟨S200000, .i1⟩
  | 24 => ⟨S_, .i32⟩
  | 25 => ⟨S200000, .i32⟩
  | 26 => ⟨S200000, .i32⟩
  | 27 => ⟨S200000, .i32⟩
  | 28 => ⟨S200000x1, .i32⟩
  | 29 => ⟨S200000, .i32⟩
  | 30 => ⟨S_, .i32⟩
  | 31 => ⟨S200000, .i32⟩
  | 32 => ⟨S200000, .i1⟩
  | 33 => ⟨S_, .i32⟩
  | 34 => ⟨S200000, .i32⟩
  | 35 => ⟨S200000, .i32⟩
  | 36 => ⟨S200000, .i32⟩
  | 37 => ⟨S200000x1, .i32⟩
  | 38 => ⟨S200000x128, .f32⟩
  | 39 => ⟨S200000x256, .f32⟩
  | 40 => ⟨S_, .f32⟩
  | 41 => ⟨S128x256, .f32⟩
  | 42 => ⟨S200000x1, .i32⟩
  | 43 => ⟨S128x256, .f32⟩
  | 44 => ⟨S_, .f32⟩
  | 45 => ⟨S200000, .f32⟩
  | 46 => ⟨S_, .f32⟩
  | 47 => ⟨S128, .f32⟩
  | 48 => ⟨S200000x1, .i32⟩
  | 49 => ⟨S128, .f32⟩
  | 50 => ⟨S_, .f32⟩
  | 51 => ⟨S128, .f32⟩
  | 52 => ⟨S128, .f32⟩
  | 53 => ⟨S128x1, .f32⟩
  | 54 => ⟨S128x256, .f32⟩
  | 55 => ⟨S128x256, .f32⟩
  | _ => ⟨S200000x256, .f32⟩

abbrev hbmTy (i : Nat) : BufTy := match i / 128 with
  | 0 => hbmTy0_0 i
  | 1 => hbmTy0_1 i
  | _ => ⟨S200000x256, .f32⟩

abbrev bufTy : (tb : Table) → Fin (tcTables nBuf tb) → BufTy
  | .hbm, ⟨i, _⟩ => hbmTy i
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call0_cst : Ref sig .tc := ⟨.hbm, 87, rfl⟩
abbrev main_call0_v0 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_16 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_18 : Ref sig .tc := ⟨.hbm, 110, rfl⟩
abbrev main_v80 : Ref sig .tc := ⟨.hbm, 111, rfl⟩
abbrev main_v81 : Ref sig .tc := ⟨.hbm, 112, rfl⟩
abbrev main_c_19 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_20 : Ref sig .tc := ⟨.hbm, 120, rfl⟩
abbrev main_v88 : Ref sig .tc := ⟨.hbm, 121, rfl⟩
abbrev main_v89 : Ref sig .tc := ⟨.hbm, 122, rfl⟩
abbrev main_c_21 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_22 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_23 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_call1_cst : Ref sig .tc := ⟨.hbm, 146, rfl⟩
abbrev main_call1_v0 : Ref sig .tc := ⟨.hbm, 147, rfl⟩
abbrev main_v110 : Ref sig .tc := ⟨.hbm, 148, rfl⟩
abbrev main_c_24 : Ref sig .tc := ⟨.hbm, 149, rfl⟩
abbrev main_v111 : Ref sig .tc := ⟨.hbm, 150, rfl⟩
abbrev main_v112 : Ref sig .tc := ⟨.hbm, 151, rfl⟩
abbrev main_c_25 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_c_26 : Ref sig .tc := ⟨.hbm, 158, rfl⟩
abbrev main_v118 : Ref sig .tc := ⟨.hbm, 159, rfl⟩
abbrev main_v119 : Ref sig .tc := ⟨.hbm, 160, rfl⟩
abbrev main_c_27 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_28 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_29 : Ref sig .tc := ⟨.hbm, 172, rfl⟩
abbrev main_v129 : Ref sig .tc := ⟨.hbm, 173, rfl⟩
abbrev main_cst_30 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_cst_31 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S_S200000x128 : S_.BroadcastsInDim S200000x128 (![] : Fin 0 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  concatenates_S200000x128_S200000x256_S200000x384_d1 : Shape.Concatenates [S200000x128, S200000x256] S200000x384 1
  bcast_S_S200000x384 : S_.BroadcastsInDim S200000x384 (![] : Fin 0 → Fin S200000x384.rank)
  concatenates_S200000x128_S200000x128_S200000x256_d1 : Shape.Concatenates [S200000x128, S200000x128] S200000x256 1
  bcast_S_S128x256 : S_.BroadcastsInDim S128x256 (![] : Fin 0 → Fin S128x256.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  dot_S200000x256_S256x128_S200000x128_1_0_0_1_n_n_wf : DotDims.WF S200000x256 S256x128 S200000x128 [1] [0] [0] [1] [] []
  scatter_S200000_S200000x1_S200000_n_0_0_1_wf : ScatterDims.WF S200000 S200000x1 S200000 [] [0] [0] 1
  gather_S200000_S200000x1_S200000_n_0_n_n_0_1_1_wf : GatherDims.WF S200000 S200000x1 S200000 [] [0] [] [0] [] 1 ![1]
  gather_S200000x128_S200000x1_S200000x128_1_0_n_n_0_1_1128_wf : GatherDims.WF S200000x128 S200000x1 S200000x128 [1] [0] [] [0] [] 1 ![1, 128]
  scatter_S200000x128_S200000x1_S200000x128_1_0_0_1_wf : ScatterDims.WF S200000x128 S200000x1 S200000x128 [1] [0] [0] 1
  gather_S128_S200000x1_S200000_n_0_n_n_0_1_1_wf : GatherDims.WF S128 S200000x1 S200000 [] [0] [] [0] [] 1 ![1]
  gather_S200000x256_S200000x1_S200000x256_1_0_n_n_0_1_1256_wf : GatherDims.WF S200000x256 S200000x1 S200000x256 [1] [0] [] [0] [] 1 ![1, 256]
  dot_S200000x384_S384x128_S200000x128_1_0_0_1_n_n_wf : DotDims.WF S200000x384 S384x128 S200000x128 [1] [0] [0] [1] [] []
  scatter_S128x256_S200000x1_S200000x256_1_0_0_1_wf : ScatterDims.WF S128x256 S200000x1 S200000x256 [1] [0] [0] 1
  scatter_S128_S200000x1_S200000_n_0_0_1_wf : ScatterDims.WF S128 S200000x1 S200000 [] [0] [0] 1

variable [Facts₀]

def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def scatter_S200000_S200000x1_S200000_n_0_0_1 : ScatterDims S200000 S200000x1 S200000 where
  updateWindowDims := []
  insertedWindowDims := [0]
  scatterDimsToOperandDims := [0]
  indexVectorDim := 1
  wf := scatter_S200000_S200000x1_S200000_n_0_0_1_wf
def gather_S200000_S200000x1_S200000_n_0_n_n_0_1_1 : GatherDims S200000 S200000x1 S200000 where
  offsetDims := []
  collapsedSliceDims := [0]
  operandBatchingDims := []
  startIndicesBatchingDims := []
  startIndexMap := [0]
  indexVectorDim := 1
  sliceSizes := ![1]
  wf := gather_S200000_S200000x1_S200000_n_0_n_n_0_1_1_wf
def gather_S200000x128_S200000x1_S200000x128_1_0_n_n_0_1_1128 : GatherDims S200000x128 S200000x1 S200000x128 where
  offsetDims := [1]
  collapsedSliceDims := [0]
  operandBatchingDims := []
  startIndicesBatchingDims := []
  startIndexMap := [0]
  indexVectorDim := 1
  sliceSizes := ![1, 128]
  wf := gather_S200000x128_S200000x1_S200000x128_1_0_n_n_0_1_1128_wf
def scatter_S200000x128_S200000x1_S200000x128_1_0_0_1 : ScatterDims S200000x128 S200000x1 S200000x128 where
  updateWindowDims := [1]
  insertedWindowDims := [0]
  scatterDimsToOperandDims := [0]
  indexVectorDim := 1
  wf := scatter_S200000x128_S200000x1_S200000x128_1_0_0_1_wf
def gather_S128_S200000x1_S200000_n_0_n_n_0_1_1 : GatherDims S128 S200000x1 S200000 where
  offsetDims := []
  collapsedSliceDims := [0]
  operandBatchingDims := []
  startIndicesBatchingDims := []
  startIndexMap := [0]
  indexVectorDim := 1
  sliceSizes := ![1]
  wf := gather_S128_S200000x1_S200000_n_0_n_n_0_1_1_wf
def gather_S200000x256_S200000x1_S200000x256_1_0_n_n_0_1_1256 : GatherDims S200000x256 S200000x1 S200000x256 where
  offsetDims := [1]
  collapsedSliceDims := [0]
  operandBatchingDims := []
  startIndicesBatchingDims := []
  startIndexMap := [0]
  indexVectorDim := 1
  sliceSizes := ![1, 256]
  wf := gather_S200000x256_S200000x1_S200000x256_1_0_n_n_0_1_1256_wf
def dot_S200000x384_S384x128_S200000x128_1_0_0_1_n_n : DotDims S200000x384 S384x128 S200000x128 where
  lhsContracting := [1]
  rhsContracting := [0]
  lhsNonContracting := [0]
  rhsNonContracting := [1]
  lhsBatch := []
  rhsBatch := []
  wf := dot_S200000x384_S384x128_S200000x128_1_0_0_1_n_n_wf
def scatter_S128x256_S200000x1_S200000x256_1_0_0_1 : ScatterDims S128x256 S200000x1 S200000x256 where
  updateWindowDims := [1]
  insertedWindowDims := [0]
  scatterDimsToOperandDims := [0]
  indexVectorDim := 1
  wf := scatter_S128x256_S200000x1_S200000x256_1_0_0_1_wf
def scatter_S128_S200000x1_S200000_n_0_0_1 : ScatterDims S128 S200000x1 S200000 where
  updateWindowDims := []
  insertedWindowDims := [0]
  scatterDimsToOperandDims := [0]
  indexVectorDim := 1
  wf := scatter_S128_S200000x1_S200000_n_0_0_1_wf

class Facts : Prop extends Facts₀ where

variable [Facts]
-- ==== Proof.KRun.lean ====
/-
  The idealized kernel program's run with its result NAMED.  The program is four pipelined calls among five
  stretches of host operations; the contents of every buffer at each boundary between them are a fold from the
  launch memory (`W0` … `W11` of the generated frame module).  Every weakly fair execution terminates without a
  fault, and in its final state every unscoped buffer holds the last boundary's contents; here that is read at the
  result buffer (`main_v95`) as well as at the eight arguments, which end as launched.
-/
import proofs.«118666_j9182640079570_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the arguments end as launched. -/
theorem run_named : θ_run defs (onTc (τ := τ) (main (F := F))) ⟨m, fun _ => 0, ρ⟩ (fun r => ∀ c : Dev nD,
      r.2.mem ((c.tc : Thread nD τ).loc main_v95) = W11 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v95 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.KRun

end
-- ==== Proof.PreDecode.lean ====
/-
  What the precondition says about the graph labels.  The precondition is a conjunction of "all" tests, the last
  of which is: every label is at least 0 and less than 128, as signed 32-bit numbers.  A conjunction of bits that
  is 1 has every conjunct 1, and an "and" reduction that is 1 has every reduced entry 1.
-/
import proofs.«118666_j9182640079570_2_alg».proof.Pre_finite_inputs
import Idealize.ShloMosaic.Lib.ReduceAll
import Idealize.ShloMosaic.Lib.Affine

noncomputable section

namespace Cert.Bridge

open Idealize.ShloMosaic Cert.Pre_finite_inputs

/-- The rank-0 shape has one index. -/
instance subsingleton_scalar_idx : Subsingleton S_.Idx := ⟨fun a b => funext fun d => d.elim0⟩

variable [Cert.Pre_finite_inputs.Facts]

/-- Under the precondition every label lies in [0, 128) as a signed number. -/
theorem batch_range {F : FTy → Type} [FloatOps F] (a0 : FVec F S200000x256 .f32) (a1 : IVec S2x200000 32) (a2 : IVec S200000 32)
    (a3 : IVec S128 32) (a4 : FVec F S256x128 .f32) (a5 : FVec F S128 .f32) (a6 : FVec F S384x128 .f32) (a7 : FVec F S128 .f32)
    (h : fn (F := F) a0 a1 a2 a3 a4 a5 a6 a7 = fun _ => 1#1) (n : S200000.Idx) :
    0 ≤ (a2 n).toInt ∧ (a2 n).toInt < 128 := by
  have h0 := congrFun h (fun d => d.elim0)
  dsimp only [fn, fn_part1] at h0
  have h1 := (IntOp.andi_eq_one.mp h0).2
  have h2 := Host.reduce_andi_all _ _ _ _ _ h1 n
  have h3 := IntOp.andi_eq_one.mp h2
  have hge := IntOp.cmpi_sge.mp h3.1
  have hlt := IntOp.cmpi_slt.mp h3.2
  refine ⟨?_, ?_⟩
  · simpa [broadcastInDim, constantI] using hge
  · simpa [broadcastInDim, constantI] using hlt

end Cert.Bridge

end
-- ==== Proof.Spec.lean ====
/-
  What each of the four pallas_calls computes, as one whole-array function of the arrays it is given, over the
  extended reals.  Rows are nodes (200000 of them, in 25 blocks of 8000), columns are features.

  * `mm0`   : the first feature product, row i of x against column j of the weights.
  * `comb1` : a layer's combine step: the aggregated neighbours, plus the node's own features scaled by the
               reciprocal of its degree (one number per row), plus the bias (one number per column).
  * `hot`   : the indicator that a node's graph label is g, as a number 0 or 1.
  * `mm2`   : the second feature product on the rectified first-layer output, plus the row of a 128-row table
               selected by the node's graph label (written as a sum over all 128 labels against the indicator).
  * `pool3` : per graph g and feature j, the sum over ALL nodes of the indicator times the rectified combine
               step of the second layer.
-/
import Idealize.ShloMosaic.PureOps.Ideal
import Idealize.ShloMosaic.Lib.ValueIdx

noncomputable section

namespace Cert.Gcn

open Idealize.ShloMosaic Idealize.ShloMosaic.ValueIdx

abbrev SNx256 : Shape := ⟨2, ![200000, 256]⟩
abbrev SNx128 : Shape := ⟨2, ![200000, 128]⟩
abbrev SNx1 : Shape := ⟨2, ![200000, 1]⟩
abbrev S256x128 : Shape := ⟨2, ![256, 128]⟩
abbrev S128x128 : Shape := ⟨2, ![128, 128]⟩
abbrev S1x128 : Shape := ⟨2, ![1, 128]⟩

/-- Row i of `x` against column j of `w`. -/
def mm0 (x : SNx256.Idx → EReal) (w : S256x128.Idx → EReal) : SNx128.Idx → EReal :=
  fun i => ∑ k : Fin 256, x (ix2 (i 0) k) * w (ix2 k (i 1))

/-- Aggregate + own features × (per-row scale) + (per-column bias). -/
def comb1 (agg h : SNx128.Idx → EReal) (rd : SNx1.Idx → EReal) (b : S1x128.Idx → EReal) : SNx128.Idx → EReal :=
  fun i => agg i + h i * rd (ix2 (i 0) 0) + b (ix2 0 (i 1))

/-- 1 when the 32-bit label `v` is the number `g`, else 0. -/
def hot (v : BitVec 32) (g : ℕ) : EReal := if v = BitVec.ofNat 32 g then 1 else 0

/-- Rectified rows against `wa`, plus the table row picked by the node's label. -/
def mm2 (x2 : SNx128.Idx → EReal) (wa : S128x128.Idx → EReal) (bt : SNx1.Idx → BitVec 32)
    (ct : S128x128.Idx → EReal) : SNx128.Idx → EReal :=
  fun i => (∑ k : Fin 128, max (x2 (ix2 (i 0) k)) 0 * wa (ix2 k (i 1)))
    + ∑ g : Fin 128, hot (bt (ix2 (i 0) 0)) g.val * ct (ix2 g (i 1))

/-- Per graph and feature: the sum over all nodes carrying that label of the rectified combine step. -/
def pool3 (agg h : SNx128.Idx → EReal) (rd : SNx1.Idx → EReal) (b : S1x128.Idx → EReal)
    (bt : SNx1.Idx → BitVec 32) : S128x128.Idx → EReal :=
  fun i => ∑ n : Fin 200000, hot (bt (ix2 n 0)) (i 0).val
    * max (agg (ix2 n (i 1)) + h (ix2 n (i 1)) * rd (ix2 n 0) + b (ix2 0 (i 1))) 0

end Cert.Gcn

end
-- ==== Proof.Reg01.lean ====
/-
  Regions 0 and 1 as whole-array functions.

  Region 0: at each of the 25 grid points the body multiplies an 8000×256 block of rows of x by the whole
  256×128 weight matrix into a zero accumulator and stores the 8000×128 result; the blocks tile the output, so the
  output array is the full product.

  Region 1: at each grid point the body adds, element by element, the aggregate block, the feature block times a
  per-row scale (a column broadcast along the columns) and a per-column bias (a row broadcast along the rows); the
  blocks tile the output, so the output array is that combination at every index.
-/
import proofs.«118666_j9182640079570_2_alg».proof.Proof.Gen.KernelIdeal.Frame
import proofs.«118666_j9182640079570_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-buffer access, however they are spelt. -/
theorem zero_off : (![0, 0] : Fin 2 → Nat) = fun _ => 0 := funext fun a => by fin_cases a <;> rfl

/-! ## Region 0: a block of rows of x against the whole weight matrix -/

theorem lhs0_row (i : S8000x128.Idx) (r : dot_S8000x256_S256x128_S8000x128_1_0_0_1_n_n.contr.Idx) : (dot_S8000x256_S256x128_S8000x128_1_0_0_1_n_n.lhsIdx i r 0).val = (i 0).val := by
  unfold DotDims.lhsIdx
  rw [dif_neg (show ¬(0 : Fin S8000x256.rank) ∈ dot_S8000x256_S256x128_S8000x128_1_0_0_1_n_n.lhsBatch by decide),
    dif_pos (show (0 : Fin S8000x256.rank) ∈ dot_S8000x256_S256x128_S8000x128_1_0_0_1_n_n.lhsNonContracting by decide)]
  rfl

theorem rhs0_col (i : S8000x128.Idx) (r : dot_S8000x256_S256x128_S8000x128_1_0_0_1_n_n.contr.Idx) : (dot_S8000x256_S256x128_S8000x128_1_0_0_1_n_n.rhsIdx i r 1).val = (i 1).val := by
  unfold DotDims.rhsIdx
  rw [dif_neg (show ¬(1 : Fin S256x128.rank) ∈ dot_S8000x256_S256x128_S8000x128_1_0_0_1_n_n.rhsBatch by decide),
    dif_pos (show (1 : Fin S256x128.rank) ∈ dot_S8000x256_S256x128_S8000x128_1_0_0_1_n_n.rhsNonContracting by decide)]
  rfl

/-- The body's arithmetic at an index `(p, q)` of the block: the change of float format is the identity on the
    extended reals, and the product into a zero accumulator is the sum over the 256 contracted positions. -/
theorem pay0_apply (x : Vec Ideal S8000x256 .f32) (w : Vec Ideal S256x128 .f32) (p : Fin 8000) (q : Fin 128) :
    k0_pay1 x w (ix2 p q) = ∑ k : Fin 256, x (ix2 p k) * w (ix2 k q) := by
  unfold k0_pay1
  show FloatOps.matmul dot_S8000x256_S256x128_S8000x128_1_0_0_1_n_n none (truncf (F := Ideal) .bf16 x bitsLt_bf16_f32) (truncf (F := Ideal) .bf16 w bitsLt_bf16_f32)
      (constant (F := Ideal) S8000x128 .f32 0x00000000#32) (ix2 p q) = _
  rw [Ideal.matmul_constant_zero_apply, ← Equiv.sum_comp (contrEquiv1 dot_S8000x256_S256x128_S8000x128_1_0_0_1_n_n 256 rfl rfl).symm]
  refine Finset.sum_congr rfl fun k _ => ?_
  have hk := contrEquiv1_symm_val dot_S8000x256_S256x128_S8000x128_1_0_0_1_n_n 256 rfl rfl k
  have el : dot_S8000x256_S256x128_S8000x128_1_0_0_1_n_n.lhsIdx (ix2 p q) ((contrEquiv1 dot_S8000x256_S256x128_S8000x128_1_0_0_1_n_n 256 rfl rfl).symm k) = ix2 p k := funext fun a => Fin.ext (by
    match a with
    | ⟨0, _⟩ => exact lhs0_row _ _
    | ⟨1, _⟩ => exact (dot_S8000x256_S256x128_S8000x128_1_0_0_1_n_n.lhsIdx_val_of_single rfl _ _).trans hk)
  have er : dot_S8000x256_S256x128_S8000x128_1_0_0_1_n_n.rhsIdx (ix2 p q) ((contrEquiv1 dot_S8000x256_S256x128_S8000x128_1_0_0_1_n_n 256 rfl rfl).symm k) = ix2 k q := funext fun a => Fin.ext (by
    match a with
    | ⟨0, _⟩ => exact (dot_S8000x256_S256x128_S8000x128_1_0_0_1_n_n.rhsIdx_val_of_single rfl _ _).trans hk
    | ⟨1, _⟩ => exact rhs0_col _ _)
  rw [truncf_apply, truncf_apply, el, er]

/-- The product read at an index, from a row of x and a column of the weights read at the indices that are them. -/
theorem mm0_at (X : Cert.Gcn.SNx256.Idx → EReal) (W : Cert.Gcn.S256x128.Idx → EReal) (i : Cert.Gcn.SNx128.Idx)
    (f : Fin 256 → Cert.Gcn.SNx256.Idx) (g : Fin 256 → Cert.Gcn.S256x128.Idx)
    (hf : ∀ k, f k = ix2 (i 0) k) (hg : ∀ k, g k = ix2 k (i 1)) :
    ∑ k : Fin 256, X (f k) * W (g k) = Cert.Gcn.mm0 X W i := by
  unfold Cert.Gcn.mm0
  exact Finset.sum_congr rfl fun k _ => by rw [hf k, hg k]; rfl

/-- The printed index maps of region 0, decided over the 25 grid points: the row-blocked windows sit at block `t`
    on the rows and block 0 on the columns; the weight window is the whole array at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the whole arrays. -/
theorem flushed0 (c : Dev nD) (t : Fin cfg0.N) :
    (dat0 (F := Ideal) V c).flushed 2 t = ((cfg0.win 2).blk t).view.read (Elt Ideal)
      (Cert.Gcn.mm0 (V c main_arg0) (V c main_arg4)) := by
  show (cfg0.win 2).cut (grid0.coords t) ((dat0 V c).after 2 t) = _
  rw [after0_2]
  unfold out0_2
  rw [View.canon_unit_zero zero_off]
  simp only [View.ld_unit_zero (S := S8000x256) zero_off, View.ld_unit_zero (S := S256x128) zero_off]
  obtain ⟨e00, e01, e10, e11, e20, e21⟩ := idx_facts0 t
  funext j
  obtain ⟨p, q, rfl⟩ : ∃ (p : Fin 8000) (q : Fin 128), j = ix2 p q := ⟨j 0, j 1, eq_ix2 j⟩
  refine (pay0_apply _ _ p q).trans ?_
  have h0 : ∀ k : Fin 256, ((cfg0.win 0).blk t).view.emb (ix2 p k)
      = ix2 ((((cfg0.win 2).blk t).view.emb (ix2 p q)) 0) k := fun k => by
    funext a; apply Fin.ext
    match a with
    | ⟨0, _⟩ => show win0_0.index t (0 : Fin 2) * 8000 + 1 * p.val = win0_2.index t (0 : Fin 2) * 8000 + 1 * p.val; omega
    | ⟨1, _⟩ => show win0_0.index t (1 : Fin 2) * 256 + 1 * k.val = k.val; omega
  have h1 : ∀ k : Fin 256, ((cfg0.win 1).blk t).view.emb (ix2 k q)
      = ix2 k ((((cfg0.win 2).blk t).view.emb (ix2 p q)) 1) := fun k => by
    funext a; apply Fin.ext
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  exact mm0_at (V c main_arg0) (V c main_arg4) _ (fun k => ((cfg0.win 0).blk t).view.emb (ix2 p k))
    (fun k => ((cfg0.win 1).blk t).view.emb (ix2 k q)) h0 h1

/-- An index of the array is in point `t`'s output block iff each coordinate is in the block's range on its axis. -/
theorem mem_blk0 (t : Fin cfg0.N) (i : S200000x128.Idx) :
    i ∈ ((cfg0.win 2).blk t).view.set ↔ ∀ a : Fin 2, win0_2.index t a * S8000x128.size a ≤ (i a).val
      ∧ (i a).val < win0_2.index t a * S8000x128.size a + S8000x128.size a := by
  show i ∈ ((View.whole main_v27).slice (win0_2.rect t)).set ↔ _
  rw [View.set_slice_whole, Rect.mem_set_unit]
  exact Iff.rfl

/-- Row `r` lies in the block of point `r / 8000`: the 25 output blocks cover the array. -/
theorem cover0 (i : S200000x128.Idx) :
    ∃ t : Fin cfg0.N, (cfg0.win 2).flush t = true ∧ i ∈ ((cfg0.win 2).blk t).view.set := by
  have hi0 : (i 0).val < 200000 := (i 0).isLt
  have hi1 : (i 1).val < 128 := (i 1).isLt
  have hN : cfg0.N = 25 := N_0
  have ht : (i 0).val / 8000 < cfg0.N := by rw [hN]; omega
  obtain ⟨-, -, -, -, e20, e21⟩ := idx_facts0 ⟨(i 0).val / 8000, ht⟩
  have e20' : win0_2.index ⟨(i 0).val / 8000, ht⟩ (0 : Fin 2) = (i 0).val / 8000 := e20
  refine ⟨⟨(i 0).val / 8000, ht⟩, flush0_2 _, ?_⟩
  rw [mem_blk0]
  intro a
  match a with
  | ⟨0, _⟩ =>
    show win0_2.index ⟨(i 0).val / 8000, ht⟩ (0 : Fin 2) * 8000 ≤ (i 0).val
      ∧ (i 0).val < win0_2.index ⟨(i 0).val / 8000, ht⟩ (0 : Fin 2) * 8000 + 8000
    omega
  | ⟨1, _⟩ =>
    show win0_2.index ⟨(i 0).val / 8000, ht⟩ (1 : Fin 2) * 128 ≤ (i 1).val
      ∧ (i 1).val < win0_2.index ⟨(i 0).val / 8000, ht⟩ (1 : Fin 2) * 128 + 128
    omega

/-- Region 0's output array after its 25 points: the product of x and the weights, at every index. -/
theorem arr0 (c : Dev nD) : (dat0 (F := Ideal) V c).arrAt 2 cfg0.N
    = Cert.Gcn.mm0 (V c main_arg0) (V c main_arg4) :=
  (dat0 (F := Ideal) V c).arrAt_eq_of_cover 2 _ (fun t _ => flushed0 V c t) cover0

/-! ## Region 1: aggregate + features × row scale + column bias -/

/-- A column `[a, 1]` broadcast along the columns to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's arithmetic at an index `(p, q)` of the block. -/
theorem pay1_apply (x0 x1 : Vec Ideal S8000x128 .f32) (x2 : Vec Ideal S8000x1 .f32) (x3 : Vec Ideal S1x128 .f32)
    (p : Fin 8000) (q : Fin 128) :
    k1_pay1 x0 x1 x2 x3 (ix2 p q) = x0 (ix2 p q) + x1 (ix2 p q) * x2 (ix2 p (0 : Fin 1)) + x3 (ix2 (0 : Fin 1) q) := by
  unfold k1_pay1
  simp only [shapeCast_self]
  rw [addf_apply, addf_apply, mulf_apply, broadcastTo_a1_ab_apply, broadcastTo_1b_ab_apply]

/-- The combination read at an index, from the four arrays read at indices that are that index's row / column. -/
theorem comb1_at (A H : Cert.Gcn.SNx128.Idx → EReal) (R : Cert.Gcn.SNx1.Idx → EReal) (B : Cert.Gcn.S1x128.Idx → EReal)
    (i0 i1 i : Cert.Gcn.SNx128.Idx) (i2 : Cert.Gcn.SNx1.Idx) (i3 : Cert.Gcn.S1x128.Idx)
    (h0 : i0 = i) (h1 : i1 = i) (h2 : i2 = ix2 (i 0) (0 : Fin 1)) (h3 : i3 = ix2 (0 : Fin 1) (i 1)) :
    A i0 + H i1 * R i2 + B i3 = Cert.Gcn.comb1 A H R B i := by
  subst h0 h1 h2 h3; rfl

/-- The printed index maps of region 1, decided over the 25 grid points: the row-blocked windows sit at block `t`
    on the rows and block 0 on the columns; the bias window is the whole array at every point. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the combination of the whole arrays. -/
theorem flushed1 (c : Dev nD) (t : Fin cfg1.N) :
    (dat1 (F := Ideal) V c).flushed 4 t = ((cfg1.win 4).blk t).view.read (Elt Ideal)
      (Cert.Gcn.comb1 (V c main_v40) (V c main_v27) (V c main_v41) (V c main_v42)) := by
  show (cfg1.win 4).cut (grid1.coords t) ((dat1 V c).after 4 t) = _
  rw [after1_4]
  unfold out1_4
  rw [View.canon_unit_zero zero_off]
  simp only [View.ld_unit_zero (S := S8000x128) zero_off, View.ld_unit_zero (S := S8000x1) zero_off,
    View.ld_unit_zero (S := S1x128) zero_off]
  obtain ⟨e00, e01, e10, e11, e20, e21, e30, e31, e40, e41⟩ := idx_facts1 t
  funext j
  obtain ⟨p, q, rfl⟩ : ∃ (p : Fin 8000) (q : Fin 128), j = ix2 p q := ⟨j 0, j 1, eq_ix2 j⟩
  refine (pay1_apply _ _ _ _ p q).trans ?_
  have h0 : ((cfg1.win 0).blk t).view.emb (ix2 p q) = ((cfg1.win 4).blk t).view.emb (ix2 p q) := by
    funext a; apply Fin.ext
    match a with
    | ⟨0, _⟩ => show win1_0.index t (0 : Fin 2) * 8000 + 1 * p.val = win1_4.index t (0 : Fin 2) * 8000 + 1 * p.val; omega
    | ⟨1, _⟩ => show win1_0.index t (1 : Fin 2) * 128 + 1 * q.val = win1_4.index t (1 : Fin 2) * 128 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 8000 + 1 * p.val = win1_4.index t (0 : Fin 2) * 8000 + 1 * p.val; omega
    | ⟨1, _⟩ => show win1_1.index t (1 : Fin 2) * 128 + 1 * q.val = win1_4.index t (1 : Fin 2) * 128 + 1 * q.val; omega
  have h2 : ((cfg1.win 2).blk t).view.emb (ix2 p (0 : Fin 1)) = ix2 ((((cfg1.win 4).blk t).view.emb (ix2 p q)) 0) (0 : Fin 1) := by
    funext a; apply Fin.ext
    match a with
    | ⟨0, _⟩ => show win1_2.index t (0 : Fin 2) * 8000 + 1 * p.val = win1_4.index t (0 : Fin 2) * 8000 + 1 * p.val; omega
    | ⟨1, _⟩ => show win1_2.index t (1 : Fin 2) * 1 + 1 * 0 = 0; omega
  have h3 : ((cfg1.win 3).blk t).view.emb (ix2 (0 : Fin 1) q) = ix2 (0 : Fin 1) ((((cfg1.win 4).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega
  exact comb1_at (V c main_v40) (V c main_v27) (V c main_v41) (V c main_v42) _ _ _ _ _ h0 h1 h2 h3

/-- An index of the array is in point `t`'s output block iff each coordinate is in the block's range on its axis. -/
theorem mem_blk1 (t : Fin cfg1.N) (i : S200000x128.Idx) :
    i ∈ ((cfg1.win 4).blk t).view.set ↔ ∀ a : Fin 2, win1_4.index t a * S8000x128.size a ≤ (i a).val
      ∧ (i a).val < win1_4.index t a * S8000x128.size a + S8000x128.size a := by
  show i ∈ ((View.whole main_v43).slice (win1_4.rect t)).set ↔ _
  rw [View.set_slice_whole, Rect.mem_set_unit]
  exact Iff.rfl

/-- Row `r` lies in the block of point `r / 8000`: the 25 output blocks cover the array. -/
theorem cover1 (i : S200000x128.Idx) :
    ∃ t : Fin cfg1.N, (cfg1.win 4).flush t = true ∧ i ∈ ((cfg1.win 4).blk t).view.set := by
  have hi0 : (i 0).val < 200000 := (i 0).isLt
  have hi1 : (i 1).val < 128 := (i 1).isLt
  have hN : cfg1.N = 25 := N_1
  have ht : (i 0).val / 8000 < cfg1.N := by rw [hN]; omega
  obtain ⟨-, -, -, -, -, -, -, -, e40, e41⟩ := idx_facts1 ⟨(i 0).val / 8000, ht⟩
  have e40' : win1_4.index ⟨(i 0).val / 8000, ht⟩ (0 : Fin 2) = (i 0).val / 8000 := e40
  refine ⟨⟨(i 0).val / 8000, ht⟩, flush1_4 _, ?_⟩
  rw [mem_blk1]
  intro a
  match a with
  | ⟨0, _⟩ =>
    show win1_4.index ⟨(i 0).val / 8000, ht⟩ (0 : Fin 2) * 8000 ≤ (i 0).val
      ∧ (i 0).val < win1_4.index ⟨(i 0).val / 8000, ht⟩ (0 : Fin 2) * 8000 + 8000
    omega
  | ⟨1, _⟩ =>
    show win1_4.index ⟨(i 0).val / 8000, ht⟩ (1 : Fin 2) * 128 ≤ (i 1).val
      ∧ (i 1).val < win1_4.index ⟨(i 0).val / 8000, ht⟩ (1 : Fin 2) * 128 + 128
    omega

/-- Region 1's output array after its 25 points: the combination of the four arrays it read, at every index. -/
theorem arr1 (c : Dev nD) : (dat1 (F := Ideal) V c).arrAt 4 cfg1.N
    = Cert.Gcn.comb1 (V c main_v40) (V c main_v27) (V c main_v41) (V c main_v42) :=
  (dat1 (F := Ideal) V c).arrAt_eq_of_cover 4 _ (fun t _ => flushed1 V c t) cover1

end Cert.KernelIdeal.Reg

end
-- ==== Proof.LibScatterAdd.lean ====
import Idealize.ShloMosaic.PureOps.ShapeOps
import Idealize.ShloMosaic.Lib.ValueIdx
import Mathlib.Data.BitVec

open scoped BigOperators

namespace Idealize.ShloMosaic.ScatterAdd

open Idealize.ShloMosaic Idealize.ShloMosaic.ValueIdx

/-- A left fold of functions whose every step adds `g m` at the point `i` reads there as the start
value at `i` plus the sum of the `g m`. -/
theorem foldl_apply_add {ι β M : Type*} [AddCommMonoid M] (step : (β → M) → ι → (β → M)) (g : ι → M)
    (i : β) (hstep : ∀ r m, step r m i = r i + g m) (l : List ι) (r0 : β → M) :
    (l.foldl step r0) i = r0 i + (l.map g).sum := by
  induction l generalizing r0 with
  | nil => simp
  | cons a l ih => rw [List.foldl_cons, ih, hstep, List.map_cons, List.sum_cons, add_assoc]

/-- A scatter whose body is integer addition, read at an operand index: the operand's element plus the
sum of the updates whose result index is that index (updates landing outside the operand are
dropped). -/
theorem scatter_add_apply {s si u : Shape} {w v : ℕ} (d : ScatterDims s si u) (x : IVec s v)
    (idx : IVec si w) (upd : IVec u v) (i : s.Idx) :
    Host.scatter d IntOp.addi x idx upd i
      = x i + ∑ j : u.Idx, if d.resultIdx? j idx = some i then upd j else 0 := by
  unfold Host.scatter
  refine (foldl_apply_add _
    (fun m => if d.resultIdx? (u.rowMajor.symm m) idx = some i then upd (u.rowMajor.symm m) else 0)
    i ?_ _ _).trans ?_
  · intro r m
    generalize hres : d.resultIdx? (u.rowMajor.symm m) idx = o
    cases o with
    | none => simp
    | some i0 =>
      by_cases hi : i = i0
      · subst hi
        simp [IntOp.addi]
      · have hne : ¬ (some i0 = some i) := fun h => hi (Option.some.inj h).symm
        simp [hne, hi]
  · congr 1
    rw [← Fin.sum_univ_def, ← Equiv.sum_comp u.rowMajor]
    simp only [Equiv.symm_apply_apply]

/-- A rank-one index is its one coordinate. -/
def idxEquiv1 (n : ℕ) : (⟨1, ![n]⟩ : Shape).Idx ≃ Fin n where
  toFun i := i 0
  invFun a := ix1 a
  left_inv i := (eq_ix1 i).symm
  right_inv _ := rfl

/-- A sum over a rank-one index set is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 n).symm f]
  rfl

/-! ## One index column: scattering `M` scalar updates into a length-`N` operand -/

section Bincount
variable (N M : ℕ)
  (wf : ScatterDims.WF (⟨1, ![N]⟩ : Shape) (⟨2, ![M, 1]⟩ : Shape) (⟨1, ![M]⟩ : Shape) [] [0] [0] 1)

/-- The dimension numbers of a scatter of `M` scalar updates into a length-`N` operand through an
`M × 1` array of indices: no window axes, the operand's one axis inserted and named by the start
index's one component, the index vector along axis one. -/
abbrev bincountDims :
    ScatterDims (⟨1, ![N]⟩ : Shape) (⟨2, ![M, 1]⟩ : Shape) (⟨1, ![M]⟩ : Shape) where
  updateWindowDims := []
  insertedWindowDims := [0]
  scatterDimsToOperandDims := [0]
  indexVectorDim := 1
  wf := wf

/-- The start of update `p` on the operand's axis is index `(p, 0)` read as a signed integer. -/
theorem bincount_start (idx : IVec (⟨2, ![M, 1]⟩ : Shape) 32) (p : Fin M) :
    (bincountDims N M wf).start (ix1 p) idx 0 = (idx (ix2 p ⟨0, Nat.one_pos⟩)).toInt := by
  unfold ScatterDims.start
  rw [dif_pos (show (0 : Fin 1) ∈ (bincountDims N M wf).scatterDimsToOperandDims from
    List.mem_singleton.mpr rfl)]
  have hsi : (bincountDims N M wf).siIdx (ix1 p)
      ⟨List.idxOf (0 : Fin 1) (bincountDims N M wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- The window coordinate of every update is zero: the operand's one axis is inserted. -/
theorem bincount_window (p : Fin M) : (bincountDims N M wf).window (ix1 p) 0 = 0 := by
  unfold ScatterDims.window
  rw [dif_neg]
  intro hmem
  have h2 := (List.mem_filter.mp hmem).2
  simp at h2

/-- Update `p` lands on slot `k` exactly when its index, read as a signed integer, is `k`. -/
theorem bincount_resultIdx?_eq_some_iff (idx : IVec (⟨2, ![M, 1]⟩ : Shape) 32) (p : Fin M) (k : Fin N) :
    (bincountDims N M wf).resultIdx? (ix1 p) idx = some (ix1 k)
      ↔ (idx (ix2 p ⟨0, Nat.one_pos⟩)).toInt = (k.val : ℤ) := by
  have hs := bincount_start N M wf idx p
  have hw := bincount_window N M wf p
  have hk := k.isLt
  unfold ScatterDims.resultIdx?
  split
  · rename_i hc
    have h0 := hc 0
    rw [hs, hw] at h0
    change 0 ≤ (idx (ix2 p ⟨0, Nat.one_pos⟩)).toInt + ((0 : ℕ) : ℤ)
      ∧ (idx (ix2 p ⟨0, Nat.one_pos⟩)).toInt + ((0 : ℕ) : ℤ) < (N : ℤ) at h0
    rw [Option.some.injEq]
    constructor
    · intro he
      have h1 := congrArg Fin.val (congrFun he 0)
      change ((bincountDims N M wf).start (ix1 p) idx 0
        + (((bincountDims N M wf).window (ix1 p) 0 : ℕ) : ℤ)).toNat = k.val at h1
      rw [hs, hw] at h1
      omega
    · intro he
      funext a
      obtain rfl : a = 0 := Subsingleton.elim _ _
      apply Fin.ext
      show ((bincountDims N M wf).start (ix1 p) idx 0
        + (((bincountDims N M wf).window (ix1 p) 0 : ℕ) : ℤ)).toNat = k.val
      rw [hs, hw]
      omega
  · rename_i hc
    constructor
    · intro he
      exact absurd he (by simp)
    · intro he
      exfalso
      apply hc
      intro a
      obtain rfl : a = 0 := Subsingleton.elim _ _
      rw [hs, hw]
      show 0 ≤ (idx (ix2 p ⟨0, Nat.one_pos⟩)).toInt + ((0 : ℕ) : ℤ)
        ∧ (idx (ix2 p ⟨0, Nat.one_pos⟩)).toInt + ((0 : ℕ) : ℤ) < (N : ℤ)
      omega

end Bincount

/-- Scattering `M` scalar updates by addition into a length-`N` operand through an `M × 1` array of
indices, read at slot `k`: the operand's element plus the sum of the updates whose index, read as a
signed integer, is `k` (an index outside `[0, N)` lands nowhere). -/
theorem bincount_apply (N M : ℕ)
    (wf : ScatterDims.WF (⟨1, ![N]⟩ : Shape) (⟨2, ![M, 1]⟩ : Shape) (⟨1, ![M]⟩ : Shape) [] [0] [0] 1)
    (x : IVec (⟨1, ![N]⟩ : Shape) 32) (idx : IVec (⟨2, ![M, 1]⟩ : Shape) 32)
    (upd : IVec (⟨1, ![M]⟩ : Shape) 32) (k : Fin N) :
    Host.scatter
      ({ updateWindowDims := [], insertedWindowDims := [0], scatterDimsToOperandDims := [0],
         indexVectorDim := 1, wf := wf } :
        ScatterDims (⟨1, ![N]⟩ : Shape) (⟨2, ![M, 1]⟩ : Shape) (⟨1, ![M]⟩ : Shape))
      IntOp.addi x idx upd (ix1 k)
      = x (ix1 k) + ∑ p : Fin M,
          if (idx (ix2 p ⟨0, Nat.one_pos⟩)).toInt = (k.val : ℤ) then upd (ix1 p) else 0#32 := by
  show Host.scatter (bincountDims N M wf) IntOp.addi x idx upd (ix1 k) = _
  rw [scatter_add_apply, sum_idx1]
  congr 1
  apply Finset.sum_congr rfl
  intro p _
  by_cases hc : (idx (ix2 p ⟨0, Nat.one_pos⟩)).toInt = (k.val : ℤ)
  · rw [if_pos hc, if_pos ((bincount_resultIdx?_eq_some_iff N M wf idx p k).mpr hc)]
  · rw [if_neg hc, if_neg (fun h => hc ((bincount_resultIdx?_eq_some_iff N M wf idx p k).mp h))]
    rfl

end Idealize.ShloMosaic.ScatterAdd
-- ==== Proof.LibGatherScatterCol.lean ====
import Idealize.ShloMosaic.PureOps.ShapeOps
import Idealize.ShloMosaic.PureOps.Ideal
import Idealize.ShloMosaic.Lib.ValueIdx
import proofs.«118666_j9182640079570_2_alg».proof.Proof.LibScatterAdd

/-!
# Gathers and accumulating scatters through one column of indices, read at an index

An `M × 1` array of integer indices addresses the rows of an operand with `N` rows, the operand either a
vector `[N]` or a one-column matrix `[N, 1]`.

* A *gather* reads, for every `p < M`, the operand's row `clamp (idx p)`: the index read as a signed integer
  and clamped into `[0, N − 1]`.
* An *accumulating scatter* at the ideal instance (floats are extended reals) leaves in row `k` the operand's
  element plus the sum of those updates `p` whose index, read as a signed integer, is exactly `k`; an index
  outside `[0, N)` lands nowhere.
-/

open scoped BigOperators

namespace Idealize.ShloMosaic.GatherScatterCol

open Idealize.ShloMosaic Idealize.ShloMosaic.ValueIdx Idealize.ShloMosaic.ScatterAdd

/-- A sum over the index set of an `M × 1` array is the sum over its rows. -/
theorem sum_idxCol {A : Type*} [AddCommMonoid A] {M : ℕ} (f : (⟨2, ![M, 1]⟩ : Shape).Idx → A) :
    ∑ i, f i = ∑ p : Fin M, f (ix2 p ⟨0, Nat.one_pos⟩) := by
  rw [sum_idx2]
  apply Finset.sum_congr rfl
  intro p _
  rw [Fin.sum_univ_one]
  rfl

/-! ## The accumulating scatter into a one-column matrix -/

section ColScatter
variable (N M : ℕ)
  (wf : ScatterDims.WF (⟨2, ![N, 1]⟩ : Shape) (⟨2, ![M, 1]⟩ : Shape) (⟨2, ![M, 1]⟩ : Shape) [1] [0] [0] 1)

/-- The dimension numbers of a scatter of `M` one-element rows into an `N × 1` operand through an `M × 1`
array of indices: the updates' second axis is the window axis and goes to the operand's second axis, the
operand's first axis is inserted and named by the start index's one component. -/
abbrev colDims :
    ScatterDims (⟨2, ![N, 1]⟩ : Shape) (⟨2, ![M, 1]⟩ : Shape) (⟨2, ![M, 1]⟩ : Shape) where
  updateWindowDims := [1]
  insertedWindowDims := [0]
  scatterDimsToOperandDims := [0]
  indexVectorDim := 1
  wf := wf

/-- On the operand's row axis the start of update `(p, q)` is index `(p, 0)` read as a signed integer. -/
theorem col_start0 (idx : IVec (⟨2, ![M, 1]⟩ : Shape) 32) (p : Fin M) (q : Fin 1) :
    (colDims N M wf).start (ix2 p q) idx 0 = (idx (ix2 p ⟨0, Nat.one_pos⟩)).toInt := by
  unfold ScatterDims.start
  rw [dif_pos (show (0 : Fin 2) ∈ (colDims N M wf).scatterDimsToOperandDims from
    List.mem_singleton.mpr rfl)]
  have hsi : (colDims N M wf).siIdx (ix2 p q)
      ⟨List.idxOf (0 : Fin 2) (colDims N M wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- On the operand's column axis, which the start index does not name, the start is zero. -/
theorem col_start1 (idx : IVec (⟨2, ![M, 1]⟩ : Shape) 32) (p : Fin M) (q : Fin 1) :
    (colDims N M wf).start (ix2 p q) idx 1 = 0 := by
  unfold ScatterDims.start
  rw [dif_neg]
  intro h
  exact absurd (congrArg Fin.val (List.mem_singleton.mp h)) Nat.one_ne_zero

/-- The window coordinate on the inserted row axis is zero. -/
theorem col_window0 (p : Fin M) (q : Fin 1) : (colDims N M wf).window (ix2 p q) 0 = 0 := by
  unfold ScatterDims.window
  rw [dif_neg]
  intro hmem
  have h2 := (List.mem_filter.mp hmem).2
  simp at h2

/-- The window coordinate on the column axis is zero: the column has one element. -/
theorem col_window1 (p : Fin M) (q : Fin 1) : (colDims N M wf).window (ix2 p q) 1 = 0 := by
  have hw := ScatterDims.window_size (colDims N M wf) ⟨0, Nat.one_pos⟩
  unfold ScatterDims.window
  split
  · have hq : ∀ r : Fin 1, r.val = 0 := fun r => by omega
    exact hq _
  · rfl

/-- Update `(p, q)` lands on element `(k, r)` exactly when index `p`, read as a signed integer, is `k`. -/
theorem col_resultIdx?_eq_some_iff (idx : IVec (⟨2, ![M, 1]⟩ : Shape) 32) (p : Fin M) (q r : Fin 1)
    (k : Fin N) :
    (colDims N M wf).resultIdx? (ix2 p q) idx = some (ix2 k r)
      ↔ (idx (ix2 p ⟨0, Nat.one_pos⟩)).toInt = (k.val : ℤ) := by
  have hs0 := col_start0 N M wf idx p q
  have hs1 := col_start1 N M wf idx p q
  have hw0 := col_window0 N M wf p q
  have hw1 := col_window1 N M wf p q
  have hk := k.isLt
  have hr : r.val = 0 := by omega
  unfold ScatterDims.resultIdx?
  split
  · rename_i hc
    have h0 := hc 0
    rw [hs0, hw0] at h0
    change 0 ≤ (idx (ix2 p ⟨0, Nat.one_pos⟩)).toInt + ((0 : ℕ) : ℤ)
      ∧ (idx (ix2 p ⟨0, Nat.one_pos⟩)).toInt + ((0 : ℕ) : ℤ) < (N : ℤ) at h0
    rw [Option.some.injEq]
    constructor
    · intro he
      have h1 := congrArg Fin.val (congrFun he 0)
      change ((colDims N M wf).start (ix2 p q) idx 0
        + (((colDims N M wf).window (ix2 p q) 0 : ℕ) : ℤ)).toNat = k.val at h1
      rw [hs0, hw0] at h1
      omega
    · intro he
      funext a
      match a with
      | ⟨0, _⟩ =>
        apply Fin.ext
        show ((colDims N M wf).start (ix2 p q) idx 0
          + (((colDims N M wf).window (ix2 p q) 0 : ℕ) : ℤ)).toNat = k.val
        rw [hs0, hw0]
        omega
      | ⟨1, _⟩ =>
        apply Fin.ext
        show ((colDims N M wf).start (ix2 p q) idx 1
          + (((colDims N M wf).window (ix2 p q) 1 : ℕ) : ℤ)).toNat = r.val
        rw [hs1, hw1]
        omega
  · rename_i hc
    constructor
    · intro he
      exact absurd he (by simp)
    · intro he
      exfalso
      apply hc
      intro a
      match a with
      | ⟨0, _⟩ =>
        show 0 ≤ (colDims N M wf).start (ix2 p q) idx 0
            + (((colDims N M wf).window (ix2 p q) 0 : ℕ) : ℤ)
          ∧ (colDims N M wf).start (ix2 p q) idx 0
            + (((colDims N M wf).window (ix2 p q) 0 : ℕ) : ℤ) < (N : ℤ)
        rw [hs0, hw0]
        omega
      | ⟨1, _⟩ =>
        show 0 ≤ (colDims N M wf).start (ix2 p q) idx 1
            + (((colDims N M wf).window (ix2 p q) 1 : ℕ) : ℤ)
          ∧ (colDims N M wf).start (ix2 p q) idx 1
            + (((colDims N M wf).window (ix2 p q) 1 : ℕ) : ℤ) < ((1 : ℕ) : ℤ)
        rw [hs1, hw1]
        omega

/-- At the ideal instance, the accumulating scatter into an `N × 1` operand read at row `k`: the operand's
element plus the sum of the updates whose index, read as a signed integer, is `k`. -/
theorem ideal_colScatterAdd_apply (x : (⟨2, ![N, 1]⟩ : Shape).Idx → EReal)
    (idx : IVec (⟨2, ![M, 1]⟩ : Shape) 32) (upd : (⟨2, ![M, 1]⟩ : Shape).Idx → EReal) (k : Fin N)
    (r : Fin 1) :
    Ideal.hostScatterAdd (colDims N M wf) x idx upd (ix2 k r)
      = x (ix2 k r) + ∑ p : Fin M,
          if (idx (ix2 p ⟨0, Nat.one_pos⟩)).toInt = (k.val : ℤ) then upd (ix2 p ⟨0, Nat.one_pos⟩) else 0 := by
  unfold Ideal.hostScatterAdd
  rw [Finset.sum_filter, sum_idxCol]
  congr 1
  apply Finset.sum_congr rfl
  intro p _
  exact if_congr (col_resultIdx?_eq_some_iff N M wf idx p ⟨0, Nat.one_pos⟩ r k) rfl rfl

end ColScatter

/-! ## The accumulating scatter into a vector -/

/-- At the ideal instance, the accumulating scatter of `M` scalar updates into a length-`N` operand read at
slot `k`: the operand's element plus the sum of the updates whose index, read as a signed integer, is `k`. -/
theorem ideal_vecScatterAdd_apply (N M : ℕ)
    (wf : ScatterDims.WF (⟨1, ![N]⟩ : Shape) (⟨2, ![M, 1]⟩ : Shape) (⟨1, ![M]⟩ : Shape) [] [0] [0] 1)
    (x : (⟨1, ![N]⟩ : Shape).Idx → EReal) (idx : IVec (⟨2, ![M, 1]⟩ : Shape) 32)
    (upd : (⟨1, ![M]⟩ : Shape).Idx → EReal) (k : Fin N) :
    Ideal.hostScatterAdd (bincountDims N M wf) x idx upd (ix1 k)
      = x (ix1 k) + ∑ p : Fin M,
          if (idx (ix2 p ⟨0, Nat.one_pos⟩)).toInt = (k.val : ℤ) then upd (ix1 p) else 0 := by
  unfold Ideal.hostScatterAdd
  rw [Finset.sum_filter, sum_idx1]
  congr 1
  apply Finset.sum_congr rfl
  intro p _
  exact if_congr (bincount_resultIdx?_eq_some_iff N M wf idx p k) rfl rfl

/-! ## The gathers -/

section Gather
variable {α : Type} (N M : ℕ)

/-- The dimension numbers of `x[idx]` for a vector `x : [N]` and an `M × 1` array of indices: the operand's
one axis collapsed and named by the start index's one component, no offset axis. -/
abbrev vecGatherDims
    (wf : GatherDims.WF (⟨1, ![N]⟩ : Shape) (⟨2, ![M, 1]⟩ : Shape) (⟨1, ![M]⟩ : Shape) [] [0] [] [0] [] 1 ![1]) :
    GatherDims (⟨1, ![N]⟩ : Shape) (⟨2, ![M, 1]⟩ : Shape) (⟨1, ![M]⟩ : Shape) where
  offsetDims := []
  collapsedSliceDims := [0]
  operandBatchingDims := []
  startIndicesBatchingDims := []
  startIndexMap := [0]
  indexVectorDim := 1
  sliceSizes := ![1]
  wf := wf

/-- The vector gather read at `p`: the operand at index `p`, read signed and clamped into `[0, N − 1]`. -/
theorem vecGather_apply (hN : 0 < N)
    (wf : GatherDims.WF (⟨1, ![N]⟩ : Shape) (⟨2, ![M, 1]⟩ : Shape) (⟨1, ![M]⟩ : Shape) [] [0] [] [0] [] 1 ![1])
    (x : (⟨1, ![N]⟩ : Shape).Idx → α) (idx : IVec (⟨2, ![M, 1]⟩ : Shape) 32) (p : Fin M) :
    Host.gather (vecGatherDims N M wf) x idx (ix1 p)
      = x (ix1 ⟨min (idx (ix2 p ⟨0, Nat.one_pos⟩)).toInt.toNat (N - 1), by omega⟩) := by
  unfold Host.gather
  congr 1
  funext a
  obtain rfl : a = 0 := Subsingleton.elim _ _
  refine Fin.ext ?_
  show (vecGatherDims N M wf).start (ix1 p) idx 0 + (vecGatherDims N M wf).batchCoord (ix1 p) 0
    + (vecGatherDims N M wf).offCoord (ix1 p) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 1) ∈ (vecGatherDims N M wf).startIndexMap from List.mem_singleton.mpr rfl)]
  have hsi : (vecGatherDims N M wf).siIdx (ix1 p)
      ⟨List.idxOf (0 : Fin 1) (vecGatherDims N M wf).startIndexMap,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]
  rfl

/-- The dimension numbers of a row gather from a one-column matrix `x : [N, 1]` through an `M × 1` array of
indices: the row axis collapsed and named by the start index's one component, the column axis the offset
axis. -/
abbrev colGatherDims
    (wf : GatherDims.WF (⟨2, ![N, 1]⟩ : Shape) (⟨2, ![M, 1]⟩ : Shape) (⟨2, ![M, 1]⟩ : Shape) [1] [0] [] [0] [] 1
      ![1, 1]) :
    GatherDims (⟨2, ![N, 1]⟩ : Shape) (⟨2, ![M, 1]⟩ : Shape) (⟨2, ![M, 1]⟩ : Shape) where
  offsetDims := [1]
  collapsedSliceDims := [0]
  operandBatchingDims := []
  startIndicesBatchingDims := []
  startIndexMap := [0]
  indexVectorDim := 1
  sliceSizes := ![1, 1]
  wf := wf

/-- The row gather read at `(p, q)`: the operand's element `(clamp (idx p), q)`. -/
theorem colGather_apply (hN : 0 < N)
    (wf : GatherDims.WF (⟨2, ![N, 1]⟩ : Shape) (⟨2, ![M, 1]⟩ : Shape) (⟨2, ![M, 1]⟩ : Shape) [1] [0] [] [0] [] 1
      ![1, 1])
    (x : (⟨2, ![N, 1]⟩ : Shape).Idx → α) (idx : IVec (⟨2, ![M, 1]⟩ : Shape) 32) (p : Fin M) (q : Fin 1) :
    Host.gather (colGatherDims N M wf) x idx (ix2 p q)
      = x (ix2 ⟨min (idx (ix2 p ⟨0, Nat.one_pos⟩)).toInt.toNat (N - 1), by omega⟩ q) := by
  unfold Host.gather
  congr 1
  funext a
  match a with
  | ⟨0, _⟩ =>
    refine Fin.ext ?_
    show (colGatherDims N M wf).start (ix2 p q) idx 0 + (colGatherDims N M wf).batchCoord (ix2 p q) 0
      + (colGatherDims N M wf).offCoord (ix2 p q) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (colGatherDims N M wf).startIndexMap from List.mem_singleton.mpr rfl)]
    have hsi : (colGatherDims N M wf).siIdx (ix2 p q)
        ⟨List.idxOf (0 : Fin 2) (colGatherDims N M wf).startIndexMap,
          List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    refine Fin.ext ?_
    have hq : ∀ r : Fin 1, r.val = 0 := fun r => by omega
    have hlt := GatherDims.lt (colGatherDims N M wf) (ix2 p q) idx 1
    show (colGatherDims N M wf).start (ix2 p q) idx 1 + (colGatherDims N M wf).batchCoord (ix2 p q) 1
      + (colGatherDims N M wf).offCoord (ix2 p q) 1 = q.val
    change (colGatherDims N M wf).start (ix2 p q) idx 1 + (colGatherDims N M wf).batchCoord (ix2 p q) 1
      + (colGatherDims N M wf).offCoord (ix2 p q) 1 < 1 at hlt
    rw [hq q]
    omega

end Gather

end Idealize.ShloMosaic.GatherScatterCol
-- ==== Proof.RefLow.lean ====
/-
  The reference's low stages against the whole-array functions of the specification.

  * `ref_h0`   : the reference's first feature product is `mm0`.
  * `deg_pos`  : a node's degree (one plus the number of edges pointing at it) is a real number, at least one.
  * `ref_x2`   : the first layer's combine step is `comb1` when the per-row scale is the square of the
                  reciprocal square root of the degree: for a real d ≥ 1, (1/√d)·(1/√d) = 1/d.
  * `ref_comb2`: the same for the second layer, followed by the rectifier.
-/
import proofs.«118666_j9182640079570_2_alg».proof.Proof.Gen.ReferenceIdeal.Read
import proofs.«118666_j9182640079570_2_alg».proof.Proof.Spec
import proofs.«118666_j9182640079570_2_alg».proof.Proof.LibGatherScatterCol

noncomputable section

namespace Cert.Bridge

open Cert.ReferenceIdeal Idealize.ShloMosaic Idealize.ShloMosaic.ValueIdx

/-! ## Small facts about the extended reals -/

/-- The 32-bit pattern of the float one is the extended real 1. -/
theorem one_f32 : FloatOps.ofBits (F := Ideal) .f32 0x3F800000#32 = 1 := by
  show Ideal.ofBits .f32 0x3F800000#32 = 1
  simp [Ideal.ofBits, Ideal.ieee, -EReal.coe_mul]; norm_num

/-- The 32-bit pattern of the float zero is the extended real 0. -/
theorem zero_f32 : FloatOps.ofBits (F := Ideal) .f32 0x00000000#32 = 0 :=
  Ideal.ofBits_zero_f32

/-- A finite sum of nonnegative reals, taken in the extended reals, is a nonnegative real. -/
theorem sum_coe_nonneg {ι : Type*} (s : Finset ι) (f : ι → EReal)
    (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_rfl, by simp⟩
  | insert a s ha ih =>
    obtain ⟨r, hr, er⟩ := ih (fun i hi => h i (Finset.mem_insert_of_mem hi))
    obtain ⟨q, hq, eq⟩ := h a (Finset.mem_insert_self a s)
    refine ⟨q + r, add_nonneg hq hr, ?_⟩
    rw [Finset.sum_insert ha, er, eq, EReal.coe_add]

/-- Counting: a finite sum of ones and zeros is a nonnegative real. -/
theorem sum_ite_one_coe {ι : Type*} [Fintype ι] (c : ι → Prop) [DecidablePred c] :
    ∃ r : ℝ, 0 ≤ r ∧ (∑ p : ι, if c p then (1 : EReal) else 0) = (r : EReal) := by
  refine sum_coe_nonneg Finset.univ (fun p => if c p then (1 : EReal) else 0) (fun p _ => ?_)
  by_cases hc : c p
  · exact ⟨1, zero_le_one, by rw [if_pos hc]; rfl⟩
  · exact ⟨0, le_rfl, by rw [if_neg hc]; rfl⟩

/-- For a real d ≥ 1 the reciprocal square root squared is the reciprocal: (1/√d)·(1/√d) = 1/d, also when
both sides are read in the extended reals. -/
theorem rsqrt_mul_self {r : ℝ} (hr : 1 ≤ r) :
    Ideal.rsqrt (r : EReal) * Ideal.rsqrt (r : EReal) = Ideal.div 1 (r : EReal) := by
  have h0 : 0 < r := lt_of_lt_of_le one_pos hr
  rw [Ideal.rsqrt_coe, if_neg (not_lt.mpr h0.le), if_neg h0.ne', Ideal.div_coe h0.ne', one_mul,
    ← EReal.coe_mul]
  congr 1
  rw [← mul_inv, Real.mul_self_sqrt h0.le, one_div]

/-! ## The first feature product -/

theorem ref_h0 (x0 : (⟨S200000x256, .f32⟩ : BufTy).Contents (Elt Ideal)) (x4 : (⟨S256x128, .f32⟩ : BufTy).Contents (Elt Ideal)) :
    Read.val_main_v4 (F := Ideal) x0 x4 = Cert.Gcn.mm0 x0 x4 := by
  funext i
  rw [Read.val_main_v4_apply]
  show _ = ∑ k : Fin 256, x0 (ix2 (i 0) k) * x4 (ix2 k (i 1))
  refine Finset.sum_congr rfl fun k _ => ?_
  have el : Read.lidx_main_v4 i k = ix2 (i 0) k := by
    funext a
    match a with
    | ⟨0, _⟩ => rfl
    | ⟨1, _⟩ => rfl
  have er : Read.ridx_main_v4 i k = ix2 k (i 1) := by
    funext a
    match a with
    | ⟨0, _⟩ => rfl
    | ⟨1, _⟩ => rfl
  rw [el, er]
  rfl

/-! ## The degree -/

/-- The degree of node k: one, plus zero, plus one for every edge whose target (read signed) is k. -/
theorem deg_eq (x1 : (⟨S2x200000, .i32⟩ : BufTy).Contents (Elt Ideal)) (k : Fin 200000) :
    Read.val_main_v10 (F := Ideal) x1 (ix1 k)
      = 1 + (0 + ∑ p : Fin 200000,
          if ((Read.val_main_v7 (F := Ideal) x1) (ix2 p ⟨0, Nat.one_pos⟩)).toInt = (k.val : ℤ)
            then (1 : EReal) else 0) := by
  have h5 : ∀ p : Fin 200000, Read.val_main_v5 (F := Ideal) (ix1 p) = 1 := fun p => by
    rw [Read.val_main_v5_apply, Read.val_main_cst_apply, one_f32]
  have h6 : Read.val_main_v6 (F := Ideal) (ix1 k) = 0 := by
    rw [Read.val_main_v6_apply, Read.val_main_cst_0_apply, zero_f32]
  have h9 : Read.val_main_v9 (F := Ideal) (ix1 k) = 1 := by
    rw [Read.val_main_v9_apply, Read.val_main_cst_1_apply, one_f32]
  have h8 := GatherScatterCol.ideal_vecScatterAdd_apply 200000 200000
    Gen.scatter_S200000_S200000x1_S200000_n_0_0_1_wf (Read.val_main_v6 (F := Ideal))
    (Read.val_main_v7 (F := Ideal) x1) (Read.val_main_v5 (F := Ideal)) k
  simp only [h5, h6] at h8
  rw [Read.val_main_v10_apply, h9]
  exact congrArg (fun t => (1 : EReal) + t) h8

theorem deg_pos (x1 : (⟨S2x200000, .i32⟩ : BufTy).Contents (Elt Ideal)) (n : S200000.Idx) :
    ∃ r : ℝ, 1 ≤ r ∧ Read.val_main_v10 (F := Ideal) x1 n = (r : EReal) := by
  obtain ⟨k, rfl⟩ : ∃ k : Fin 200000, n = ix1 k := ⟨n 0, eq_ix1 n⟩
  obtain ⟨s, hs, es⟩ := sum_ite_one_coe
    (fun p : Fin 200000 => ((Read.val_main_v7 (F := Ideal) x1) (ix2 p ⟨0, Nat.one_pos⟩)).toInt = (k.val : ℤ))
  refine ⟨1 + (0 + s), by linarith, ?_⟩
  rw [deg_eq, es, EReal.coe_add, EReal.coe_add]
  rfl

/-- The second layer recomputes the degree and its reciprocal square root: the same terms. -/
theorem v71_eq_v10 (x1 : (⟨S2x200000, .i32⟩ : BufTy).Contents (Elt Ideal)) : Read.val_main_v71 (F := Ideal) x1 = Read.val_main_v10 (F := Ideal) x1 := rfl

theorem v72_eq_v11 (x1 : (⟨S2x200000, .i32⟩ : BufTy).Contents (Elt Ideal)) : Read.val_main_v72 (F := Ideal) x1 = Read.val_main_v11 (F := Ideal) x1 := rfl

/-! ## The first layer's combine step -/

/-- The reference's first-layer output at row n, column j. -/
theorem x2_point (x0 : (⟨S200000x256, .f32⟩ : BufTy).Contents (Elt Ideal)) (x1 : (⟨S2x200000, .i32⟩ : BufTy).Contents (Elt Ideal)) (x4 : (⟨S256x128, .f32⟩ : BufTy).Contents (Elt Ideal)) (x5 : (⟨S128, .f32⟩ : BufTy).Contents (Elt Ideal)) (n : Fin 200000) (j : Fin 128) :
    Read.val_main_v48 (F := Ideal) x0 x1 x4 x5 (ix2 n j)
      = Read.val_main_v39 (F := Ideal) x0 x1 x4 (ix2 n j)
        + Read.val_main_v4 (F := Ideal) x0 x4 (ix2 n j) * Ideal.div 1 (Read.val_main_v10 (F := Ideal) x1 (ix1 n))
        + x5 (ix1 j) := by
  have e1 : Read.idx_main_v42 (Read.idx_main_v43 (ix2 n j)) = ix1 n := by
    funext a
    match a with
    | ⟨0, _⟩ => rfl
  have e2 : Read.idx_main_v46 (Read.idx_main_v47 (ix2 n j)) = ix1 j := by
    funext a
    match a with
    | ⟨0, _⟩ => rfl
  rw [Read.val_main_v48_apply, Read.val_main_v45_apply, Read.val_main_v44_apply, Read.val_main_v43_apply,
    Read.val_main_v42_apply, Read.val_main_v41_apply, Read.val_main_v40_apply, Read.val_main_cst_8_apply,
    Read.val_main_v47_apply, Read.val_main_v46_apply, e1, e2, one_f32]
  rfl

theorem ref_x2 (x0 : (⟨S200000x256, .f32⟩ : BufTy).Contents (Elt Ideal)) (x1 : (⟨S2x200000, .i32⟩ : BufTy).Contents (Elt Ideal)) (x4 : (⟨S256x128, .f32⟩ : BufTy).Contents (Elt Ideal)) (x5 : (⟨S128, .f32⟩ : BufTy).Contents (Elt Ideal))
    (rd : Cert.Gcn.SNx1.Idx → EReal) (b : Cert.Gcn.S1x128.Idx → EReal)
    (hrd : ∀ n : Fin 200000, rd (ix2 n 0) = Read.val_main_v11 (F := Ideal) x1 (ix1 n) * Read.val_main_v11 (F := Ideal) x1 (ix1 n))
    (hb : ∀ j : Fin 128, b (ix2 0 j) = x5 (ix1 j)) :
    Cert.Gcn.comb1 (Read.val_main_v39 (F := Ideal) x0 x1 x4) (Read.val_main_v4 (F := Ideal) x0 x4) rd b
      = Read.val_main_v48 (F := Ideal) x0 x1 x4 x5 := by
  funext i
  obtain ⟨n, j, rfl⟩ : ∃ (n : Fin 200000) (j : Fin 128), i = ix2 n j := ⟨i 0, i 1, eq_ix2 i⟩
  show Read.val_main_v39 (F := Ideal) x0 x1 x4 (ix2 n j)
      + Read.val_main_v4 (F := Ideal) x0 x4 (ix2 n j) * rd (ix2 n 0) + b (ix2 0 j) = _
  obtain ⟨r, hr, er⟩ := deg_pos x1 (ix1 n)
  rw [x2_point, hrd, hb, Read.val_main_v11_apply, Ideal.hostUnary_rsqrt_def, er, rsqrt_mul_self hr]

/-! ## The second layer's combine step and rectifier -/

/-- The reference's rectified second-layer value at row n, column j. -/
theorem comb2_point (x0 : (⟨S200000x256, .f32⟩ : BufTy).Contents (Elt Ideal)) (x1 : (⟨S2x200000, .i32⟩ : BufTy).Contents (Elt Ideal)) (x2 : (⟨S200000, .i32⟩ : BufTy).Contents (Elt Ideal)) (x3 : (⟨S128, .i32⟩ : BufTy).Contents (Elt Ideal)) (x4 : (⟨S256x128, .f32⟩ : BufTy).Contents (Elt Ideal)) (x5 : (⟨S128, .f32⟩ : BufTy).Contents (Elt Ideal)) (x6 : (⟨S384x128, .f32⟩ : BufTy).Contents (Elt Ideal)) (x7 : (⟨S128, .f32⟩ : BufTy).Contents (Elt Ideal)) (n : Fin 200000) (j : Fin 128) :
    Read.val_main_v110 (F := Ideal) x0 x1 x2 x3 x4 x5 x6 x7 (ix2 n j)
      = max (Read.val_main_v100 (F := Ideal) x0 x1 x2 x3 x4 x5 x6 (ix2 n j)
          + Read.val_main_v65 (F := Ideal) x0 x1 x2 x3 x4 x5 x6 (ix2 n j)
            * Ideal.div 1 (Read.val_main_v71 (F := Ideal) x1 (ix1 n))
          + x7 (ix1 j)) 0 := by
  have e1 : Read.idx_main_v103 (Read.idx_main_v104 (ix2 n j)) = ix1 n := by
    funext a
    match a with
    | ⟨0, _⟩ => rfl
  have e2 : Read.idx_main_v107 (Read.idx_main_v108 (ix2 n j)) = ix1 j := by
    funext a
    match a with
    | ⟨0, _⟩ => rfl
  rw [Read.val_main_v110_apply, Read.val_main_v109_apply, Read.val_main_v106_apply, Read.val_main_v105_apply,
    Read.val_main_v104_apply, Read.val_main_v103_apply, Read.val_main_v102_apply, Read.val_main_v101_apply,
    Read.val_main_cst_23_apply, Read.val_main_v108_apply, Read.val_main_v107_apply,
    Read.val_main_call1_v0_apply, Read.val_main_call1_cst_apply, e1, e2, one_f32, zero_f32]
  rfl

theorem ref_comb2 (x0 : (⟨S200000x256, .f32⟩ : BufTy).Contents (Elt Ideal)) (x1 : (⟨S2x200000, .i32⟩ : BufTy).Contents (Elt Ideal)) (x2 : (⟨S200000, .i32⟩ : BufTy).Contents (Elt Ideal)) (x3 : (⟨S128, .i32⟩ : BufTy).Contents (Elt Ideal)) (x4 : (⟨S256x128, .f32⟩ : BufTy).Contents (Elt Ideal)) (x5 : (⟨S128, .f32⟩ : BufTy).Contents (Elt Ideal)) (x6 : (⟨S384x128, .f32⟩ : BufTy).Contents (Elt Ideal)) (x7 : (⟨S128, .f32⟩ : BufTy).Contents (Elt Ideal))
    (rd : Cert.Gcn.SNx1.Idx → EReal) (b : Cert.Gcn.S1x128.Idx → EReal)
    (hrd : ∀ n : Fin 200000, rd (ix2 n 0) = Read.val_main_v72 (F := Ideal) x1 (ix1 n) * Read.val_main_v72 (F := Ideal) x1 (ix1 n))
    (hb : ∀ j : Fin 128, b (ix2 0 j) = x7 (ix1 j)) (i : Cert.Gcn.SNx128.Idx) :
    max (Read.val_main_v100 (F := Ideal) x0 x1 x2 x3 x4 x5 x6 i
          + Read.val_main_v65 (F := Ideal) x0 x1 x2 x3 x4 x5 x6 i * rd (ix2 (i 0) 0) + b (ix2 0 (i 1))) 0
      = Read.val_main_v110 (F := Ideal) x0 x1 x2 x3 x4 x5 x6 x7 i := by
  obtain ⟨n, j, rfl⟩ : ∃ (n : Fin 200000) (j : Fin 128), i = ix2 n j := ⟨i 0, i 1, eq_ix2 i⟩
  show max (Read.val_main_v100 (F := Ideal) x0 x1 x2 x3 x4 x5 x6 (ix2 n j)
      + Read.val_main_v65 (F := Ideal) x0 x1 x2 x3 x4 x5 x6 (ix2 n j) * rd (ix2 n 0) + b (ix2 0 j)) 0 = _
  obtain ⟨r, hr, er⟩ := deg_pos x1 (ix1 n)
  rw [comb2_point, hrd, hb, v72_eq_v11, v71_eq_v10, Read.val_main_v11_apply, Ideal.hostUnary_rsqrt_def, er,
    rsqrt_mul_self hr]

end Cert.Bridge

end
-- ==== Proof.Fold0.lean ====
/-
  The buffer contents at the first two boundaries of the idealized kernel program, read back to the launch memory.
  Before the first call the host computes, from the edge list alone, the source and target node of every edge, each
  node's degree (one plus the number of edges that end in it), its inverse square root, the per-edge coefficient
  (the product of the two end nodes' inverse square roots) and the per-node square of the inverse square root.
  These are the SAME operations the reference program applies to the same argument, so each is the reference's
  stage value of the edge list.  The first call then leaves the feature product of the node features with the first
  weight matrix, which is the reference's first matrix product.
-/
import proofs.«118666_j9182640079570_2_alg».proof.Proof.Gen.KernelIdeal.Frame
import proofs.«118666_j9182640079570_2_alg».proof.Proof.Gen.ReferenceIdeal.Read
import proofs.«118666_j9182640079570_2_alg».proof.Proof.Spec
import proofs.«118666_j9182640079570_2_alg».proof.Proof.Reg01
import proofs.«118666_j9182640079570_2_alg».proof.Proof.RefLow

set_option maxRecDepth 16384

noncomputable section

namespace Cert.KernelIdeal.Fold

open Cert.KernelIdeal Cert.KernelIdeal.Gen
open Idealize.ShloMosaic Idealize.ShloMosaic.TcCoe Idealize.ShloMosaic.Tactic Idealize.ShloMosaic.StableHlo
open Idealize.ShloMosaic.ValueIdx
open Idealize.SL.Sem
open Cert.ReferenceIdeal.Read (val_main_v1 val_main_v3 val_main_v4 val_main_v11 val_main_v26 val_main_v39 val_main_v48 val_main_v65 val_main_v100 val_main_v110 val_main_v137)

variable (m : (ℓ : Loc nD τ sig) → Buf (Elt Ideal) ℓ) (ρ : Dev nD → PrngReg) (c : Dev nD)

/-- The k-th argument array as launched. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)

/-- The per-node square of the inverse square root of the degree, as the reference's stage value squared. -/
def dd (x1 : (⟨Cert.ReferenceIdeal.S2x200000, .i32⟩ : BufTy).Contents (Elt Ideal)) : FVec Ideal Cert.ReferenceIdeal.S200000 .f32 :=
  mulf (val_main_v11 (F := Ideal) x1) (val_main_v11 (F := Ideal) x1)
theorem dd_apply (x1 : (⟨Cert.ReferenceIdeal.S2x200000, .i32⟩ : BufTy).Contents (Elt Ideal)) (i : Cert.ReferenceIdeal.S200000.Idx) :
    dd x1 i = val_main_v11 (F := Ideal) x1 i * val_main_v11 (F := Ideal) x1 i := rfl

/-! ## After the first stretch of host operations -/

theorem W1_arg0 : W1 m ρ c (Proc.devRef .tc main_arg0) = A0 m c := by
  show StableHlo.after hostOps0 (W0 m ρ c) (Proc.devRef .tc main_arg0) = _
  after_results_simp
theorem W1_arg2 : W1 m ρ c (Proc.devRef .tc main_arg2) = A2 m c := by
  show StableHlo.after hostOps0 (W0 m ρ c) (Proc.devRef .tc main_arg2) = _
  after_results_simp
theorem W1_arg3 : W1 m ρ c (Proc.devRef .tc main_arg3) = A3 m c := by
  show StableHlo.after hostOps0 (W0 m ρ c) (Proc.devRef .tc main_arg3) = _
  after_results_simp
theorem W1_arg4 : W1 m ρ c (Proc.devRef .tc main_arg4) = A4 m c := by
  show StableHlo.after hostOps0 (W0 m ρ c) (Proc.devRef .tc main_arg4) = _
  after_results_simp
theorem W1_arg5 : W1 m ρ c (Proc.devRef .tc main_arg5) = A5 m c := by
  show StableHlo.after hostOps0 (W0 m ρ c) (Proc.devRef .tc main_arg5) = _
  after_results_simp
theorem W1_arg6 : W1 m ρ c (Proc.devRef .tc main_arg6) = A6 m c := by
  show StableHlo.after hostOps0 (W0 m ρ c) (Proc.devRef .tc main_arg6) = _
  after_results_simp
theorem W1_arg7 : W1 m ρ c (Proc.devRef .tc main_arg7) = A7 m c := by
  show StableHlo.after hostOps0 (W0 m ρ c) (Proc.devRef .tc main_arg7) = _
  after_results_simp

/-- The source node of every edge. -/
theorem W1_v1 : W1 m ρ c (Proc.devRef .tc main_v1) = val_main_v1 (F := Ideal) (A1 m c) := by
  show StableHlo.after hostOps0 (W0 m ρ c) (Proc.devRef .tc main_v1) = _
  after_results_simp
  rfl
/-- The target node of every edge. -/
theorem W1_v3 : W1 m ρ c (Proc.devRef .tc main_v3) = val_main_v3 (F := Ideal) (A1 m c) := by
  show StableHlo.after hostOps0 (W0 m ρ c) (Proc.devRef .tc main_v3) = _
  after_results_simp
  rfl
/-- The per-edge coefficient. -/
theorem W1_v25 : W1 m ρ c (Proc.devRef .tc main_v25) = val_main_v26 (F := Ideal) (A1 m c) := by
  show StableHlo.after hostOps0 (W0 m ρ c) (Proc.devRef .tc main_v25) = _
  after_results_simp
  rfl
/-- The per-node square of the inverse square root of the degree. -/
theorem W1_v26 : W1 m ρ c (Proc.devRef .tc main_v26) = dd (A1 m c) := by
  show StableHlo.after hostOps0 (W0 m ρ c) (Proc.devRef .tc main_v26) = _
  after_results_simp
  rfl

/-! ## After the first call -/

theorem W2_v1 : W2 m ρ c (Proc.devRef .tc main_v1) = val_main_v1 (F := Ideal) (A1 m c) :=
  (W2_of_ne m ρ c main_v1 (by decide)).trans (W1_v1 m ρ c)
theorem W2_v3 : W2 m ρ c (Proc.devRef .tc main_v3) = val_main_v3 (F := Ideal) (A1 m c) :=
  (W2_of_ne m ρ c main_v3 (by decide)).trans (W1_v3 m ρ c)
theorem W2_v25 : W2 m ρ c (Proc.devRef .tc main_v25) = val_main_v26 (F := Ideal) (A1 m c) :=
  (W2_of_ne m ρ c main_v25 (by decide)).trans (W1_v25 m ρ c)
theorem W2_v26 : W2 m ρ c (Proc.devRef .tc main_v26) = dd (A1 m c) :=
  (W2_of_ne m ρ c main_v26 (by decide)).trans (W1_v26 m ρ c)
theorem W2_arg0 : W2 m ρ c (Proc.devRef .tc main_arg0) = A0 m c :=
  ((W2_arr m ρ c 0).trans (((dat0 (V1 m ρ) c).arrAt_in 0 rfl _).trans (A_eq0 (V1 m ρ) c 0))).trans (W1_arg0 m ρ c)
theorem W2_arg2 : W2 m ρ c (Proc.devRef .tc main_arg2) = A2 m c :=
  (W2_of_ne m ρ c main_arg2 (by decide)).trans (W1_arg2 m ρ c)
theorem W2_arg3 : W2 m ρ c (Proc.devRef .tc main_arg3) = A3 m c :=
  (W2_of_ne m ρ c main_arg3 (by decide)).trans (W1_arg3 m ρ c)
theorem W2_arg5 : W2 m ρ c (Proc.devRef .tc main_arg5) = A5 m c :=
  (W2_of_ne m ρ c main_arg5 (by decide)).trans (W1_arg5 m ρ c)
theorem W2_arg6 : W2 m ρ c (Proc.devRef .tc main_arg6) = A6 m c :=
  (W2_of_ne m ρ c main_arg6 (by decide)).trans (W1_arg6 m ρ c)
theorem W2_arg7 : W2 m ρ c (Proc.devRef .tc main_arg7) = A7 m c :=
  (W2_of_ne m ρ c main_arg7 (by decide)).trans (W1_arg7 m ρ c)

/-- The first call's output is the reference's first matrix product. -/
theorem W2_v27 : W2 m ρ c (Proc.devRef .tc main_v27) = val_main_v4 (F := Ideal) (A0 m c) (A4 m c) := by
  refine (W2_arr m ρ c 2).trans ((Cert.KernelIdeal.Reg.arr0 (V1 m ρ) c).trans ?_)
  rw [show V1 m ρ c main_arg0 = A0 m c from W1_arg0 m ρ c, show V1 m ρ c main_arg4 = A4 m c from W1_arg4 m ρ c]
  exact (Cert.Bridge.ref_h0 _ _).symm

end Cert.KernelIdeal.Fold

end
-- ==== Proof.Fold1.lean ====
/-
  The second stretch of host operations and the second call.  The host gathers the first product's rows at the
  edges' source nodes, scales each by its edge's coefficient and adds them up at the edges' target nodes: the same
  operations as the reference's, on arrays already identified with the reference's, so the aggregate is the
  reference's.  It also lays the per-node scale out as a column and the bias as a row.  The call then adds, per node
  and feature, the aggregate, the node's own product times its scale, and the bias: the reference's first layer,
  because the square of the inverse square root of a degree (a real number at least one) is its reciprocal.
-/
import proofs.«118666_j9182640079570_2_alg».proof.Proof.Fold0
import Idealize.ShloMosaic.Lib.ValueLayout

set_option maxRecDepth 16384

noncomputable section

namespace Cert.KernelIdeal.Fold

open Cert.KernelIdeal Cert.KernelIdeal.Gen
open Idealize.ShloMosaic Idealize.ShloMosaic.TcCoe Idealize.ShloMosaic.Tactic Idealize.ShloMosaic.StableHlo
open Idealize.ShloMosaic.ValueIdx
open Idealize.SL.Sem
open Cert.ReferenceIdeal.Read (val_main_v1 val_main_v3 val_main_v4 val_main_v11 val_main_v26 val_main_v39 val_main_v48 val_main_v65 val_main_v100 val_main_v110 val_main_v137)

variable (m : (ℓ : Loc nD τ sig) → Buf (Elt Ideal) ℓ) (ρ : Dev nD → PrngReg) (c : Dev nD)

/-- A vector laid out as a one-column matrix, read at a row. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## After the second stretch of host operations -/

/-- The first layer's aggregate over the edges is the reference's. -/
theorem W3_v40 : W3 m ρ c (Proc.devRef .tc main_v40) = val_main_v39 (F := Ideal) (A0 m c) (A1 m c) (A4 m c) := by
  show StableHlo.after hostOps1 (W2 m ρ c) (Proc.devRef .tc main_v40) = _
  after_results_simp
  rw [W2_v1 m ρ c, W2_v3 m ρ c, W2_v25 m ρ c, W2_v27 m ρ c]
  rfl
theorem W3_v27 : W3 m ρ c (Proc.devRef .tc main_v27) = val_main_v4 (F := Ideal) (A0 m c) (A4 m c) := by
  show StableHlo.after hostOps1 (W2 m ρ c) (Proc.devRef .tc main_v27) = _
  after_results_simp
  exact W2_v27 m ρ c
/-- The per-node scale as a column: at row n, the square of the inverse square root of node n's degree. -/
theorem W3_v41_apply (n : Fin 200000) :
    (W3 m ρ c (Proc.devRef .tc main_v41) : Cert.Gcn.SNx1.Idx → EReal) (ix2 n 0)
      = val_main_v11 (F := Ideal) (A1 m c) (ix1 n) * val_main_v11 (F := Ideal) (A1 m c) (ix1 n) := by
  show (StableHlo.after hostOps1 (W2 m ρ c) (Proc.devRef .tc main_v41) : Cert.Gcn.SNx1.Idx → EReal) (ix2 n 0) = _
  after_results_simp
  rw [W2_v26 m ρ c]
  exact (shapeCast_a_a1_apply _ _ n 0).trans (dd_apply _ _)
/-- The first bias as a row. -/
theorem W3_v42_apply (j : Fin 128) :
    (W3 m ρ c (Proc.devRef .tc main_v42) : Cert.Gcn.S1x128.Idx → EReal) (ix2 0 j) = (A5 m c : (⟨1, ![128]⟩ : Shape).Idx → EReal) (ix1 j) := by
  show (StableHlo.after hostOps1 (W2 m ρ c) (Proc.devRef .tc main_v42) : Cert.Gcn.S1x128.Idx → EReal) (ix2 0 j) = _
  after_results_simp
  rw [W2_arg5 m ρ c]
  exact shapeCast_a_1a_apply _ _ 0 j
theorem W3_v1 : W3 m ρ c (Proc.devRef .tc main_v1) = val_main_v1 (F := Ideal) (A1 m c) := by
  show StableHlo.after hostOps1 (W2 m ρ c) (Proc.devRef .tc main_v1) = _
  after_results_simp
  exact W2_v1 m ρ c
theorem W3_v3 : W3 m ρ c (Proc.devRef .tc main_v3) = val_main_v3 (F := Ideal) (A1 m c) := by
  show StableHlo.after hostOps1 (W2 m ρ c) (Proc.devRef .tc main_v3) = _
  after_results_simp
  exact W2_v3 m ρ c
theorem W3_v25 : W3 m ρ c (Proc.devRef .tc main_v25) = val_main_v26 (F := Ideal) (A1 m c) := by
  show StableHlo.after hostOps1 (W2 m ρ c) (Proc.devRef .tc main_v25) = _
  after_results_simp
  exact W2_v25 m ρ c
theorem W3_v26 : W3 m ρ c (Proc.devRef .tc main_v26) = dd (A1 m c) := by
  show StableHlo.after hostOps1 (W2 m ρ c) (Proc.devRef .tc main_v26) = _
  after_results_simp
  exact W2_v26 m ρ c
theorem W3_arg0 : W3 m ρ c (Proc.devRef .tc main_arg0) = A0 m c := by
  show StableHlo.after hostOps1 (W2 m ρ c) (Proc.devRef .tc main_arg0) = _
  after_results_simp
  exact W2_arg0 m ρ c
theorem W3_arg2 : W3 m ρ c (Proc.devRef .tc main_arg2) = A2 m c := by
  show StableHlo.after hostOps1 (W2 m ρ c) (Proc.devRef .tc main_arg2) = _
  after_results_simp
  exact W2_arg2 m ρ c
theorem W3_arg3 : W3 m ρ c (Proc.devRef .tc main_arg3) = A3 m c := by
  show StableHlo.after hostOps1 (W2 m ρ c) (Proc.devRef .tc main_arg3) = _
  after_results_simp
  exact W2_arg3 m ρ c
theorem W3_arg6 : W3 m ρ c (Proc.devRef .tc main_arg6) = A6 m c := by
  show StableHlo.after hostOps1 (W2 m ρ c) (Proc.devRef .tc main_arg6) = _
  after_results_simp
  exact W2_arg6 m ρ c
theorem W3_arg7 : W3 m ρ c (Proc.devRef .tc main_arg7) = A7 m c := by
  show StableHlo.after hostOps1 (W2 m ρ c) (Proc.devRef .tc main_arg7) = _
  after_results_simp
  exact W2_arg7 m ρ c

/-! ## After the second call -/

/-- The second call's output is the reference's first layer. -/
theorem W4_v43 : W4 m ρ c (Proc.devRef .tc main_v43)
    = val_main_v48 (F := Ideal) (A0 m c) (A1 m c) (A4 m c) (A5 m c) := by
  refine (W4_arr m ρ c 4).trans ((Cert.KernelIdeal.Reg.arr1 (V3 m ρ) c).trans ?_)
  rw [show V3 m ρ c main_v40 = _ from W3_v40 m ρ c, show V3 m ρ c main_v27 = _ from W3_v27 m ρ c]
  exact Cert.Bridge.ref_x2 _ _ _ _ _ _ (W3_v41_apply m ρ c) (W3_v42_apply m ρ c)

theorem W4_v1 : W4 m ρ c (Proc.devRef .tc main_v1) = val_main_v1 (F := Ideal) (A1 m c) :=
  (W4_of_ne m ρ c main_v1 (by decide)).trans (W3_v1 m ρ c)
theorem W4_v3 : W4 m ρ c (Proc.devRef .tc main_v3) = val_main_v3 (F := Ideal) (A1 m c) :=
  (W4_of_ne m ρ c main_v3 (by decide)).trans (W3_v3 m ρ c)
theorem W4_v25 : W4 m ρ c (Proc.devRef .tc main_v25) = val_main_v26 (F := Ideal) (A1 m c) :=
  (W4_of_ne m ρ c main_v25 (by decide)).trans (W3_v25 m ρ c)
theorem W4_v26 : W4 m ρ c (Proc.devRef .tc main_v26) = dd (A1 m c) :=
  (W4_of_ne m ρ c main_v26 (by decide)).trans (W3_v26 m ρ c)
theorem W4_arg0 : W4 m ρ c (Proc.devRef .tc main_arg0) = A0 m c :=
  (W4_of_ne m ρ c main_arg0 (by decide)).trans (W3_arg0 m ρ c)
theorem W4_arg2 : W4 m ρ c (Proc.devRef .tc main_arg2) = A2 m c :=
  (W4_of_ne m ρ c main_arg2 (by decide)).trans (W3_arg2 m ρ c)
theorem W4_arg3 : W4 m ρ c (Proc.devRef .tc main_arg3) = A3 m c :=
  (W4_of_ne m ρ c main_arg3 (by decide)).trans (W3_arg3 m ρ c)
theorem W4_arg6 : W4 m ρ c (Proc.devRef .tc main_arg6) = A6 m c :=
  (W4_of_ne m ρ c main_arg6 (by decide)).trans (W3_arg6 m ρ c)
theorem W4_arg7 : W4 m ρ c (Proc.devRef .tc main_arg7) = A7 m c :=
  (W4_of_ne m ρ c main_arg7 (by decide)).trans (W3_arg7 m ρ c)

end Cert.KernelIdeal.Fold

end
-- ==== Proof.Reg2.lean ====
/-
  Region 2 of the kernel program, block by block and then as one array.

  At each of the 25 grid points the body reads 8000 rows of the first layer's output, rectifies them, multiplies
  them by a 128 x 128 weight block, and adds the product of a 0/1 indicator matrix (row r, column g: is the label
  of row r the number g?) with a 128 x 128 table.  Both products start from a zero accumulator, so each entry is a
  plain sum of 128 products; a change of float format is the identity over the extended reals.  The 25 blocks of
  8000 rows tile the 200000 rows, so the array the region leaves is one function of the arrays it read.
-/
import proofs.«118666_j9182640079570_2_alg».proof.Proof.Gen.KernelIdeal.Frame
import proofs.«118666_j9182640079570_2_alg».proof.Proof.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.Tactic

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)

/-- The zero block offset, as the function the library's lemmas about a whole-buffer rectangle expect. -/
theorem hz : (![0, 0] : Fin 2 → Nat) = fun _ => 0 := funext fun a => by fin_cases a <;> rfl

/-! ## One entry of the body's result -/

/-- The indicator as the body computes it: compare the label word with the column number, widen the one-bit
    answer to a 32-bit integer, convert it to a number.  It is 1 where they agree and 0 elsewhere. -/
theorem hot_word (v : BitVec 32) (g : ℕ) :
    FloatOps.sitofp (F := Ideal) .f32 ((IntOp.cmpi .eq v (BitVec.ofNat 32 g)).setWidth 32) = Cert.Gcn.hot v g := by
  show ((((BitVec.ofBool (v == BitVec.ofNat 32 g)).setWidth 32).toInt : ℝ) : EReal) = if v = BitVec.ofNat 32 g then 1 else 0
  by_cases h : v = BitVec.ofNat 32 g
  · have hb : (v == BitVec.ofNat 32 g) = true := by rw [h]; exact beq_self_eq_true _
    have e1 : ((BitVec.ofBool true).setWidth 32).toInt = 1 := by decide
    rw [if_pos h, hb, e1]
    norm_num
  · have hb : (v == BitVec.ofNat 32 g) = false := by
      cases hc : (v == BitVec.ofNat 32 g)
      · rfl
      · exact absurd (eq_of_beq hc) h
    have e0 : ((BitVec.ofBool false).setWidth 32).toInt = 0 := by decide
    rw [if_neg h, hb, e0]
    norm_num

/-- The four coordinate readings of the product's dimension numbers: the left operand is read at (row of the
    result, shared coordinate), the right operand at (shared coordinate, column of the result). -/
theorem lhs_row (i : S8000x128.Idx) (s : dot_S8000x128_S128x128_S8000x128_1_0_0_1_n_n.contr.Idx) : (dot_S8000x128_S128x128_S8000x128_1_0_0_1_n_n.lhsIdx i s 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhs_shared (i : S8000x128.Idx) (s : dot_S8000x128_S128x128_S8000x128_1_0_0_1_n_n.contr.Idx) : (dot_S8000x128_S128x128_S8000x128_1_0_0_1_n_n.lhsIdx i s 1).val = (s ⟨0, by decide⟩).val :=
  dot_S8000x128_S128x128_S8000x128_1_0_0_1_n_n.lhsIdx_val_of_single rfl i s
theorem rhs_shared (i : S8000x128.Idx) (s : dot_S8000x128_S128x128_S8000x128_1_0_0_1_n_n.contr.Idx) : (dot_S8000x128_S128x128_S8000x128_1_0_0_1_n_n.rhsIdx i s 0).val = (s ⟨0, by decide⟩).val :=
  dot_S8000x128_S128x128_S8000x128_1_0_0_1_n_n.rhsIdx_val_of_single rfl i s
theorem rhs_col (i : S8000x128.Idx) (s : dot_S8000x128_S128x128_S8000x128_1_0_0_1_n_n.contr.Idx) : (dot_S8000x128_S128x128_S8000x128_1_0_0_1_n_n.rhsIdx i s 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- A product of an 8000 x 128 block with a 128 x 128 block into a zero accumulator, at row p and column q:
    the sum over the 128 shared coordinates. -/
theorem mm_apply (a : FVec Ideal S8000x128 .bf16) (b : FVec Ideal S128x128 .bf16) (p : Fin 8000) (q : Fin 128) :
    matmul dot_S8000x128_S128x128_S8000x128_1_0_0_1_n_n none a b (constant (F := Ideal) S8000x128 .f32 0x00000000#32) (ix2 p q)
      = ∑ k : Fin 128, a (ix2 p k) * b (ix2 k q) := by
  refine (Ideal.matmul_constant_zero_apply dot_S8000x128_S128x128_S8000x128_1_0_0_1_n_n none a b (ix2 p q)).trans ?_
  rw [← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p q) ((contrEquiv1 dot_S8000x128_S128x128_S8000x128_1_0_0_1_n_n 128 rfl rfl).symm k) = ix2 p k := funext fun d => Fin.ext (by
    match d with
    | ⟨0, _⟩ => exact lhs_row _ _
    | ⟨1, _⟩ => exact (lhs_shared _ _).trans hk)
  have er : dot_S8000x128_S128x128_S8000x128_1_0_0_1_n_n.rhsIdx (ix2 p q) ((contrEquiv1 dot_S8000x128_S128x128_S8000x128_1_0_0_1_n_n 128 rfl rfl).symm k) = ix2 k q := funext fun d => Fin.ext (by
    match d with
    | ⟨0, _⟩ => exact (rhs_shared _ _).trans hk
    | ⟨1, _⟩ => exact rhs_col _ _)
  rw [el, er]

/-- The indicator matrix at row p and column g: is the label of row p the number g? -/
theorem onehot_apply (lab : IVec S8000x1 32) (p : Fin 8000) (g : Fin 128) :
    (sitofp .f32 (extui 32 (cmpi .eq (broadcastTo S8000x128 lab broadcasts_S8000x1_S8000x128)
        (iota .tc S8000x128 32 [1] iota_S8000x128_d1_w32)) natLt_1_32) : FVec Ideal S8000x128 .f32) (ix2 p g)
      = Cert.Gcn.hot (lab (ix2 p 0)) g.val := by
  rw [sitofp_apply, extui_apply]
  show FloatOps.sitofp (F := Ideal) .f32 ((IntOp.cmpi .eq (broadcastTo S8000x128 lab broadcasts_S8000x1_S8000x128 (ix2 p g))
    (iota .tc S8000x128 32 [1] iota_S8000x128_d1_w32 (ix2 p g))).setWidth 32) = _
  rw [iota_single_apply, broadcastTo_apply lab broadcasts_S8000x1_S8000x128 (ix2 p g) (ix2 p 0) (fun a => by
    match a with
    | ⟨0, _⟩ => rfl
    | ⟨1, _⟩ => rfl)]
  exact hot_word _ _

/-- The body's result at row p and column q of its block. -/
theorem pay_apply (x0 : Vec Ideal S8000x128 .f32) (wa : Vec Ideal S128x128 .f32) (lab : Vec Ideal S8000x1 .i32)
    (ct : Vec Ideal S128x128 .f32) (p : Fin 8000) (q : Fin 128) :
    k2_pay1 (F := Ideal) x0 wa lab ct (ix2 p q)
      = (∑ k : Fin 128, max (x0 (ix2 p k)) 0 * wa (ix2 k q))
        + ∑ g : Fin 128, Cert.Gcn.hot (lab (ix2 p 0)) g.val * ct (ix2 g q) := by
  unfold k2_pay1
  simp only [shapeCast_self]
  rw [addf_apply, mm_apply, mm_apply]
  congr 1
  · refine Finset.sum_congr rfl fun k _ => ?_
    rw [truncf_apply, truncf_apply, maximumf_apply, broadcast_apply]
    show max (x0 (ix2 p k)) (Ideal.ofBits .f32 0x00000000#32) * wa (ix2 k q) = _
    rw [Ideal.ofBits_zero_f32]
  · refine Finset.sum_congr rfl fun g _ => ?_
    rw [truncf_apply, truncf_apply, onehot_apply]

/-! ## From the blocks to the array -/

section Blocks

variable (V : (c : Dev nD) → (b : Ref sig .tc) → Buf (Elt Ideal) ((c : Thread nD τ).loc b))

/-- The index maps over the grid: the row windows (the input rows, the labels, the output) are at block t of
    their arrays at point t, the two 128 x 128 windows are whole at every point. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of the input rows' block at point t is row 8000 t + p of the array. -/
theorem rows_apply (c : Dev nD) (t : Fin cfg2.N) (p : Fin 8000) (k : Fin 128) (r : Fin 200000)
    (hr : r.val = t.val * 8000 + p.val) :
    (iblk2 (F := Ideal) V c 0 t : Vec Ideal S8000x128 .f32) (ix2 p k) = (V c main_v43 : Cert.Gcn.SNx128.Idx → EReal) (ix2 r k) := by
  obtain ⟨e0, e1, -⟩ := idx_facts t
  unfold iblk2
  rw [View.read_apply]
  show V c main_v43 _ = V c main_v43 _
  congr 1
  funext a
  apply Fin.ext
  match a with
  | ⟨0, _⟩ => show win2_0.index t 0 * 8000 + 1 * p.val = r.val; rw [e0, hr]; omega
  | ⟨1, _⟩ => show win2_0.index t 1 * 128 + 1 * k.val = k.val; rw [e1]; omega

/-- The weight window's block is the whole weight array at every point. -/
theorem wa_apply (c : Dev nD) (t : Fin cfg2.N) (k q : Fin 128) :
    (iblk2 (F := Ideal) V c 1 t : Vec Ideal S128x128 .f32) (ix2 k q) = (V c main_v55 : Cert.Gcn.S128x128.Idx → EReal) (ix2 k q) := by
  obtain ⟨-, -, e0, e1, -⟩ := idx_facts t
  unfold iblk2
  rw [View.read_apply]
  show V c main_v55 _ = V c main_v55 _
  congr 1
  funext a
  apply Fin.ext
  match a with
  | ⟨0, _⟩ => show win2_1.index t 0 * 128 + 1 * k.val = k.val; rw [e0]; omega
  | ⟨1, _⟩ => show win2_1.index t 1 * 128 + 1 * q.val = q.val; rw [e1]; omega

/-- Row p of the labels' block at point t is row 8000 t + p of the label column. -/
theorem lab_apply (c : Dev nD) (t : Fin cfg2.N) (p : Fin 8000) (r : Fin 200000)
    (hr : r.val = t.val * 8000 + p.val) :
    (iblk2 (F := Ideal) V c 2 t : Vec Ideal S8000x1 .i32) (ix2 p 0) = (V c main_v56 : Cert.Gcn.SNx1.Idx → BitVec 32) (ix2 r 0) := by
  obtain ⟨-, -, -, -, e0, e1, -⟩ := idx_facts t
  unfold iblk2
  rw [View.read_apply]
  show V c main_v56 _ = V c main_v56 _
  congr 1
  funext a
  apply Fin.ext
  match a with
  | ⟨0, _⟩ => show win2_2.index t 0 * 8000 + 1 * p.val = r.val; rw [e0, hr]; omega
  | ⟨1, _⟩ => show win2_2.index t 1 * 1 + 1 * 0 = 0; rw [e1]

/-- The table window's block is the whole table at every point. -/
theorem ct_apply (c : Dev nD) (t : Fin cfg2.N) (g q : Fin 128) :
    (iblk2 (F := Ideal) V c 3 t : Vec Ideal S128x128 .f32) (ix2 g q) = (V c main_v54 : Cert.Gcn.S128x128.Idx → EReal) (ix2 g q) := by
  obtain ⟨-, -, -, -, -, -, e0, e1, -⟩ := idx_facts t
  unfold iblk2
  rw [View.read_apply]
  show V c main_v54 _ = V c main_v54 _
  congr 1
  funext a
  apply Fin.ext
  match a with
  | ⟨0, _⟩ => show win2_3.index t 0 * 128 + 1 * g.val = g.val; rw [e0]; omega
  | ⟨1, _⟩ => show win2_3.index t 1 * 128 + 1 * q.val = q.val; rw [e1]; omega

/-- The body's result at row p, column q of a block, when the blocks it read are rows of the arrays X, BT (at row r)
    and the whole arrays WA, CT: the array function at row r, column q. -/
theorem pay_is_mm2 (X : Cert.Gcn.SNx128.Idx → EReal) (WA : Cert.Gcn.S128x128.Idx → EReal) (BT : Cert.Gcn.SNx1.Idx → BitVec 32)
    (CT : Cert.Gcn.S128x128.Idx → EReal)
    (x0 : Vec Ideal S8000x128 .f32) (wa : Vec Ideal S128x128 .f32) (lab : Vec Ideal S8000x1 .i32) (ct : Vec Ideal S128x128 .f32)
    (p : Fin 8000) (q : Fin 128) (r : Fin 200000)
    (hx : ∀ k : Fin 128, x0 (ix2 p k) = X (ix2 r k))
    (hwa : ∀ k : Fin 128, wa (ix2 k q) = WA (ix2 k q))
    (hlab : lab (ix2 p 0) = BT (ix2 r 0))
    (hct : ∀ g : Fin 128, ct (ix2 g q) = CT (ix2 g q)) :
    k2_pay1 (F := Ideal) x0 wa lab ct (ix2 p q) = Cert.Gcn.mm2 X WA BT CT (ix2 r q) := by
  rw [pay_apply]
  show _ = (∑ k : Fin 128, max (X (ix2 r k)) 0 * WA (ix2 k q)) + ∑ g : Fin 128, Cert.Gcn.hot (BT (ix2 r 0)) g.val * CT (ix2 g q)
  simp only [hx, hwa, hlab, hct]

/-- What point t writes back is block t of the array function of the arrays the region read. -/
theorem flushed_eq (c : Dev nD) (t : Fin cfg2.N) :
    (dat2 (F := Ideal) V c).flushed 4 t = ((cfg2.win 4).blk t).view.read (Elt Ideal)
      (Cert.Gcn.mm2 (V c main_v43) (V c main_v55) (V c main_v56) (V c main_v54)) := by
  show (cfg2.win 4).cut (grid2.coords t) ((dat2 (F := Ideal) V c).after 4 t) = _
  rw [after2_4]
  unfold out2_4
  rw [View.canon_unit_zero hz]
  simp only [View.ld_unit_zero (S := S8000x128) hz, View.ld_unit_zero (S := S128x128) hz, View.ld_unit_zero (S := S8000x1) hz]
  funext j
  obtain ⟨p, q, rfl⟩ : ∃ (p : Fin 8000) (q : Fin 128), j = ix2 p q := ⟨j 0, j 1, eq_ix2 j⟩
  have hN : t.val < 25 := lt_of_lt_of_eq t.isLt (show cfg2.N = 25 from N_2)
  obtain ⟨-, -, -, -, -, -, -, -, e0, e1⟩ := idx_facts t
  have hr : t.val * 8000 + p.val < 200000 := by have := p.isLt; omega
  refine (pay_is_mm2 (V c main_v43) (V c main_v55) (V c main_v56) (V c main_v54) _ _ _ _ p q ⟨t.val * 8000 + p.val, hr⟩
    (fun k => rows_apply V c t p k _ rfl) (fun k => wa_apply V c t k q) (lab_apply V c t p _ rfl)
    (fun g => ct_apply V c t g q)).trans ?_
  rw [View.read_apply]
  refine congrArg (Cert.Gcn.mm2 (V c main_v43) (V c main_v55) (V c main_v56) (V c main_v54)) ?_
  funext a
  apply Fin.ext
  match a with
  | ⟨0, _⟩ => show t.val * 8000 + p.val = win2_4.index t 0 * 8000 + 1 * p.val; rw [e0]; omega
  | ⟨1, _⟩ => show q.val = win2_4.index t 1 * 128 + 1 * q.val; rw [e1]; omega

/-- An index of the array is in point t's block iff each coordinate is in the block's range on its axis. -/
theorem mem_blk (t : Fin cfg2.N) (i : Cert.Gcn.SNx128.Idx) :
    i ∈ ((cfg2.win 4).blk t).view.set ↔ ∀ a : Fin 2, win2_4.index t a * S8000x128.size a ≤ (i a).val
      ∧ (i a).val < win2_4.index t a * S8000x128.size a + S8000x128.size a := by
  show i ∈ ((View.whole main_v57).slice (win2_4.rect t)).set ↔ _
  rw [View.set_slice_whole, Rect.mem_set_unit]
  exact Iff.rfl

end Blocks

/-- The array region 2 leaves: the rectified rows against the weights plus the table row of each row's label.
    Every point writes its block back, and row n of the array is in the block of point n / 8000. -/
theorem arr2 (V : (c : Dev nD) → (b : Ref sig .tc) → Buf (Elt Ideal) ((c : Thread nD τ).loc b)) (c : Dev nD) :
    (dat2 (F := Ideal) V c).arrAt 4 cfg2.N = Cert.Gcn.mm2 (V c main_v43) (V c main_v55) (V c main_v56) (V c main_v54) := by
  refine (dat2 (F := Ideal) V c).arrAt_eq_of_cover 4 _ (fun t _ => flushed_eq V c t) fun i => ?_
  have hi0 : (i 0).val < 200000 := (i 0).isLt
  have hi1 : (i 1).val < 128 := (i 1).isLt
  have hN : cfg2.N = 25 := N_2
  obtain ⟨t, ht⟩ : ∃ t : Fin cfg2.N, t.val = (i 0).val / 8000 := ⟨⟨(i 0).val / 8000, by rw [hN]; omega⟩, rfl⟩
  obtain ⟨-, -, -, -, -, -, -, -, e0, e1⟩ := idx_facts t
  refine ⟨t, flush2_4 t, ?_⟩
  rw [mem_blk]
  intro a
  match a with
  | ⟨0, _⟩ =>
    show win2_4.index t 0 * 8000 ≤ (i 0).val ∧ (i 0).val < win2_4.index t 0 * 8000 + 8000
    rw [e0, ht]; omega
  | ⟨1, _⟩ =>
    show win2_4.index t 1 * 128 ≤ (i 1).val ∧ (i 1).val < win2_4.index t 1 * 128 + 128
    rw [e1]; omega

end Cert.KernelIdeal.Reg

end
-- ==== Proof.LibGatherRows.lean ====
/-
  A shape operation read at an index: the gather that takes whole rows of a rank-2 array through a column of start indices.
-/
import Idealize.ShloMosaic.PureOps.Ideal
import Idealize.ShloMosaic.Lib.ValueIdx

set_option maxRecDepth 16384

noncomputable section

namespace Cert.Lib

open Idealize.ShloMosaic Idealize.ShloMosaic.ValueIdx

section GatherRows
variable {α : Type}

/-- The dimension numbers of a row gather: operand `[N, D]`, start indices `[E, 1]`, result `[E, D]`; the result's
    axis 1 is the offset axis, the operand's axis 0 is collapsed and is the one the start index names, the index
    vector lies along axis 1 of the start indices, and a slice is one whole row. -/
abbrev rowDims (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- On the operand's axis 0 the row gather reads the clamped start index alone: the axis is named by the start index
    map, is not a batching axis, and is collapsed. -/
theorem rowDims_axis0 {N D E w : Nat}
    (wf : GatherDims.WF ⟨2, ![N, D]⟩ ⟨2, ![E, 1]⟩ ⟨2, ![E, D]⟩ [1] [0] [] [0] [] 1 ![1, D])
    (idx : IVec ⟨2, ![E, 1]⟩ w) (e : Fin E) (j : Fin D) :
    (rowDims N D E wf).start (ix2 e j) idx (0 : Fin 2) + (rowDims N D E wf).batchCoord (ix2 e j) (0 : Fin 2)
      + (rowDims N D E wf).offCoord (ix2 e j) (0 : Fin 2) = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N D E wf).startIndexMap from List.mem_singleton.mpr rfl)]
  have hsi : (rowDims N D E wf).siIdx (ix2 e j) ⟨List.idxOf (0 : Fin 2) (rowDims N D E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the operand's axis 1 the row gather reads the result's column alone: the axis is not named by the start index
    map, is not a batching axis, and is the one kept axis, read by the result's offset axis. -/
theorem rowDims_axis1 {N D E w : Nat}
    (wf : GatherDims.WF ⟨2, ![N, D]⟩ ⟨2, ![E, 1]⟩ ⟨2, ![E, D]⟩ [1] [0] [] [0] [] 1 ![1, D])
    (idx : IVec ⟨2, ![E, 1]⟩ w) (e : Fin E) (j : Fin D) :
    (rowDims N D E wf).start (ix2 e j) idx (1 : Fin 2) + (rowDims N D E wf).batchCoord (ix2 e j) (1 : Fin 2)
      + (rowDims N D E wf).offCoord (ix2 e j) (1 : Fin 2) = j.val := by
  rw [GatherDims.batchCoord_eq_zero _ _ _ List.not_mem_nil]
  unfold GatherDims.start
  have h10 : ¬ (1 : Fin 2) ∈ [(0 : Fin 2)] := by decide
  rw [dif_neg (show ¬ (1 : Fin 2) ∈ (rowDims N D E wf).startIndexMap from h10)]
  simp only [Nat.add_zero, Nat.zero_add]
  have hk : (1 : Fin 2) ∈ (rowDims N D E wf).sKept :=
    (GatherDims.mem_sKept _ _).mpr ⟨h10, List.not_mem_nil⟩
  unfold GatherDims.offCoord
  rw [dif_pos hk]
  rfl

/-- The row gather read at `(e, j)`: the operand at the row named by the start index `idx[e, 0]`, read signed and
    clamped into `[0, N − 1]`, and at column `j`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N D E wf) x idx (ix2 e j)
      = x (ix2 (⟨min (idx (ix2 e (0 : Fin 1))).toInt.toNat (N - 1), by omega⟩ : Fin N) j) := by
  unfold Host.gather
  congr 1
  funext a
  refine Fin.ext ?_
  match a with
  | ⟨0, _⟩ => exact rowDims_axis0 wf idx e j
  | ⟨1, _⟩ => exact rowDims_axis1 wf idx e j

end GatherRows

end Cert.Lib

end
-- ==== Proof.RefMid.lean ====
/-
  The second layer's feature product.

  The reference joins, for every node, its 128 first-layer features with the 256 input features of the root node of
  its graph, rectifies the 384 numbers and multiplies by the 384 × 128 weights.  The kernel never forms the joined
  array: it multiplies the rectified first-layer features by the first 128 rows of the weights, and adds the row,
  picked by the node's graph label, of a 128-row table that holds, per graph, the rectified input features of the
  graph's root node against the last 256 rows of the weights.

  Here: the three arrays the kernel's host operations prepare (the first 128 weight rows, the table, the labels as a
  column) as functions of the arguments; each of them read at an index; the reference's stages — the two nested
  gathers, the concatenation, the rectifier, the product — read at an index; and the equation, index by index.
  A sum over 384 columns splits as the first 128 plus the last 256; against the indicator of the node's label a sum
  over all 128 labels keeps one term (0 · x = 0 and 1 · x = x for every extended real x); and when every label is in
  [0, 128) the reference's root row of node n is the table's root row of the label of n.
-/
import proofs.«118666_j9182640079570_2_alg».proof.Proof.Gen.KernelIdeal.Launch
import proofs.«118666_j9182640079570_2_alg».proof.Proof.Gen.ReferenceIdeal.Read
import proofs.«118666_j9182640079570_2_alg».proof.Proof.Spec
import proofs.«118666_j9182640079570_2_alg».proof.Proof.LibGatherRows
import proofs.«118666_j9182640079570_2_alg».proof.Proof.LibGatherScatterCol
import Idealize.ShloMosaic.PureOps.Ideal.Laws
import Idealize.ShloMosaic.Lib.Pipeline.Value
import Idealize.ShloMosaic.Lib.ValueIdx

set_option maxRecDepth 16384

noncomputable section

namespace Cert.Bridge

open Idealize.ShloMosaic Idealize.ShloMosaic.ValueIdx
open scoped BigOperators

/-! ## Words and extended reals -/

/-- A negative index is moved up by the extent `N`. -/
def wrapW (N w : BitVec 32) : BitVec 32 := Scalar.select (IntOp.cmpi .slt w 0#32) (IntOp.addi w N) w

/-- A word that is not negative as a signed number is left alone. -/
theorem wrapW_of_nonneg (N w : BitVec 32) (h : 0 ≤ w.toInt) : wrapW N w = w := by
  unfold wrapW
  have hs : w.slt 0#32 = false := by
    rw [BitVec.slt_eq_decide]
    simpa using h
  show Scalar.select (BitVec.ofBool (w.slt 0#32)) _ _ = _
  rw [hs]
  rfl

/-- A word in `[0, 128)` as a signed number is the word of its value. -/
theorem word_eq_ofNat (w : BitVec 32) (h0 : 0 ≤ w.toInt) (h1 : w.toInt < 128) :
    w = BitVec.ofNat 32 w.toInt.toNat := by
  have hc := BitVec.toInt_eq_toNat_cond w
  have hlt := w.isLt
  apply BitVec.eq_of_toNat_eq
  rw [BitVec.toNat_ofNat]
  split at hc <;> omega

/-- The zero word of the 32-bit floats is the number zero. -/
theorem ofBits_zero : Ideal.ofBits .f32 0x00000000#32 = (0 : EReal) := by
  simp [Ideal.ofBits, Ideal.ieee]

/-- Against the indicator of the label `b`, a sum over all 128 labels keeps the one term at `b`. -/
theorem sum_hot (v : BitVec 32) (b : Fin 128) (hv : v = BitVec.ofNat 32 b.val) (f : Fin 128 → EReal) :
    ∑ g : Fin 128, Cert.Gcn.hot v g.val * f g = f b := by
  rw [Finset.sum_eq_single b]
  · unfold Cert.Gcn.hot
    rw [if_pos hv, one_mul]
  · intro g _ hg
    unfold Cert.Gcn.hot
    rw [if_neg, zero_mul]
    intro he
    apply hg
    have := congrArg BitVec.toNat (hv.symm.trans he)
    rw [BitVec.toNat_ofNat, BitVec.toNat_ofNat] at this
    have hb := b.isLt
    have hg' := g.isLt
    apply Fin.ext
    omega
  · intro h
    exact absurd (Finset.mem_univ b) h

/-- A sum over 384 columns is the sum over the first 128 plus the sum over the last 256. -/
theorem sum_split (f : Fin 384 → EReal) :
    ∑ k : Fin 384, f k = (∑ k : Fin 128, f ⟨k.val, by omega⟩) + ∑ k : Fin 256, f ⟨128 + k.val, by omega⟩ :=
  Fin.sum_univ_add (a := 128) (b := 256) f

/-! ## The three host values the second product reads, as functions of the arguments -/

section KernelSide
open Cert.KernelIdeal Cert.KernelIdeal.Facts₀ Cert.KernelIdeal.Facts

/-- The first 128 rows of the second layer's weights. -/
def waK (x6 : FVec Ideal S384x128 .f32) : FVec Ideal S128x128 .f32 :=
  extractStridedSlice S128x128 ![0, 0] x6 slices_S384x128_S128x128_0_0

/-- The graph labels as a column. -/
def btK (x2 : IVec S200000 32) : IVec S200000x1 32 :=
  shapeCast S200000x1 x2 shapeCasts_S200000_S200000x1

/-- The root indices, a negative one moved up by the number of nodes, as a column. -/
def rootColK (x3 : IVec S128 32) : IVec S128x1 32 :=
  broadcastInDim S128x1 ![0] bcast_S128_S128x1_0
    (select (cmpi .slt x3 (broadcastInDim S128 ![] bcast_S_S128 (constantI S_ 32 0#32)))
      (addi x3 (broadcastInDim S128 ![] bcast_S_S128 (constantI S_ 32 200000#32))) x3)

/-- Per graph: the rectified features of its root node against the last 256 rows of the weights. -/
def ctK (x0 : FVec Ideal S200000x256 .f32) (x3 : IVec S128 32) (x6 : FVec Ideal S384x128 .f32) :
    FVec Ideal S128x128 .f32 :=
  Host.dotGeneral (F := Ideal) dot_S128x256_S256x128_S128x128_1_0_0_1_n_n none
    (maximumf (Host.gather gather_S200000x256_S128x1_S128x256_1_0_n_n_0_1_1256 x0 (rootColK x3))
      (broadcastInDim S128x256 ![] bcast_S_S128x256 (constant (F := Ideal) S_ .f32 0x00000000#32)))
    (extractStridedSlice S256x128 ![128, 0] x6 slices_S384x128_S256x128_128_0)

open Cert.KernelIdeal.Gen Idealize.ShloMosaic.StableHlo in
/-- The stretch of host operations before the third call leaves exactly these three values in the buffers the call
    reads. -/
theorem host2 (W : Valuation τ sig (Elt Ideal)) :
    StableHlo.after (hostOps2 (F := Ideal)) W (Proc.devRef .tc main_v54)
        = ctK (W (Proc.devRef .tc main_arg0)) (W (Proc.devRef .tc main_arg3)) (W (Proc.devRef .tc main_arg6))
    ∧ StableHlo.after (hostOps2 (F := Ideal)) W (Proc.devRef .tc main_v55) = waK (W (Proc.devRef .tc main_arg6))
    ∧ StableHlo.after (hostOps2 (F := Ideal)) W (Proc.devRef .tc main_v56) = btK (W (Proc.devRef .tc main_arg2)) := by
  refine ⟨?_, ?_, ?_⟩
  · dsimp only [hostOps2]
    after_results_simp
    rfl
  · dsimp only [hostOps2]
    after_results
    rfl
  · dsimp only [hostOps2]
    after_results
    rfl

end KernelSide

/-! ## The kernel's three values read at an index -/

section KernelRead
open Cert.KernelIdeal Cert.KernelIdeal.Facts₀ Cert.KernelIdeal.Facts

/-- The row of the feature table a start index names: the word read signed and clamped into the table. -/
def rowOf (w : BitVec 32) : Fin 200000 := ⟨min w.toInt.toNat (200000 - 1), by omega⟩

theorem waK_apply (x6 : FVec Ideal S384x128 .f32) (k j : Fin 128) :
    waK x6 (ix2 k j) = x6 (ix2 (⟨k.val, by have := k.isLt; omega⟩ : Fin 384) j) := by
  unfold waK
  exact extractStridedSlice_apply ![0, 0] x6 slices_S384x128_S128x128_0_0 (ix2 k j) _
    (fun a => match a with
      | ⟨0, _⟩ => by show k.val = 0 + k.val; omega
      | ⟨1, _⟩ => by show j.val = 0 + j.val; omega)

theorem btK_apply (x2 : IVec S200000 32) (n : Fin 200000) : btK x2 (ix2 n (0 : Fin 1)) = x2 (ix1 n) := by
  unfold btK
  exact shapeCast_apply x2 shapeCasts_S200000_S200000x1 (ix2 n (0 : Fin 1)) (ix1 n)
    (by rw [Shape.rowMajor_val_one, Shape.rowMajor_val_two]; show n.val = n.val * 1 + 0; omega)

theorem rootColK_apply (x3 : IVec S128 32) (g : Fin 128) :
    rootColK x3 (ix2 g (0 : Fin 1)) = wrapW 200000#32 (x3 (ix1 g)) := by
  unfold rootColK
  rw [broadcastInDim_apply ![0] bcast_S128_S128x1_0 _ (ix2 g (0 : Fin 1)) (ix1 g) (fun a => match a with
    | ⟨0, _⟩ => by show g.val = if (128 : Nat) = 1 then 0 else g.val; rw [if_neg (by decide)])]
  rfl

/-- The last 256 rows of the weights, read at an index. -/
theorem wbK_apply (x6 : FVec Ideal S384x128 .f32) (k : Fin 256) (j : Fin 128) :
    extractStridedSlice S256x128 ![128, 0] x6 slices_S384x128_S256x128_128_0 (ix2 k j)
      = x6 (ix2 (⟨128 + k.val, by have := k.isLt; omega⟩ : Fin 384) j) :=
  extractStridedSlice_apply ![128, 0] x6 slices_S384x128_S256x128_128_0 (ix2 k j) _
    (fun a => match a with
      | ⟨0, _⟩ => by show 128 + k.val = 128 + k.val; rfl
      | ⟨1, _⟩ => by show j.val = 0 + j.val; omega)

/-- The row coordinate of the product's left operand index is the result's row. -/
theorem dotK_lhs0 (i : S128x128.Idx) (q : dot_S128x256_S256x128_S128x128_1_0_0_1_n_n.contr.Idx) :
    (dot_S128x256_S256x128_S128x128_1_0_0_1_n_n.lhsIdx i q 0).val = (i 0).val := by
  unfold DotDims.lhsIdx
  rw [dif_neg (show ¬(0 : Fin S128x256.rank) ∈ dot_S128x256_S256x128_S128x128_1_0_0_1_n_n.lhsBatch by decide),
    dif_pos (show (0 : Fin S128x256.rank) ∈ dot_S128x256_S256x128_S128x128_1_0_0_1_n_n.lhsNonContracting by decide)]
  rfl

/-- The column coordinate of the product's right operand index is the result's column. -/
theorem dotK_rhs1 (i : S128x128.Idx) (q : dot_S128x256_S256x128_S128x128_1_0_0_1_n_n.contr.Idx) :
    (dot_S128x256_S256x128_S128x128_1_0_0_1_n_n.rhsIdx i q 1).val = (i 1).val := by
  unfold DotDims.rhsIdx
  rw [dif_neg (show ¬(1 : Fin S256x128.rank) ∈ dot_S128x256_S256x128_S128x128_1_0_0_1_n_n.rhsBatch by decide),
    dif_pos (show (1 : Fin S256x128.rank) ∈ dot_S128x256_S256x128_S128x128_1_0_0_1_n_n.rhsNonContracting by decide)]
  rfl

/-- The host's product of a `128 × 256` by a `256 × 128` array, read at an index: the sum over the 256 columns. -/
theorem dotK_apply (l : FVec Ideal S128x256 .f32) (r : FVec Ideal S256x128 .f32) (g j : Fin 128) :
    Host.dotGeneral (F := Ideal) dot_S128x256_S256x128_S128x128_1_0_0_1_n_n none l r (ix2 g j)
      = ∑ k : Fin 256, l (ix2 g k) * r (ix2 k j) := by
  simp only [Host.dotGeneral]
  rw [Ideal.dotGeneral_apply, ← Equiv.sum_comp (contrEquiv1 dot_S128x256_S256x128_S128x128_1_0_0_1_n_n 256 rfl rfl).symm]
  refine Finset.sum_congr rfl fun k _ => ?_
  have hk := contrEquiv1_symm_val dot_S128x256_S256x128_S128x128_1_0_0_1_n_n 256 rfl rfl k
  have el : dot_S128x256_S256x128_S128x128_1_0_0_1_n_n.lhsIdx (ix2 g j)
      ((contrEquiv1 dot_S128x256_S256x128_S128x128_1_0_0_1_n_n 256 rfl rfl).symm k) = ix2 g k :=
    funext fun a => Fin.ext (by
      match a with
      | ⟨0, _⟩ => exact dotK_lhs0 _ _
      | ⟨1, _⟩ => exact (dot_S128x256_S256x128_S128x128_1_0_0_1_n_n.lhsIdx_val_of_single rfl (ix2 g j) _).trans hk)
  have er : dot_S128x256_S256x128_S128x128_1_0_0_1_n_n.rhsIdx (ix2 g j)
      ((contrEquiv1 dot_S128x256_S256x128_S128x128_1_0_0_1_n_n 256 rfl rfl).symm k) = ix2 k j :=
    funext fun a => Fin.ext (by
      match a with
      | ⟨0, _⟩ => exact (dot_S128x256_S256x128_S128x128_1_0_0_1_n_n.rhsIdx_val_of_single rfl (ix2 g j) _).trans hk
      | ⟨1, _⟩ => exact dotK_rhs1 _ _)
  rw [el, er]

/-- The kernel's gather of root rows, read at an index. -/
theorem gatherK_apply (x0 : FVec Ideal S200000x256 .f32) (idx : IVec S128x1 32) (g : Fin 128) (k : Fin 256) :
    Host.gather gather_S200000x256_S128x1_S128x256_1_0_n_n_0_1_1256 x0 idx (ix2 g k)
      = x0 (ix2 (rowOf (idx (ix2 g (0 : Fin 1)))) k) :=
  Cert.Lib.gather_rows_apply (N := 200000) (D := 256) (E := 128) (by decide)
    gather_S200000x256_S128x1_S128x256_1_0_n_n_0_1_1256_wf x0 idx g k

/-- The table of root-row products read at `(g, j)`. -/
theorem ctK_apply (x0 : FVec Ideal S200000x256 .f32) (x3 : IVec S128 32) (x6 : FVec Ideal S384x128 .f32) (g j : Fin 128) :
    ctK x0 x3 x6 (ix2 g j) = ∑ k : Fin 256, max (x0 (ix2 (rowOf (wrapW 200000#32 (x3 (ix1 g)))) k)) 0
      * x6 (ix2 (⟨128 + k.val, by have := k.isLt; omega⟩ : Fin 384) j) := by
  unfold ctK
  rw [dotK_apply]
  refine Finset.sum_congr rfl fun k _ => ?_
  rw [wbK_apply, maximumf_apply, gatherK_apply, rootColK_apply]
  congr 2
  exact ofBits_zero

end KernelRead

/-! ## The reference's second product read at an index -/

section ReferenceRead
open Cert.ReferenceIdeal Cert.ReferenceIdeal.Facts₀ Cert.ReferenceIdeal.Facts Cert.ReferenceIdeal.Read

variable (x0 : FVec Ideal S200000x256 .f32) (x1 : IVec S2x200000 32) (x2 : IVec S200000 32) (x3 : IVec S128 32)
  (x4 : FVec Ideal S256x128 .f32) (x5 : FVec Ideal S128 .f32) (x6 : FVec Ideal S384x128 .f32)

/-- The label column of the reference: the label, a negative one moved up by the number of graphs. -/
theorem ref_v54 (n : Fin 200000) :
    val_main_v54 (F := Ideal) x2 (ix2 n (0 : Fin 1)) = wrapW 128#32 (x2 (ix1 n)) := by
  rw [val_main_v54_apply]
  have e : idx_main_v54 (ix2 n (0 : Fin 1)) = ix1 n := funext fun a => match a with | ⟨0, _⟩ => rfl
  rw [e]
  rfl

/-- The root index of a node's graph: the root table at the label column's entry, read signed and clamped. -/
theorem ref_v55 (n : Fin 200000) :
    val_main_v55 (F := Ideal) x2 x3 (ix1 n)
      = x3 (ix1 (⟨min (val_main_v54 (F := Ideal) x2 (ix2 n (0 : Fin 1))).toInt.toNat (128 - 1), by omega⟩ : Fin 128)) := by
  unfold val_main_v55
  exact GatherScatterCol.vecGather_apply 128 200000 (by decide) gather_S128_S200000x1_S200000_n_0_n_n_0_1_1_wf x3
    (val_main_v54 (F := Ideal) x2) n

/-- The root column of the reference: the root index, a negative one moved up by the number of nodes. -/
theorem ref_v61 (n : Fin 200000) :
    val_main_v61 (F := Ideal) x2 x3 (ix2 n (0 : Fin 1)) = wrapW 200000#32 (val_main_v55 (F := Ideal) x2 x3 (ix1 n)) := by
  rw [val_main_v61_apply]
  have e : idx_main_v61 (ix2 n (0 : Fin 1)) = ix1 n := funext fun a => match a with | ⟨0, _⟩ => rfl
  rw [e]
  rfl

/-- The gathered root rows of the reference, read at an index. -/
theorem ref_v62 (n : Fin 200000) (k : Fin 256) :
    val_main_v62 (F := Ideal) x0 x2 x3 (ix2 n k) = x0 (ix2 (rowOf (val_main_v61 (F := Ideal) x2 x3 (ix2 n (0 : Fin 1)))) k) := by
  unfold val_main_v62
  exact Cert.Lib.gather_rows_apply (N := 200000) (D := 256) (E := 200000) (by decide)
    gather_S200000x256_S200000x1_S200000x256_1_0_n_n_0_1_1256_wf x0 (val_main_v61 (F := Ideal) x2 x3) n k

/-- The first 128 columns of the joined array are the first layer's output. -/
theorem ref_v63_left (n : Fin 200000) (k : Fin 128) :
    val_main_v63 (F := Ideal) x0 x1 x2 x3 x4 x5 (ix2 n (⟨k.val, by have := k.isLt; omega⟩ : Fin 384))
      = val_main_v48 (F := Ideal) x0 x1 x4 x5 (ix2 n k) := by
  unfold val_main_v63
  exact concatenate_pair_apply_left (t := S200000x384) (s₁ := S200000x128) (s₂ := S200000x256) 1
    (val_main_v48 (F := Ideal) x0 x1 x4 x5) (val_main_v62 (F := Ideal) x0 x2 x3) concatenates_S200000x128_S200000x256_S200000x384_d1
    (ix2 n (⟨k.val, by have := k.isLt; omega⟩ : Fin 384)) rfl (ix2 n k)
    (fun b => match b with | ⟨0, _⟩ => rfl | ⟨1, _⟩ => rfl)

/-- The last 256 columns of the joined array are the gathered root rows. -/
theorem ref_v63_right (n : Fin 200000) (k : Fin 256) :
    val_main_v63 (F := Ideal) x0 x1 x2 x3 x4 x5 (ix2 n (⟨128 + k.val, by have := k.isLt; omega⟩ : Fin 384))
      = val_main_v62 (F := Ideal) x0 x2 x3 (ix2 n k) := by
  unfold val_main_v63
  exact concatenate_pair_apply_right (t := S200000x384) (s₁ := S200000x128) (s₂ := S200000x256) 1
    (val_main_v48 (F := Ideal) x0 x1 x4 x5) (val_main_v62 (F := Ideal) x0 x2 x3) concatenates_S200000x128_S200000x256_S200000x384_d1
    (ix2 n (⟨128 + k.val, by have := k.isLt; omega⟩ : Fin 384)) rfl rfl (ix2 n k)
    (fun b => match b with
      | ⟨0, _⟩ => fun _ => rfl
      | ⟨1, _⟩ => fun h => absurd rfl h)
    (by show k.val + 128 = 128 + k.val; omega)

/-- The rectified joined array, read at an index. -/
theorem ref_v64 (i : S200000x384.Idx) :
    val_main_v64 (F := Ideal) x0 x1 x2 x3 x4 x5 i = max (val_main_v63 (F := Ideal) x0 x1 x2 x3 x4 x5 i) 0 := by
  rw [val_main_v64_apply]
  show max _ (Ideal.ofBits .f32 0x00000000#32) = _
  rw [ofBits_zero]

theorem lidx_eq (n : Fin 200000) (j : Fin 128) (k : Fin 384) : lidx_main_v65 (ix2 n j) k = ix2 n k :=
  funext fun a => match a with | ⟨0, _⟩ => rfl | ⟨1, _⟩ => rfl

theorem ridx_eq (n : Fin 200000) (j : Fin 128) (k : Fin 384) : ridx_main_v65 (ix2 n j) k = ix2 k j :=
  funext fun a => match a with | ⟨0, _⟩ => rfl | ⟨1, _⟩ => rfl

/-- Under the label bound, the root column of the reference at node `n` is the kernel's root column at the node's
    label. -/
theorem ref_root (n : Fin 200000) (h0 : 0 ≤ (x2 (ix1 n)).toInt) (h1 : (x2 (ix1 n)).toInt < 128) :
    val_main_v61 (F := Ideal) x2 x3 (ix2 n (0 : Fin 1))
      = wrapW 200000#32 (x3 (ix1 (⟨(x2 (ix1 n)).toInt.toNat, by omega⟩ : Fin 128))) := by
  rw [ref_v61, ref_v55]
  have e : (⟨min (val_main_v54 (F := Ideal) x2 (ix2 n (0 : Fin 1))).toInt.toNat (128 - 1), by omega⟩ : Fin 128)
      = ⟨(x2 (ix1 n)).toInt.toNat, by omega⟩ := by
    apply Fin.ext
    show min (val_main_v54 (F := Ideal) x2 (ix2 n (0 : Fin 1))).toInt.toNat (128 - 1) = (x2 (ix1 n)).toInt.toNat
    rw [ref_v54, wrapW_of_nonneg _ _ h0]
    omega
  rw [e]

/-- The second product at one node and one feature. -/
theorem ref_hmid_at (hb : ∀ n : Fin 200000, 0 ≤ (x2 (ix1 n)).toInt ∧ (x2 (ix1 n)).toInt < 128)
    (n : Fin 200000) (j : Fin 128) :
    Cert.Gcn.mm2 (val_main_v48 (F := Ideal) x0 x1 x4 x5) (waK x6) (btK x2) (ctK x0 x3 x6) (ix2 n j)
      = val_main_v65 (F := Ideal) x0 x1 x2 x3 x4 x5 x6 (ix2 n j) := by
  obtain ⟨h0, h1⟩ := hb n
  rw [val_main_v65_apply, sum_split]
  show (∑ k : Fin 128, max (val_main_v48 (F := Ideal) x0 x1 x4 x5 (ix2 n k)) 0 * waK x6 (ix2 k j))
      + ∑ g : Fin 128, Cert.Gcn.hot (btK x2 (ix2 n (0 : Fin 1))) g.val * ctK x0 x3 x6 (ix2 g j) = _
  refine congrArg₂ (· + ·) ?_ ?_
  · refine Finset.sum_congr rfl fun k _ => ?_
    rw [waK_apply, lidx_eq, ridx_eq, ref_v64, ref_v63_left]
  · rw [btK_apply, sum_hot _ (⟨(x2 (ix1 n)).toInt.toNat, by omega⟩ : Fin 128) (word_eq_ofNat _ h0 h1), ctK_apply]
    refine Finset.sum_congr rfl fun k _ => ?_
    rw [lidx_eq, ridx_eq, ref_v64, ref_v63_right, ref_v62, ref_root x2 x3 n h0 h1]

end ReferenceRead

/-- The second layer's feature product: the kernel's product on the first layer's output plus the table row picked
    by the node's label is the reference's product over the joined 384 columns. -/
theorem ref_hmid (x0 : (⟨Cert.ReferenceIdeal.S200000x256, .f32⟩ : BufTy).Contents (Elt Ideal))
    (x1 : (⟨Cert.ReferenceIdeal.S2x200000, .i32⟩ : BufTy).Contents (Elt Ideal))
    (x2 : (⟨Cert.ReferenceIdeal.S200000, .i32⟩ : BufTy).Contents (Elt Ideal))
    (x3 : (⟨Cert.ReferenceIdeal.S128, .i32⟩ : BufTy).Contents (Elt Ideal))
    (x4 : (⟨Cert.ReferenceIdeal.S256x128, .f32⟩ : BufTy).Contents (Elt Ideal))
    (x5 : (⟨Cert.ReferenceIdeal.S128, .f32⟩ : BufTy).Contents (Elt Ideal))
    (x6 : (⟨Cert.ReferenceIdeal.S384x128, .f32⟩ : BufTy).Contents (Elt Ideal))
    (hb : ∀ n : Fin 200000, 0 ≤ (x2 (ix1 n)).toInt ∧ (x2 (ix1 n)).toInt < 128)
    (wa : Cert.Gcn.S128x128.Idx → EReal) (ct : Cert.Gcn.S128x128.Idx → EReal) (bt : Cert.Gcn.SNx1.Idx → BitVec 32)
    (hwa : wa = waK x6) (hct : ct = ctK x0 x3 x6) (hbt : bt = btK x2) :
    Cert.Gcn.mm2 (Cert.ReferenceIdeal.Read.val_main_v48 (F := Ideal) x0 x1 x4 x5) wa bt ct
      = Cert.ReferenceIdeal.Read.val_main_v65 (F := Ideal) x0 x1 x2 x3 x4 x5 x6 := by
  subst hwa hct hbt
  funext i
  rw [eq_ix2 i]
  exact ref_hmid_at x0 x1 x2 x3 x4 x5 x6 hb (i 0) (i 1)

end Cert.Bridge

end
-- ==== Proof.Fold2.lean ====
/-
  The third stretch of host operations and the third call.  The host gathers the node features at the 128 root
  nodes, rectifies them and multiplies by the lower 256 rows of the second weight matrix: a 128-row table, one row
  per graph.  The call multiplies the rectified first-layer output by the upper 128 rows of that matrix and adds the
  table row of the node's graph, picked by the 0/1 indicator of its label.  For labels in [0, 128) this is the
  reference's product of the rectified concatenation [first layer | root features of the node's graph] with the
  whole matrix: a sum over 384 columns is the sum over the first 128 plus the sum over the last 256.
-/
import proofs.«118666_j9182640079570_2_alg».proof.Proof.Fold1
import proofs.«118666_j9182640079570_2_alg».proof.Proof.Reg2
import proofs.«118666_j9182640079570_2_alg».proof.Proof.RefMid

set_option maxRecDepth 16384

noncomputable section

namespace Cert.KernelIdeal.Fold

open Cert.KernelIdeal Cert.KernelIdeal.Gen
open Idealize.ShloMosaic Idealize.ShloMosaic.TcCoe Idealize.ShloMosaic.Tactic Idealize.ShloMosaic.StableHlo
open Idealize.ShloMosaic.ValueIdx
open Idealize.SL.Sem
open Cert.ReferenceIdeal.Read (val_main_v1 val_main_v3 val_main_v4 val_main_v11 val_main_v26 val_main_v39 val_main_v48 val_main_v65 val_main_v100 val_main_v110 val_main_v137)

variable (m : (ℓ : Loc nD τ sig) → Buf (Elt Ideal) ℓ) (ρ : Dev nD → PrngReg) (c : Dev nD)

/-! ## After the third stretch of host operations -/

theorem W5_v43 : W5 m ρ c (Proc.devRef .tc main_v43) = val_main_v48 (F := Ideal) (A0 m c) (A1 m c) (A4 m c) (A5 m c) := by
  show StableHlo.after hostOps2 (W4 m ρ c) (Proc.devRef .tc main_v43) = _
  after_results_simp
  exact W4_v43 m ρ c
theorem W5_v1 : W5 m ρ c (Proc.devRef .tc main_v1) = val_main_v1 (F := Ideal) (A1 m c) := by
  show StableHlo.after hostOps2 (W4 m ρ c) (Proc.devRef .tc main_v1) = _
  after_results_simp
  exact W4_v1 m ρ c
theorem W5_v3 : W5 m ρ c (Proc.devRef .tc main_v3) = val_main_v3 (F := Ideal) (A1 m c) := by
  show StableHlo.after hostOps2 (W4 m ρ c) (Proc.devRef .tc main_v3) = _
  after_results_simp
  exact W4_v3 m ρ c
theorem W5_v25 : W5 m ρ c (Proc.devRef .tc main_v25) = val_main_v26 (F := Ideal) (A1 m c) := by
  show StableHlo.after hostOps2 (W4 m ρ c) (Proc.devRef .tc main_v25) = _
  after_results_simp
  exact W4_v25 m ρ c
theorem W5_v26 : W5 m ρ c (Proc.devRef .tc main_v26) = dd (A1 m c) := by
  show StableHlo.after hostOps2 (W4 m ρ c) (Proc.devRef .tc main_v26) = _
  after_results_simp
  exact W4_v26 m ρ c
theorem W5_arg2 : W5 m ρ c (Proc.devRef .tc main_arg2) = A2 m c := by
  show StableHlo.after hostOps2 (W4 m ρ c) (Proc.devRef .tc main_arg2) = _
  after_results_simp
  exact W4_arg2 m ρ c
theorem W5_arg3 : W5 m ρ c (Proc.devRef .tc main_arg3) = A3 m c := by
  show StableHlo.after hostOps2 (W4 m ρ c) (Proc.devRef .tc main_arg3) = _
  after_results_simp
  exact W4_arg3 m ρ c
theorem W5_arg7 : W5 m ρ c (Proc.devRef .tc main_arg7) = A7 m c := by
  show StableHlo.after hostOps2 (W4 m ρ c) (Proc.devRef .tc main_arg7) = _
  after_results_simp
  exact W4_arg7 m ρ c

/-! ## After the third call -/

/-- The third call's output is the reference's second feature product. -/
theorem W6_v57 (hb : ∀ n : Fin 200000, 0 ≤ ((A2 m c : (⟨1, ![200000]⟩ : Shape).Idx → BitVec 32) (ix1 n)).toInt ∧ ((A2 m c : (⟨1, ![200000]⟩ : Shape).Idx → BitVec 32) (ix1 n)).toInt < 128) :
    W6 m ρ c (Proc.devRef .tc main_v57) = val_main_v65 (F := Ideal) (A0 m c) (A1 m c) (A2 m c) (A3 m c) (A4 m c) (A5 m c) (A6 m c) := by
  refine (W6_arr m ρ c 4).trans ((Cert.KernelIdeal.Reg.arr2 (V5 m ρ) c).trans ?_)
  rw [show V5 m ρ c main_v43 = _ from W5_v43 m ρ c]
  have h2 := Cert.Bridge.host2 (W4 m ρ c)
  rw [W4_arg0 m ρ c, W4_arg2 m ρ c, W4_arg3 m ρ c, W4_arg6 m ρ c] at h2
  exact Cert.Bridge.ref_hmid _ _ _ _ _ _ _ hb _ _ _ h2.2.1 h2.1 h2.2.2

theorem W6_v43 : W6 m ρ c (Proc.devRef .tc main_v43) = val_main_v48 (F := Ideal) (A0 m c) (A1 m c) (A4 m c) (A5 m c) :=
  ((W6_arr m ρ c 0).trans (((dat2 (V5 m ρ) c).arrAt_in 0 rfl _).trans (A_eq2 (V5 m ρ) c 0))).trans (W5_v43 m ρ c)
theorem W6_v1 : W6 m ρ c (Proc.devRef .tc main_v1) = val_main_v1 (F := Ideal) (A1 m c) :=
  (W6_of_ne m ρ c main_v1 (by decide)).trans (W5_v1 m ρ c)
theorem W6_v3 : W6 m ρ c (Proc.devRef .tc main_v3) = val_main_v3 (F := Ideal) (A1 m c) :=
  (W6_of_ne m ρ c main_v3 (by decide)).trans (W5_v3 m ρ c)
theorem W6_v25 : W6 m ρ c (Proc.devRef .tc main_v25) = val_main_v26 (F := Ideal) (A1 m c) :=
  (W6_of_ne m ρ c main_v25 (by decide)).trans (W5_v25 m ρ c)
theorem W6_v26 : W6 m ρ c (Proc.devRef .tc main_v26) = dd (A1 m c) :=
  (W6_of_ne m ρ c main_v26 (by decide)).trans (W5_v26 m ρ c)
theorem W6_arg2 : W6 m ρ c (Proc.devRef .tc main_arg2) = A2 m c :=
  (W6_of_ne m ρ c main_arg2 (by decide)).trans (W5_arg2 m ρ c)
theorem W6_arg3 : W6 m ρ c (Proc.devRef .tc main_arg3) = A3 m c :=
  (W6_of_ne m ρ c main_arg3 (by decide)).trans (W5_arg3 m ρ c)
theorem W6_arg7 : W6 m ρ c (Proc.devRef .tc main_arg7) = A7 m c :=
  (W6_of_ne m ρ c main_arg7 (by decide)).trans (W5_arg7 m ρ c)

end Cert.KernelIdeal.Fold

end
-- ==== Proof.LibBlockSum.lean ====
/-
  Three general facts about finite sums in a commutative additive monoid, with no program in sight: a running total
  that starts at the first term and adds the next term at every step is the sum of the terms so far; a sum over an
  initial segment of the naturals is the sum over the finite type of its elements; and a sum over `a * b` indices
  regroups into `a` consecutive blocks of `b`.
-/
import Mathlib.Algebra.BigOperators.Fin
import Mathlib.Data.Fintype.BigOperators
import Mathlib.Logic.Equiv.Fin.Basic
import Mathlib.Tactic.Ring

open scoped BigOperators

namespace Cert.LibBlockSum

/-- A RUNNING TOTAL IS A SUM. If `acc 0` is the first term and each step adds the next term, then after step `n` the
    total is the sum of the terms `0, …, n`. -/
theorem run_sum {M : Type*} [AddCommMonoid M] (g acc : ℕ → M) (h0 : acc 0 = g 0)
    (hs : ∀ k, acc (k + 1) = acc k + g (k + 1)) (n : ℕ) : acc n = ∑ k ∈ Finset.range (n + 1), g k := by
  induction n with
  | zero => rw [Finset.sum_range_succ, Finset.sum_range_zero, zero_add]; exact h0
  | succ n ih => rw [hs, ih, Finset.sum_range_succ _ (n + 1)]

/-- The same from an EMPTY start: if `acc 0` is zero and step `k` adds the term `k`, then after `n` steps the total is
    the sum of the terms `0, …, n - 1`. -/
theorem run_sum_zero {M : Type*} [AddCommMonoid M] (g acc : ℕ → M) (h0 : acc 0 = 0)
    (hs : ∀ k, acc (k + 1) = acc k + g k) (n : ℕ) : acc n = ∑ k ∈ Finset.range n, g k := by
  induction n with
  | zero => rw [Finset.sum_range_zero]; exact h0
  | succ n ih => rw [hs, ih, Finset.sum_range_succ]

/-- A sum over the naturals below `n` is the sum over `Fin n` of the term at each element's value
    (Mathlib's `Finset.sum_range`). -/
theorem sum_range_eq_sum_fin {M : Type*} [AddCommMonoid M] (n : ℕ) (g : ℕ → M) :
    ∑ k ∈ Finset.range n, g k = ∑ k : Fin n, g k.val :=
  Finset.sum_range g

/-- Position `j` of block `i`, among `a` consecutive blocks of `b`, is below `a * b`. -/
theorem block_lt {a b : ℕ} (i : Fin a) (j : Fin b) : b * i.val + j.val < a * b := by
  have hi : i.val + 1 ≤ a := i.isLt
  calc b * i.val + j.val < b * i.val + b := Nat.add_lt_add_left j.isLt _
    _ = b * (i.val + 1) := by ring
    _ ≤ b * a := Nat.mul_le_mul_left b hi
    _ = a * b := Nat.mul_comm b a

/-- REGROUPING INTO BLOCKS. A sum over `a * b` indices is the sum, over the `a` consecutive blocks of `b` indices, of the
    sum over each block: index `b * i + j` is position `j` of block `i` (the bijection `finProdFinEquiv`). -/
theorem sum_blocks_mul {M : Type*} [AddCommMonoid M] (a b : ℕ) (f : Fin (a * b) → M) :
    ∑ i : Fin a, ∑ j : Fin b, f ⟨b * i.val + j.val, block_lt i j⟩ = ∑ k : Fin (a * b), f k := by
  rw [← Equiv.sum_comp finProdFinEquiv f, Fintype.sum_prod_type]
  refine Finset.sum_congr rfl fun i _ => Finset.sum_congr rfl fun j _ => congrArg f (Fin.ext ?_)
  show b * i.val + j.val = j.val + b * i.val
  exact Nat.add_comm _ _

/-- The instance used by a pass over 16 column blocks of 256 columns: 4096 columns in all. -/
theorem sum_blocks {M : Type*} [AddCommMonoid M] (f : Fin 4096 → M) :
    ∑ cb : Fin 16, ∑ l : Fin 256, f ⟨256 * cb.val + l.val, block_lt (a := 16) cb l⟩ = ∑ j : Fin 4096, f j :=
  sum_blocks_mul 16 256 f

/-- … and the one used by a pass over 8 row blocks of 512 rows: 4096 rows in all. -/
theorem sum_row_blocks {M : Type*} [AddCommMonoid M] (f : Fin 4096 → M) :
    ∑ rb : Fin 8, ∑ r : Fin 512, f ⟨512 * rb.val + r.val, block_lt (a := 8) rb r⟩ = ∑ i : Fin 4096, f i :=
  sum_blocks_mul 8 512 f

end Cert.LibBlockSum
-- ==== Proof.Reg3.lean ====
/-
  Region 3: per-graph pooling of the rectified second-layer combine step.

  The output block (all 128 graphs × 128 features) is the same at every one of the 25 grid points.  At the first
  point it is reset to zero; at every point the body adds, for each graph g and feature j, the sum over the
  point's 8000 rows r of (indicator that row r carries label g) × relu(agg + h · scale + bias) at (r, j).
  So after the last point the block holds the sum over all 25 × 8000 = 200000 rows.
-/
import proofs.«118666_j9182640079570_2_alg».proof.Proof.Spec
import proofs.«118666_j9182640079570_2_alg».proof.Proof.LibBlockSum
import proofs.«118666_j9182640079570_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.Reg

open Cert.KernelIdeal Cert.KernelIdeal.Gen

namespace Pool

/-! ## The body's arithmetic at one entry -/

theorem hz : (![0, 0] : Fin 2 → Nat) = fun _ => 0 := funext fun a => by fin_cases a <;> rfl

/-- The product contracts axis 0 (the rows) of both factors; the left factor's column is the output's row … -/
theorem lhs_row (i : S128x128.Idx) (q : dot_S8000x128_S8000x128_S128x128_0_0_1_1_n_n.contr.Idx) :
    (dot_S8000x128_S8000x128_S128x128_0_0_1_1_n_n.lhsIdx i q 0).val = (q ⟨0, by decide⟩).val :=
  dot_S8000x128_S8000x128_S128x128_0_0_1_1_n_n.lhsIdx_val_of_single rfl i q
theorem lhs_col (i : S128x128.Idx) (q : dot_S8000x128_S8000x128_S128x128_0_0_1_1_n_n.contr.Idx) :
    (dot_S8000x128_S8000x128_S128x128_0_0_1_1_n_n.lhsIdx i q 1).val = (i 0).val := by
  unfold DotDims.lhsIdx
  rw [dif_neg (show ¬(1 : Fin S8000x128.rank) ∈ dot_S8000x128_S8000x128_S128x128_0_0_1_1_n_n.lhsBatch by decide),
    dif_pos (show (1 : Fin S8000x128.rank) ∈ dot_S8000x128_S8000x128_S128x128_0_0_1_1_n_n.lhsNonContracting by decide)]
  rfl
/-- … and the right factor's column is the output's column. -/
theorem rhs_row (i : S128x128.Idx) (q : dot_S8000x128_S8000x128_S128x128_0_0_1_1_n_n.contr.Idx) :
    (dot_S8000x128_S8000x128_S128x128_0_0_1_1_n_n.rhsIdx i q 0).val = (q ⟨0, by decide⟩).val :=
  dot_S8000x128_S8000x128_S128x128_0_0_1_1_n_n.rhsIdx_val_of_single rfl i q
theorem rhs_col (i : S128x128.Idx) (q : dot_S8000x128_S8000x128_S128x128_0_0_1_1_n_n.contr.Idx) :
    (dot_S8000x128_S8000x128_S128x128_0_0_1_1_n_n.rhsIdx i q 1).val = (i 1).val := by
  unfold DotDims.rhsIdx
  rw [dif_neg (show ¬(1 : Fin S8000x128.rank) ∈ dot_S8000x128_S8000x128_S128x128_0_0_1_1_n_n.rhsBatch by decide),
    dif_pos (show (1 : Fin S8000x128.rank) ∈ dot_S8000x128_S8000x128_S128x128_0_0_1_1_n_n.rhsNonContracting by decide)]
  rfl

/-- The contraction over the 8000 rows of the block: entry (g, j) of the product of the transposed left factor with
    the right factor is the sum over rows r of left (r, g) times right (r, j). -/
theorem rows_dot (L R : FVec Ideal S8000x128 .bf16) (g j : Fin 128) :
    FloatOps.matmul dot_S8000x128_S8000x128_S128x128_0_0_1_1_n_n none L R (constant S128x128 .f32 0x00000000#32) (ix2 g j)
      = ∑ r : Fin 8000, L (ix2 r g) * R (ix2 r j) := by
  rw [Ideal.matmul_constant_zero_apply,
    ← Equiv.sum_comp (ValueIdx.contrEquiv1 dot_S8000x128_S8000x128_S128x128_0_0_1_1_n_n 8000 rfl rfl).symm]
  refine Finset.sum_congr rfl fun r _ => ?_
  have hk := ValueIdx.contrEquiv1_symm_val dot_S8000x128_S8000x128_S128x128_0_0_1_1_n_n 8000 rfl rfl r
  have el : dot_S8000x128_S8000x128_S128x128_0_0_1_1_n_n.lhsIdx (ix2 g j)
      ((ValueIdx.contrEquiv1 dot_S8000x128_S8000x128_S128x128_0_0_1_1_n_n 8000 rfl rfl).symm r) = ix2 r g :=
    funext fun a => Fin.ext (by
      match a with
      | ⟨0, _⟩ => exact (lhs_row _ _).trans hk
      | ⟨1, _⟩ => exact lhs_col _ _)
  have er : dot_S8000x128_S8000x128_S128x128_0_0_1_1_n_n.rhsIdx (ix2 g j)
      ((ValueIdx.contrEquiv1 dot_S8000x128_S8000x128_S128x128_0_0_1_1_n_n 8000 rfl rfl).symm r) = ix2 r j :=
    funext fun a => Fin.ext (by
      match a with
      | ⟨0, _⟩ => exact (rhs_row _ _).trans hk
      | ⟨1, _⟩ => exact rhs_col _ _)
  rw [el, er]

/-- A one-bit comparison widened to a word and converted is the number 1 or 0. -/
theorem bit_to_real (v w : BitVec 32) :
    (FloatOps.sitofp (F := Ideal) .f32 ((IntOp.cmpi .eq v w).setWidth 32) : Ideal .f32) = if v = w then 1 else 0 := by
  show (((((IntOp.cmpi .eq v w).setWidth 32).toInt : ℤ) : ℝ) : EReal) = _
  by_cases h : v = w
  · subst h
    have : (IntOp.cmpi .eq v v) = 1#1 := by simp [IntOp.cmpi]
    rw [this, if_pos rfl]
    norm_num
  · have : (IntOp.cmpi .eq v w) = 0#1 := by
      show BitVec.ofBool (v == w) = 0#1
      rw [show (v == w) = false from beq_eq_false_iff_ne.mpr h]
      rfl
    rw [this, if_neg h]
    norm_num

/-- The left factor: row r's label compared with the column number g, as the number 1 or 0. -/
theorem onehot_entry (x4 : Vec Ideal S8000x1 .i32) (hc : S8000x1.ShapeCasts S8000x1) (hb : S8000x1.Broadcasts S8000x128)
    (hi : S8000x128.Iotas .tc 32 [1]) (h1 : 1 < 32) (hbf : FTy.bits .bf16 < FTy.bits .f32) (r : Fin 8000) (g : Fin 128) :
    (truncf .bf16 (sitofp .f32 (extui 32 (cmpi .eq (broadcastTo S8000x128 (shapeCast S8000x1 x4 hc) hb)
        (iota .tc S8000x128 32 [1] hi)) h1) : FVec Ideal S8000x128 .f32) hbf : FVec Ideal S8000x128 .bf16) (ix2 r g)
      = Cert.Gcn.hot (x4 (ix2 r 0)) g.val := by
  have e1 : broadcastTo S8000x128 (shapeCast S8000x1 x4 hc) hb (ix2 r g) = x4 (ix2 r 0) := by
    rw [shapeCast_self]
    exact broadcastTo_apply x4 hb (ix2 r g) (ix2 r 0) (fun a => by
      match a with
      | ⟨0, _⟩ => rfl
      | ⟨1, _⟩ => rfl)
  have e2 : iota .tc S8000x128 32 [1] hi (ix2 r g) = BitVec.ofNat 32 g.val :=
    iota_single_apply .tc S8000x128 32 1 hi (ix2 r g)
  show FloatOps.sitofp (F := Ideal) .f32 ((IntOp.cmpi .eq (broadcastTo S8000x128 (shapeCast S8000x1 x4 hc) hb (ix2 r g))
    (iota .tc S8000x128 32 [1] hi (ix2 r g))).setWidth 32) = _
  rw [e1, e2, bit_to_real]
  rfl

/-- The right factor: the rectified combine step at row r, feature j. -/
theorem relu_entry (x0 x1 : Vec Ideal S8000x128 .f32) (x2 : Vec Ideal S8000x1 .f32) (x3 : Vec Ideal S1x128 .f32)
    (hc0 : S8000x128.ShapeCasts S8000x128) (hc2 : S8000x1.ShapeCasts S8000x1) (hb2 : S8000x1.Broadcasts S8000x128)
    (hc3 : S1x128.ShapeCasts S1x128) (hb3 : S1x128.Broadcasts S8000x128) (hbf : FTy.bits .bf16 < FTy.bits .f32)
    (r : Fin 8000) (j : Fin 128) :
    (truncf .bf16 (maximumf (addf (addf (shapeCast S8000x128 x0 hc0)
        (mulf (shapeCast S8000x128 x1 hc0) (broadcastTo S8000x128 (shapeCast S8000x1 x2 hc2) hb2)))
        (broadcastTo S8000x128 (shapeCast S1x128 x3 hc3) hb3))
        (broadcast S8000x128 (Scalar.ofBits .f32 0x00000000#32)) : FVec Ideal S8000x128 .f32) hbf
        : FVec Ideal S8000x128 .bf16) (ix2 r j)
      = max (x0 (ix2 r j) + x1 (ix2 r j) * x2 (ix2 r 0) + x3 (ix2 0 j)) 0 := by
  have e2 : broadcastTo S8000x128 (shapeCast S8000x1 x2 hc2) hb2 (ix2 r j) = x2 (ix2 r 0) := by
    rw [shapeCast_self]
    exact broadcastTo_apply x2 hb2 (ix2 r j) (ix2 r 0) (fun a => by
      match a with
      | ⟨0, _⟩ => rfl
      | ⟨1, _⟩ => rfl)
  have e3 : broadcastTo S8000x128 (shapeCast S1x128 x3 hc3) hb3 (ix2 r j) = x3 (ix2 0 j) := by
    rw [shapeCast_self]
    exact broadcastTo_apply x3 hb3 (ix2 r j) (ix2 0 j) (fun a => by
      match a with
      | ⟨0, _⟩ => rfl
      | ⟨1, _⟩ => rfl)
  rw [truncf_apply, maximumf_apply, addf_apply, addf_apply, mulf_apply, e2, e3, shapeCast_self, shapeCast_self,
    broadcast_apply]
  show max _ (Ideal.ofBits .f32 0x00000000#32) = _
  rw [Ideal.ofBits_zero_f32]

/-- One point's contribution at entry (g, j): what the block held, plus the sum over the point's 8000 rows of the
    indicator times the rectified combine step. -/
theorem pay2_entry (x0 x1 : Vec Ideal S8000x128 .f32) (x2 : Vec Ideal S8000x1 .f32) (x3 : Vec Ideal S1x128 .f32)
    (x4 : Vec Ideal S8000x1 .i32) (xo : Vec Ideal S128x128 .f32) (g j : Fin 128) :
    k3_pay2 (F := Ideal) x0 x1 x2 x3 x4 xo (ix2 g j)
      = xo (ix2 g j) + ∑ r : Fin 8000, Cert.Gcn.hot (x4 (ix2 r 0)) g.val
          * max (x0 (ix2 r j) + x1 (ix2 r j) * x2 (ix2 r 0) + x3 (ix2 0 j)) 0 := by
  unfold k3_pay2
  dsimp only
  refine (addf_apply _ _ _).trans ?_
  rw [shapeCast_self]
  refine congrArg (xo (ix2 g j) + ·) ?_
  refine (rows_dot _ _ g j).trans ?_
  refine Finset.sum_congr rfl fun r _ => ?_
  rw [onehot_entry, relu_entry]

/-- The reset block is zero everywhere. -/
theorem pay1_entry (i : S128x128.Idx) : k3_pay1 (F := Ideal) i = 0 := by
  unfold k3_pay1
  show Ideal.ofBits .f32 0x00000000#32 = 0
  exact Ideal.ofBits_zero_f32

/-! ## What each control case leaves in the block -/

section Pieces
variable {F : FTy → Type} [FloatOps F]

/-- At a later point the body's one store writes the whole block: the block's contents plus the point's contribution. -/
theorem out_B (c : Dev nD) (i : grid3.Coords)
    (a1 : Memref sig .tc .vmem S8000x128 .f32) (h1 : a1.IsWhole) (a2 : Memref sig .tc .vmem S8000x128 .f32) (h2 : a2.IsWhole)
    (a3 : Memref sig .tc .vmem S8000x1 .f32) (h3 : a3.IsWhole) (a4 : Memref sig .tc .vmem S1x128 .f32) (h4 : a4.IsWhole)
    (a5 : Memref sig .tc .vmem S8000x1 .i32) (h5 : a5.IsWhole) (a6 : Memref sig .tc .vmem S128x128 .f32) (h6 : a6.IsWhole) (hc : ¬cond3_0 i)
    (x0 x1 : Vec F S8000x128 .f32) (x2 : Vec F S8000x1 .f32) (x3 : Vec F S1x128 .f32) (x4 : Vec F S8000x1 .i32)
    (xo : Vec F S128x128 .f32) :
    out3_B_5 c i a1 h1 a2 h2 a3 h3 a4 h4 a5 h5 a6 h6 hc x0 x1 x2 x3 x4 xo = k3_pay2 x0 x1 x2 x3 x4 xo := by
  unfold out3_B_5
  rw [View.read_writes_eq_canon _ _ _ (cover3_B_5 c i a1 h1 a2 h2 a3 h3 a4 h4 a5 h5 a6 h6 hc x0 x1 x2 x3 x4 xo)]
  unfold kernelRun3_B
  dsimp only
  rw [View.canon_unit_zero hz]
  simp only [View.readAt_eq_ld, h1.read_unread, h2.read_unread, h3.read_unread, h4.read_unread, h5.read_unread,
    h6.read_unread, View.ld_unit_zero (S := S8000x128) hz, View.ld_unit_zero (S := S8000x1) hz,
    View.ld_unit_zero (S := S1x128) hz, View.ld_unit_zero (S := S128x128) hz]

/-- At the first point the block is first reset, then read back and added to: the reset block plus the point's
    contribution. -/
theorem out_A (c : Dev nD) (i : grid3.Coords)
    (a1 : Memref sig .tc .vmem S8000x128 .f32) (h1 : a1.IsWhole) (a2 : Memref sig .tc .vmem S8000x128 .f32) (h2 : a2.IsWhole)
    (a3 : Memref sig .tc .vmem S8000x1 .f32) (h3 : a3.IsWhole) (a4 : Memref sig .tc .vmem S1x128 .f32) (h4 : a4.IsWhole)
    (a5 : Memref sig .tc .vmem S8000x1 .i32) (h5 : a5.IsWhole) (a6 : Memref sig .tc .vmem S128x128 .f32) (h6 : a6.IsWhole) (hc : cond3_0 i)
    (x0 x1 : Vec F S8000x128 .f32) (x2 : Vec F S8000x1 .f32) (x3 : Vec F S1x128 .f32) (x4 : Vec F S8000x1 .i32) :
    out3_A_5 c i a1 h1 a2 h2 a3 h3 a4 h4 a5 h5 a6 h6 hc x0 x1 x2 x3 x4 = k3_pay2 x0 x1 x2 x3 x4 (k3_pay1 (F := F)) := by
  unfold out3_A_5
  rw [View.read_writes_eq_canon _ _ _ (cover3_A_5 c i a1 h1 a2 h2 a3 h3 a4 h4 a5 h5 a6 h6 hc x0 x1 x2 x3 x4)]
  unfold kernelRun3_A
  dsimp only
  sl_unfold_words
  rw [View.canon_cons_unit_zero (S := S128x128) hz, View.readCov_unit_zero (S := S128x128) _ hz]
  simp only [View.readAt_eq_ld, h1.read_unread, h2.read_unread, h3.read_unread, h4.read_unread, h5.read_unread,
    View.ld_unit_zero (S := S8000x128) hz, View.ld_unit_zero (S := S8000x1) hz,
    View.ld_unit_zero (S := S1x128) hz]

end Pieces

/-! ## The windows' blocks read at an entry -/

/-- Row r of point t's block is row 8000 t + r of the array. -/
def row (t : ℕ) (ht : t < 25) (r : Fin 8000) : Fin 200000 :=
  ⟨8000 * t + r.val, by have := r.isLt; omega⟩

/-- The block index maps, decided over the 25 points: the row-blocked windows move with the point, the bias row and
    the output block stay. -/
theorem idx_facts : ∀ t : Fin cfg3.N,
    win3_0.index t 0 = t.val ∧ win3_0.index t 1 = 0 ∧ win3_1.index t 0 = t.val ∧ win3_1.index t 1 = 0
    ∧ win3_2.index t 0 = t.val ∧ win3_2.index t 1 = 0 ∧ win3_3.index t 0 = 0 ∧ win3_3.index t 1 = 0
    ∧ win3_4.index t 0 = t.val ∧ win3_4.index t 1 = 0 ∧ win3_5.index t 0 = 0 ∧ win3_5.index t 1 = 0 :=
  (by decide +kernel : ∀ t : Fin grid3.N,
    win3_0.index t 0 = t.val ∧ win3_0.index t 1 = 0 ∧ win3_1.index t 0 = t.val ∧ win3_1.index t 1 = 0
    ∧ win3_2.index t 0 = t.val ∧ win3_2.index t 1 = 0 ∧ win3_3.index t 0 = 0 ∧ win3_3.index t 1 = 0
    ∧ win3_4.index t 0 = t.val ∧ win3_4.index t 1 = 0 ∧ win3_5.index t 0 = 0 ∧ win3_5.index t 1 = 0)

theorem lt25 (t : Fin cfg3.N) : t.val < 25 := lt_of_lt_of_eq t.isLt (show cfg3.N = 25 from N_3)

section Blocks
variable (V : (c : Dev nD) → (b : Ref sig .tc) → Buf (Elt Ideal) ((c : Thread nD τ).loc b))

/-- The aggregated neighbours' block. -/
theorem blk0_entry (c : Dev nD) (t : Fin cfg3.N) (r : Fin 8000) (j : Fin 128) :
    (iblk3 (F := Ideal) V c 0 t : Vec Ideal S8000x128 .f32) (ix2 r j)
      = (V c main_v70 : S200000x128.Idx → EReal) (ix2 (row t.val (lt25 t) r) j) := by
  unfold iblk3
  rw [View.read_apply]
  show V c main_v70 _ = V c main_v70 _
  refine congrArg (V c main_v70) (funext fun a => Fin.ext ?_)
  match a with
  | ⟨0, _⟩ =>
    show win3_0.index t 0 * 8000 + 1 * r.val = 8000 * t.val + r.val
    rw [(idx_facts t).1]; omega
  | ⟨1, _⟩ =>
    show win3_0.index t 1 * 128 + 1 * j.val = j.val
    rw [(idx_facts t).2.1]; omega

/-- The nodes' own features' block. -/
theorem blk1_entry (c : Dev nD) (t : Fin cfg3.N) (r : Fin 8000) (j : Fin 128) :
    (iblk3 (F := Ideal) V c 1 t : Vec Ideal S8000x128 .f32) (ix2 r j)
      = (V c main_v57 : S200000x128.Idx → EReal) (ix2 (row t.val (lt25 t) r) j) := by
  unfold iblk3
  rw [View.read_apply]
  show V c main_v57 _ = V c main_v57 _
  refine congrArg (V c main_v57) (funext fun a => Fin.ext ?_)
  match a with
  | ⟨0, _⟩ =>
    show win3_1.index t 0 * 8000 + 1 * r.val = 8000 * t.val + r.val
    rw [(idx_facts t).2.2.1]; omega
  | ⟨1, _⟩ =>
    show win3_1.index t 1 * 128 + 1 * j.val = j.val
    rw [(idx_facts t).2.2.2.1]; omega

/-- The per-row scales' block. -/
theorem blk2_entry (c : Dev nD) (t : Fin cfg3.N) (r : Fin 8000) :
    (iblk3 (F := Ideal) V c 2 t : Vec Ideal S8000x1 .f32) (ix2 r 0)
      = (V c main_v71 : S200000x1.Idx → EReal) (ix2 (row t.val (lt25 t) r) 0) := by
  unfold iblk3
  rw [View.read_apply]
  show V c main_v71 _ = V c main_v71 _
  refine congrArg (V c main_v71) (funext fun a => Fin.ext ?_)
  match a with
  | ⟨0, _⟩ =>
    show win3_2.index t 0 * 8000 + 1 * r.val = 8000 * t.val + r.val
    rw [(idx_facts t).2.2.2.2.1]; omega
  | ⟨1, _⟩ =>
    show win3_2.index t 1 * 1 + 1 * 0 = 0
    rw [(idx_facts t).2.2.2.2.2.1]

/-- The bias row, the same at every point. -/
theorem blk3_entry (c : Dev nD) (t : Fin cfg3.N) (j : Fin 128) :
    (iblk3 (F := Ideal) V c 3 t : Vec Ideal S1x128 .f32) (ix2 0 j)
      = (V c main_v72 : S1x128.Idx → EReal) (ix2 0 j) := by
  unfold iblk3
  rw [View.read_apply]
  show V c main_v72 _ = V c main_v72 _
  refine congrArg (V c main_v72) (funext fun a => Fin.ext ?_)
  match a with
  | ⟨0, _⟩ =>
    show win3_3.index t 0 * 1 + 1 * 0 = 0
    rw [(idx_facts t).2.2.2.2.2.2.1]
  | ⟨1, _⟩ =>
    show win3_3.index t 1 * 128 + 1 * j.val = j.val
    rw [(idx_facts t).2.2.2.2.2.2.2.1]; omega

/-- The graph labels' block. -/
theorem blk4_entry (c : Dev nD) (t : Fin cfg3.N) (r : Fin 8000) :
    (iblk3 (F := Ideal) V c 4 t : Vec Ideal S8000x1 .i32) (ix2 r 0)
      = (V c main_v73 : S200000x1.Idx → BitVec 32) (ix2 (row t.val (lt25 t) r) 0) := by
  unfold iblk3
  rw [View.read_apply]
  show V c main_v73 _ = V c main_v73 _
  refine congrArg (V c main_v73) (funext fun a => Fin.ext ?_)
  match a with
  | ⟨0, _⟩ =>
    show win3_4.index t 0 * 8000 + 1 * r.val = 8000 * t.val + r.val
    rw [(idx_facts t).2.2.2.2.2.2.2.2.1]; omega
  | ⟨1, _⟩ =>
    show win3_4.index t 1 * 1 + 1 * 0 = 0
    rw [(idx_facts t).2.2.2.2.2.2.2.2.2.1]

end Blocks

/-! ## The block after each point: the running sum over the rows seen so far -/

/-- One node's contribution to graph g and feature j. -/
def term (agg h : S200000x128.Idx → EReal) (rd : S200000x1.Idx → EReal) (b : S1x128.Idx → EReal)
    (bt : S200000x1.Idx → BitVec 32) (g j : Fin 128) (n : Fin 200000) : EReal :=
  Cert.Gcn.hot (bt (ix2 n 0)) g.val * max (agg (ix2 n j) + h (ix2 n j) * rd (ix2 n 0) + b (ix2 0 j)) 0

/-- One point's contribution: its 8000 rows'. -/
def pt (agg h : S200000x128.Idx → EReal) (rd : S200000x1.Idx → EReal) (b : S1x128.Idx → EReal)
    (bt : S200000x1.Idx → BitVec 32) (g j : Fin 128) (t : ℕ) (ht : t < 25) : EReal :=
  ∑ r : Fin 8000, term agg h rd b bt g j (row t ht r)

/-- The body's store at a point whose input blocks are the arrays' row blocks t: the block's contents plus the
    point's contribution. -/
theorem point_entry (x0 x1 : Vec Ideal S8000x128 .f32) (x2 : Vec Ideal S8000x1 .f32) (x3 : Vec Ideal S1x128 .f32)
    (x4 : Vec Ideal S8000x1 .i32) (xo : Vec Ideal S128x128 .f32)
    (agg h : S200000x128.Idx → EReal) (rd : S200000x1.Idx → EReal) (b : S1x128.Idx → EReal)
    (bt : S200000x1.Idx → BitVec 32) (t : ℕ) (ht : t < 25)
    (e0 : ∀ (r : Fin 8000) (j : Fin 128), x0 (ix2 r j) = agg (ix2 (row t ht r) j))
    (e1 : ∀ (r : Fin 8000) (j : Fin 128), x1 (ix2 r j) = h (ix2 (row t ht r) j))
    (e2 : ∀ r : Fin 8000, x2 (ix2 r 0) = rd (ix2 (row t ht r) 0))
    (e3 : ∀ j : Fin 128, x3 (ix2 0 j) = b (ix2 0 j))
    (e4 : ∀ r : Fin 8000, x4 (ix2 r 0) = bt (ix2 (row t ht r) 0)) (g j : Fin 128) :
    k3_pay2 (F := Ideal) x0 x1 x2 x3 x4 xo (ix2 g j) = xo (ix2 g j) + pt agg h rd b bt g j t ht := by
  refine (pay2_entry x0 x1 x2 x3 x4 xo g j).trans ?_
  refine congrArg (xo (ix2 g j) + ·) (Finset.sum_congr rfl fun r _ => ?_)
  rw [e0, e1, e2, e3, e4]
  rfl

section Invariant
variable (V : (c : Dev nD) → (b : Ref sig .tc) → Buf (Elt Ideal) ((c : Thread nD τ).loc b))

/-- Point t's contribution, over the arrays the region is entered with. -/
abbrev ptV (c : Dev nD) (g j : Fin 128) (t : ℕ) (ht : t < 25) : EReal :=
  pt (V c main_v70) (V c main_v57) (V c main_v71) (V c main_v72) (V c main_v73) g j t ht

/-- After point n the block holds the contributions of points 0 … n: by induction on the point. -/
theorem outsAt_entry (c : Dev nD) (g j : Fin 128) : ∀ (n : ℕ) (hn : n < cfg3.N),
    outsAt3 (F := Ideal) V c n hn (ix2 g j)
      = ∑ k : Fin (n + 1), ptV V c g j k.val (by have := lt_of_lt_of_eq hn (show cfg3.N = 25 from N_3); have := k.isLt; omega)
  | 0, hn => by
    rw [outsAt3_A V c ⟨0, hn⟩ rfl, out_A]
    refine (point_entry (iblk3 V c 0 ⟨0, hn⟩) (iblk3 V c 1 ⟨0, hn⟩) (iblk3 V c 2 ⟨0, hn⟩) (iblk3 V c 3 ⟨0, hn⟩)
      (iblk3 V c 4 ⟨0, hn⟩) (k3_pay1 (F := Ideal)) (V c main_v70) (V c main_v57) (V c main_v71) (V c main_v72) (V c main_v73)
      0 (by decide) (blk0_entry V c ⟨0, hn⟩) (blk1_entry V c ⟨0, hn⟩) (blk2_entry V c ⟨0, hn⟩) (blk3_entry V c ⟨0, hn⟩)
      (blk4_entry V c ⟨0, hn⟩) g j).trans ?_
    rw [pay1_entry, zero_add, Fin.sum_univ_one]
    rfl
  | n + 1, hn => by
    have h25 : n + 1 < 25 := lt_of_lt_of_eq hn (show cfg3.N = 25 from N_3)
    have hB : ¬(⟨n + 1, hn⟩ : Fin cfg3.N).val % 25 = 0 := by dsimp only; omega
    rw [outsAt3_B V c ⟨n + 1, hn⟩ hB, out_B]
    refine (point_entry (iblk3 V c 0 ⟨n + 1, hn⟩) (iblk3 V c 1 ⟨n + 1, hn⟩) (iblk3 V c 2 ⟨n + 1, hn⟩) (iblk3 V c 3 ⟨n + 1, hn⟩)
      (iblk3 V c 4 ⟨n + 1, hn⟩) (outsAt3 V c n (Nat.lt_of_succ_lt hn)) (V c main_v70) (V c main_v57) (V c main_v71) (V c main_v72) (V c main_v73)
      (n + 1) h25 (blk0_entry V c ⟨n + 1, hn⟩) (blk1_entry V c ⟨n + 1, hn⟩) (blk2_entry V c ⟨n + 1, hn⟩) (blk3_entry V c ⟨n + 1, hn⟩)
      (blk4_entry V c ⟨n + 1, hn⟩) g j).trans ?_
    rw [outsAt_entry c g j n (Nat.lt_of_succ_lt hn), Fin.sum_univ_castSucc (n := n + 1)]
    rfl

end Invariant

/-! ## The array after the region -/

/-- The last of the 25 points. -/
abbrev tLast : Fin cfg3.N := ⟨24, lt_of_lt_of_eq (by decide : (24 : ℕ) < 25) N_3.symm⟩

section Final
variable (V : (c : Dev nD) → (b : Ref sig .tc) → Buf (Elt Ideal) ((c : Thread nD τ).loc b))

/-- The pooled sums, over the arrays the region is entered with. -/
abbrev pooled (c : Dev nD) : S128x128.Idx → EReal :=
  Cert.Gcn.pool3 (V c main_v70) (V c main_v57) (V c main_v71) (V c main_v72) (V c main_v73)

/-- After the last point the block holds all 25 × 8000 = 200000 rows' contributions: the pooled sums. -/
theorem last_eq (c : Dev nD) (hn : 24 < cfg3.N) : outsAt3 (F := Ideal) V c 24 hn = pooled V c := by
  funext i
  obtain ⟨g, j, rfl⟩ : ∃ (g j : Fin 128), i = ix2 g j := ⟨i 0, i 1, eq_ix2 i⟩
  rw [outsAt_entry V c g j 24 hn]
  exact Cert.LibBlockSum.sum_blocks_mul 25 8000
    (fun n : Fin (25 * 8000) => term (V c main_v70) (V c main_v57) (V c main_v71) (V c main_v72) (V c main_v73) g j n)

/-- The one write-back, after the last point, writes the pooled sums: the block is the whole array. -/
theorem flushed_eq (c : Dev nD) (t : Fin cfg3.N) (hf : (cfg3.win 5).flush t = true) :
    (dat3 (F := Ideal) V c).flushed 5 t = ((cfg3.win 5).blk t).view.read (Elt Ideal) (pooled V c) := by
  have h24 : t.val = 24 := by have := (flush3_5 t).mp hf; have := lt25 t; omega
  obtain rfl : t = tLast := Fin.ext h24
  show (cfg3.win 5).cut (grid3.coords tLast) ((dat3 V c).after 5 tLast) = _
  rw [after3_5, last_eq]
  have hz' : (fun a => win3_5.index tLast a * main_v74.ty.shape.size a) = fun _ => 0 :=
    funext fun a => by
      match a with
      | ⟨0, _⟩ =>
        show win3_5.index tLast 0 * _ = 0
        rw [(idx_facts tLast).2.2.2.2.2.2.2.2.2.2.1, Nat.zero_mul]
      | ⟨1, _⟩ =>
        show win3_5.index tLast 1 * _ = 0
        rw [(idx_facts tLast).2.2.2.2.2.2.2.2.2.2.2, Nat.zero_mul]
  exact (Memref.read_access_unit_zero (Elt Ideal) main_v74 hz' (fun a => by
    have h : win3_5.index tLast a * main_v74.ty.shape.size a = 0 := congrFun hz' a
    show win3_5.index tLast a * main_v74.ty.shape.size a + main_v74.ty.shape.size a ≤ main_v74.ty.shape.size a
    rw [h, Nat.zero_add]) (pooled V c)).symm

end Final

end Pool

/-- So the array ends holding the pooled sums: the last point's block covers it. -/
theorem arr3 (V : (c : Dev nD) → (b : Ref sig .tc) → Buf (Elt Ideal) ((c : Thread nD τ).loc b)) (c : Dev nD) :
    (dat3 (F := Ideal) V c).arrAt 5 cfg3.N
      = Cert.Gcn.pool3 (V c main_v70) (V c main_v57) (V c main_v71) (V c main_v72) (V c main_v73) :=
  (dat3 (F := Ideal) V c).arrAt_eq_of_cover 5 (Pool.pooled V c) (Pool.flushed_eq V c) fun i =>
    ⟨Pool.tLast, (flush3_5 Pool.tLast).mpr rfl, by
      show i ∈ ((View.whole main_v74).slice (win3_5.rect Pool.tLast)).set
      rw [View.set_slice_whole, Rect.mem_set_unit]
      intro a
      have h0 : (i 0 : Nat) < 128 := (i 0).isLt
      have h1 : (i 1 : Nat) < 128 := (i 1).isLt
      match a with
      | ⟨0, _⟩ =>
        show win3_5.index Pool.tLast 0 * win3_5.size 0 ≤ (i 0 : Nat)
          ∧ (i 0 : Nat) < win3_5.index Pool.tLast 0 * win3_5.size 0 + win3_5.xsize (grid3.coords Pool.tLast) 0
        rw [(Pool.idx_facts Pool.tLast).2.2.2.2.2.2.2.2.2.2.1, show win3_5.xsize (grid3.coords Pool.tLast) 0 = 128 from by decide +kernel]
        omega
      | ⟨1, _⟩ =>
        show win3_5.index Pool.tLast 1 * win3_5.size 1 ≤ (i 1 : Nat)
          ∧ (i 1 : Nat) < win3_5.index Pool.tLast 1 * win3_5.size 1 + win3_5.xsize (grid3.coords Pool.tLast) 1
        rw [(Pool.idx_facts Pool.tLast).2.2.2.2.2.2.2.2.2.2.2, show win3_5.xsize (grid3.coords Pool.tLast) 1 = 128 from by decide +kernel]
        omega⟩

end Cert.KernelIdeal.Reg

end
-- ==== Proof.Fold3.lean ====
/-
  The fourth stretch of host operations and the fourth call.  The host repeats the gather / scale / scatter-add over
  the edges on the second product (the reference's second aggregate, by the same operations on equal arrays), and
  lays out the per-node scale, the second bias and the labels.  The call accumulates, over the 25 blocks of nodes,
  per graph and feature the sum of the rectified second layer over the nodes carrying that label; block by block or
  all at once it is one sum over all nodes.
-/
import proofs.«118666_j9182640079570_2_alg».proof.Proof.Fold2
import proofs.«118666_j9182640079570_2_alg».proof.Proof.Reg3

set_option maxRecDepth 16384

noncomputable section

namespace Cert.KernelIdeal.Fold

open Cert.KernelIdeal Cert.KernelIdeal.Gen
open Idealize.ShloMosaic Idealize.ShloMosaic.TcCoe Idealize.ShloMosaic.Tactic Idealize.ShloMosaic.StableHlo
open Idealize.ShloMosaic.ValueIdx
open Idealize.SL.Sem
open Cert.ReferenceIdeal.Read (val_main_v1 val_main_v3 val_main_v4 val_main_v11 val_main_v26 val_main_v39 val_main_v48 val_main_v65 val_main_v100 val_main_v110 val_main_v137)

variable (m : (ℓ : Loc nD τ sig) → Buf (Elt Ideal) ℓ) (ρ : Dev nD → PrngReg) (c : Dev nD)

/-! ## After the fourth stretch of host operations -/

/-- The second layer's aggregate over the edges is the reference's. -/
theorem W7_v70 (hb : ∀ n : Fin 200000, 0 ≤ ((A2 m c : (⟨1, ![200000]⟩ : Shape).Idx → BitVec 32) (ix1 n)).toInt ∧ ((A2 m c : (⟨1, ![200000]⟩ : Shape).Idx → BitVec 32) (ix1 n)).toInt < 128) :
    W7 m ρ c (Proc.devRef .tc main_v70) = val_main_v100 (F := Ideal) (A0 m c) (A1 m c) (A2 m c) (A3 m c) (A4 m c) (A5 m c) (A6 m c) := by
  show StableHlo.after hostOps3 (W6 m ρ c) (Proc.devRef .tc main_v70) = _
  after_results_simp
  rw [W6_v1 m ρ c, W6_v3 m ρ c, W6_v25 m ρ c, W6_v57 m ρ c hb]
  rfl
theorem W7_v57 (hb : ∀ n : Fin 200000, 0 ≤ ((A2 m c : (⟨1, ![200000]⟩ : Shape).Idx → BitVec 32) (ix1 n)).toInt ∧ ((A2 m c : (⟨1, ![200000]⟩ : Shape).Idx → BitVec 32) (ix1 n)).toInt < 128) :
    W7 m ρ c (Proc.devRef .tc main_v57) = val_main_v65 (F := Ideal) (A0 m c) (A1 m c) (A2 m c) (A3 m c) (A4 m c) (A5 m c) (A6 m c) := by
  show StableHlo.after hostOps3 (W6 m ρ c) (Proc.devRef .tc main_v57) = _
  after_results_simp
  exact W6_v57 m ρ c hb
theorem W7_v71_apply (n : Fin 200000) :
    (W7 m ρ c (Proc.devRef .tc main_v71) : Cert.Gcn.SNx1.Idx → EReal) (ix2 n 0)
      = val_main_v11 (F := Ideal) (A1 m c) (ix1 n) * val_main_v11 (F := Ideal) (A1 m c) (ix1 n) := by
  show (StableHlo.after hostOps3 (W6 m ρ c) (Proc.devRef .tc main_v71) : Cert.Gcn.SNx1.Idx → EReal) (ix2 n 0) = _
  after_results_simp
  rw [W6_v26 m ρ c]
  exact (shapeCast_a_a1_apply _ _ n 0).trans (dd_apply _ _)
theorem W7_v72_apply (j : Fin 128) :
    (W7 m ρ c (Proc.devRef .tc main_v72) : Cert.Gcn.S1x128.Idx → EReal) (ix2 0 j) = (A7 m c : (⟨1, ![128]⟩ : Shape).Idx → EReal) (ix1 j) := by
  show (StableHlo.after hostOps3 (W6 m ρ c) (Proc.devRef .tc main_v72) : Cert.Gcn.S1x128.Idx → EReal) (ix2 0 j) = _
  after_results_simp
  rw [W6_arg7 m ρ c]
  exact shapeCast_a_1a_apply _ _ 0 j
theorem W7_v73_apply (n : Fin 200000) :
    (W7 m ρ c (Proc.devRef .tc main_v73) : Cert.Gcn.SNx1.Idx → BitVec 32) (ix2 n 0) = (A2 m c : (⟨1, ![200000]⟩ : Shape).Idx → BitVec 32) (ix1 n) := by
  show (StableHlo.after hostOps3 (W6 m ρ c) (Proc.devRef .tc main_v73) : Cert.Gcn.SNx1.Idx → BitVec 32) (ix2 n 0) = _
  after_results_simp
  rw [W6_arg2 m ρ c]
  exact shapeCast_a_a1_apply _ _ n 0
theorem W7_v43 : W7 m ρ c (Proc.devRef .tc main_v43) = val_main_v48 (F := Ideal) (A0 m c) (A1 m c) (A4 m c) (A5 m c) := by
  show StableHlo.after hostOps3 (W6 m ρ c) (Proc.devRef .tc main_v43) = _
  after_results_simp
  exact W6_v43 m ρ c
theorem W7_arg2 : W7 m ρ c (Proc.devRef .tc main_arg2) = A2 m c := by
  show StableHlo.after hostOps3 (W6 m ρ c) (Proc.devRef .tc main_arg2) = _
  after_results_simp
  exact W6_arg2 m ρ c
theorem W7_arg3 : W7 m ρ c (Proc.devRef .tc main_arg3) = A3 m c := by
  show StableHlo.after hostOps3 (W6 m ρ c) (Proc.devRef .tc main_arg3) = _
  after_results_simp
  exact W6_arg3 m ρ c

/-! ## After the fourth call -/

/-- The fourth call's output at (g, j): the sum over all nodes labelled g of the reference's rectified second layer. -/
theorem W8_v74_apply (hb : ∀ n : Fin 200000, 0 ≤ ((A2 m c : (⟨1, ![200000]⟩ : Shape).Idx → BitVec 32) (ix1 n)).toInt ∧ ((A2 m c : (⟨1, ![200000]⟩ : Shape).Idx → BitVec 32) (ix1 n)).toInt < 128) (g j : Fin 128) :
    ((W8 m ρ c (Proc.devRef .tc main_v74) : Cert.Gcn.S128x128.Idx → EReal) (ix2 g j) : EReal)
      = (∑ n : Fin 200000, Cert.Gcn.hot ((A2 m c : (⟨1, ![200000]⟩ : Shape).Idx → BitVec 32) (ix1 n)) g.val
          * (val_main_v110 (F := Ideal) (A0 m c) (A1 m c) (A2 m c) (A3 m c) (A4 m c) (A5 m c) (A6 m c) (A7 m c) (ix2 n j) : EReal) : EReal) := by
  refine (congrFun ((W8_arr m ρ c 5).trans (Cert.KernelIdeal.Reg.arr3 (V7 m ρ) c)) (ix2 g j)).trans ?_
  rw [show V7 m ρ c main_v70 = _ from W7_v70 m ρ c hb, show V7 m ρ c main_v57 = _ from W7_v57 m ρ c hb]
  unfold Cert.Gcn.pool3
  show ((_ : EReal) = (_ : EReal))
  refine Finset.sum_congr rfl fun n _ => ?_
  refine congrArg₂ (· * ·) ?_ ?_
  · exact congrArg (fun w => Cert.Gcn.hot w g.val) (W7_v73_apply m ρ c n)
  · exact Cert.Bridge.ref_comb2 _ _ _ _ _ _ _ _ _ _
      (fun n' => by rw [Cert.Bridge.v72_eq_v11]; exact W7_v71_apply m ρ c n') (W7_v72_apply m ρ c) (ix2 n j)

theorem W8_v43 : W8 m ρ c (Proc.devRef .tc main_v43) = val_main_v48 (F := Ideal) (A0 m c) (A1 m c) (A4 m c) (A5 m c) :=
  (W8_of_ne m ρ c main_v43 (by decide)).trans (W7_v43 m ρ c)
theorem W8_arg2 : W8 m ρ c (Proc.devRef .tc main_arg2) = A2 m c :=
  (W8_of_ne m ρ c main_arg2 (by decide)).trans (W7_arg2 m ρ c)
theorem W8_arg3 : W8 m ρ c (Proc.devRef .tc main_arg3) = A3 m c :=
  (W8_of_ne m ρ c main_arg3 (by decide)).trans (W7_arg3 m ρ c)

end Cert.KernelIdeal.Fold

end
-- ==== Proof.HostTop.lean ====
/-
  The last stretch of host operations of the kernel program, as one function of the four arrays it reads.

  From the per-graph sums `pooled` [128,128] (what the fourth pipelined call leaves), the second layer's input
  `x2arr` [200000,128], the graph labels `x2` [200000] and the root rows `x3` [128] the program computes

  * `cntK x2`  : per graph, the number of nodes carrying its label (ones scattered by label into zeros);
  * left half  : `pooled / max (count, 1)`, the count spread along the columns;
  * right half : row `x3[g]` (wrapped once if negative, then clamped) of `x2arr` where the count is positive, else 0;
  * the result : the two halves side by side, [128,256].
-/
import proofs.«118666_j9182640079570_2_alg».proof.Proof.Gen.KernelIdeal.Frame
import Idealize.ShloMosaic.PureOps.Ideal
import Idealize.ShloMosaic.Lib.ValueIdx

set_option maxRecDepth 16384

noncomputable section

namespace Cert.Bridge

open Cert.KernelIdeal Cert.KernelIdeal.Gen
open Idealize.ShloMosaic Idealize.ShloMosaic.TcCoe Idealize.ShloMosaic.Tactic
open Idealize.SL.Sem

/-- Per graph, the number of nodes that carry its label: ones added into zeros at the label. -/
def cntK (x2 : (⟨S200000, .i32⟩ : BufTy).Contents (Elt Ideal)) : (⟨S128, .f32⟩ : BufTy).Contents (Elt Ideal) :=
  Host.scatterAdd (F := Ideal) scatter_S128_S200000x1_S200000_n_0_0_1
    (broadcastInDim S128 ![] bcast_S_S128 (constant (F := Ideal) S_ .f32 0x00000000#32))
    (broadcastInDim S200000x1 ![0] bcast_S200000_S200000x1_0 x2)
    (broadcastInDim S200000 ![] bcast_S_S200000 (constant (F := Ideal) S_ .f32 0x3F800000#32))

/-- The root rows as a column of start indices: a negative entry is shifted up by the number of nodes once. -/
def rootK (x3 : (⟨S128, .i32⟩ : BufTy).Contents (Elt Ideal)) : (⟨S128x1, .i32⟩ : BufTy).Contents (Elt Ideal) :=
  broadcastInDim S128x1 ![0] bcast_S128_S128x1_0
    (select (cmpi .slt x3 (broadcastInDim S128 ![] bcast_S_S128 (constantI S_ 32 0#32)))
      (addi x3 (broadcastInDim S128 ![] bcast_S_S128 (constantI S_ 32 200000#32))) x3)

/-- The left half: the per-graph sums over the count, at least one. -/
def meanK (pooled : (⟨S128x128, .f32⟩ : BufTy).Contents (Elt Ideal))
    (x2 : (⟨S200000, .i32⟩ : BufTy).Contents (Elt Ideal)) : (⟨S128x128, .f32⟩ : BufTy).Contents (Elt Ideal) :=
  Host.divf (F := Ideal) pooled
    (broadcastInDim S128x128 ![0, 1] bcast_S128x1_S128x128_0_1
      (broadcastInDim S128x1 ![0] bcast_S128_S128x1_0
        (maximumf (F := Ideal) (cntK x2)
          (broadcastInDim S128 ![] bcast_S_S128 (constant (F := Ideal) S_ .f32 0x3F800000#32)))))

/-- Where the count is positive, as a column of flags. -/
def posK (x2 : (⟨S200000, .i32⟩ : BufTy).Contents (Elt Ideal)) : (⟨S128x1, .i1⟩ : BufTy).Contents (Elt Ideal) :=
  cmpf (F := Ideal) .ogt (broadcastInDim S128x1 ![0] bcast_S128_S128x1_0 (cntK x2))
    (broadcastInDim S128x1 ![] bcast_S_S128x1 (constant (F := Ideal) S_ .f32 0x00000000#32))

/-- The right half: the root's row of `x2arr` where the graph has a node, else zero. -/
def rootRowK (x2arr : (⟨S200000x128, .f32⟩ : BufTy).Contents (Elt Ideal))
    (x2 : (⟨S200000, .i32⟩ : BufTy).Contents (Elt Ideal)) (x3 : (⟨S128, .i32⟩ : BufTy).Contents (Elt Ideal)) :
    (⟨S128x128, .f32⟩ : BufTy).Contents (Elt Ideal) :=
  select (broadcastInDim S128x128 ![0, 1] bcast_S128x1_S128x128_0_1 (posK x2))
    (Host.gather gather_S200000x128_S128x1_S128x128_1_0_n_n_0_1_1128 x2arr (rootK x3))
    (broadcastInDim S128x128 ![] bcast_S_S128x128 (constant (F := Ideal) S_ .f32 0x00000000#32))

/-- The result of the kernel program as a function of the four arrays its last stretch reads. -/
def outK (pooled : (⟨S128x128, .f32⟩ : BufTy).Contents (Elt Ideal))
    (x2arr : (⟨S200000x128, .f32⟩ : BufTy).Contents (Elt Ideal))
    (x2 : (⟨S200000, .i32⟩ : BufTy).Contents (Elt Ideal)) (x3 : (⟨S128, .i32⟩ : BufTy).Contents (Elt Ideal)) :
    (⟨S128x256, .f32⟩ : BufTy).Contents (Elt Ideal) :=
  concatenate S128x256 1 [⟨S128x128, meanK pooled x2⟩, ⟨S128x128, rootRowK x2arr x2 x3⟩]
    concatenates_S128x128_S128x128_S128x256_d1

/-! ## The fold of the last three stretches, buffer by buffer -/

theorem last_v95 (V : Valuation τ sig (Elt Ideal)) :
    StableHlo.after hostOps4_2 V (Proc.devRef .tc main_v95)
      = concatenate S128x256 1 [⟨S128x128, V (Proc.devRef .tc main_v83)⟩, ⟨S128x128, V (Proc.devRef .tc main_v94)⟩]
          concatenates_S128x128_S128x128_S128x256_d1 := by
  after_results

theorem where_v83 (V : Valuation τ sig (Elt Ideal)) :
    StableHlo.after hostOps4_1 V (Proc.devRef .tc main_v83) = V (Proc.devRef .tc main_v83) := by
  after_results

theorem where_v94 (V : Valuation τ sig (Elt Ideal)) :
    StableHlo.after hostOps4_1 V (Proc.devRef .tc main_v94)
      = select (broadcastInDim S128x128 ![0, 1] bcast_S128x1_S128x128_0_1 (V (Proc.devRef .tc main_v86)))
          (V (Proc.devRef .tc main_v93))
          (broadcastInDim S128x128 ![] bcast_S_S128x128 (V (Proc.devRef .tc main_cst_20))) := by
  after_results
  rfl

set_option maxHeartbeats 1000000 in
theorem host_v83 (V : Valuation τ sig (Elt Ideal)) :
    StableHlo.after hostOps4 V (Proc.devRef .tc main_v83)
      = meanK (V (Proc.devRef .tc main_v74)) (V (Proc.devRef .tc main_arg2)) := by
  after_results
  rfl

set_option maxHeartbeats 1000000 in
theorem host_v86 (V : Valuation τ sig (Elt Ideal)) :
    StableHlo.after hostOps4 V (Proc.devRef .tc main_v86) = posK (V (Proc.devRef .tc main_arg2)) := by
  after_results
  rfl

set_option maxHeartbeats 1000000 in
theorem host_v93 (V : Valuation τ sig (Elt Ideal)) :
    StableHlo.after hostOps4 V (Proc.devRef .tc main_v93)
      = Host.gather gather_S200000x128_S128x1_S128x128_1_0_n_n_0_1_1128 (V (Proc.devRef .tc main_v43))
          (rootK (V (Proc.devRef .tc main_arg3))) := by
  after_results
  rfl

set_option maxHeartbeats 1000000 in
theorem host_cst20 (V : Valuation τ sig (Elt Ideal)) :
    StableHlo.after hostOps4 V (Proc.devRef .tc main_cst_20) = constant (F := Ideal) S_ .f32 0x00000000#32 := by
  after_results

/-- The result buffer after the last three stretches, from any contents `W` before them. -/
theorem host4 (W : Valuation τ sig (Elt Ideal)) :
    StableHlo.after hostOps4_2 (StableHlo.after hostOps4_1 (StableHlo.after hostOps4 W)) (Proc.devRef .tc main_v95)
      = outK (W (Proc.devRef .tc main_v74)) (W (Proc.devRef .tc main_v43)) (W (Proc.devRef .tc main_arg2))
          (W (Proc.devRef .tc main_arg3)) := by
  rw [last_v95, where_v83, where_v94, host_v83, host_v86, host_v93, host_cst20]
  rfl

end Cert.Bridge

end
-- ==== Proof.LibScatterRows.lean ====
import Idealize.ShloMosaic.PureOps.ShapeOps
import Idealize.ShloMosaic.PureOps.Ideal
import Idealize.ShloMosaic.Lib.ValueIdx

/-!
# The accumulating scatter of whole rows through one column of indices, read at an index

An `M × 1` array of integer indices addresses the rows of an operand `[N, D]`; the updates are an `[M, D]`
array, and row `p` of the updates is added to the operand's row named by index `p`.  At the ideal instance
(floats are extended reals) the result at `(k, j)` is the operand's element plus the sum of the updates'
elements `(p, j)` over those `p` whose index, read as a signed integer, is exactly `k`; an index outside
`[0, N)` lands nowhere.
-/

open scoped BigOperators

namespace Idealize.ShloMosaic.ScatterRows

open Idealize.ShloMosaic Idealize.ShloMosaic.ValueIdx

section RowScatter
variable (N D M : ℕ)
  (wf : ScatterDims.WF (⟨2, ![N, D]⟩ : Shape) (⟨2, ![M, 1]⟩ : Shape) (⟨2, ![M, D]⟩ : Shape) [1] [0] [0] 1)

/-- The dimension numbers of a scatter of `M` rows of length `D` into an `N × D` operand through an `M × 1`
array of indices: the updates' second axis is the window axis and goes to the operand's second axis, the
operand's first axis is inserted and named by the start index's one component. -/
abbrev rowsDims :
    ScatterDims (⟨2, ![N, D]⟩ : Shape) (⟨2, ![M, 1]⟩ : Shape) (⟨2, ![M, D]⟩ : Shape) where
  updateWindowDims := [1]
  insertedWindowDims := [0]
  scatterDimsToOperandDims := [0]
  indexVectorDim := 1
  wf := wf

variable {w : ℕ}

/-- On the operand's row axis the start of update `(p, q)` is index `(p, 0)` read as a signed integer. -/
theorem rows_start0 (idx : IVec (⟨2, ![M, 1]⟩ : Shape) w) (p : Fin M) (q : Fin D) :
    (rowsDims N D M wf).start (ix2 p q) idx 0 = (idx (ix2 p ⟨0, Nat.one_pos⟩)).toInt := by
  unfold ScatterDims.start
  rw [dif_pos (show (0 : Fin 2) ∈ (rowsDims N D M wf).scatterDimsToOperandDims from
    List.mem_singleton.mpr rfl)]
  have hsi : (rowsDims N D M wf).siIdx (ix2 p q)
      ⟨List.idxOf (0 : Fin 2) (rowsDims N D M wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- On the operand's column axis, which the start index does not name, the start is zero. -/
theorem rows_start1 (idx : IVec (⟨2, ![M, 1]⟩ : Shape) w) (p : Fin M) (q : Fin D) :
    (rowsDims N D M wf).start (ix2 p q) idx 1 = 0 := by
  unfold ScatterDims.start
  rw [dif_neg]
  intro h
  exact absurd (congrArg Fin.val (List.mem_singleton.mp h)) Nat.one_ne_zero

/-- The window coordinate on the inserted row axis is zero. -/
theorem rows_window0 (p : Fin M) (q : Fin D) : (rowsDims N D M wf).window (ix2 p q) 0 = 0 := by
  unfold ScatterDims.window
  rw [dif_neg]
  intro hmem
  have h2 := (List.mem_filter.mp hmem).2
  simp at h2

/-- The window coordinate on the column axis is the update's column. -/
theorem rows_window1 (p : Fin M) (q : Fin D) : (rowsDims N D M wf).window (ix2 p q) 1 = q.val := by
  have hk : (1 : Fin 2) ∈ (rowsDims N D M wf).sKept := by
    simp [ScatterDims.sKept, Shape.kept, List.mem_filter, List.mem_finRange]
  unfold ScatterDims.window
  rw [dif_pos hk]
  rfl

/-- Update `(p, q)` lands on element `(k, r)` exactly when index `p`, read as a signed integer, is `k` and the
columns agree. -/
theorem rows_resultIdx?_eq_some_iff (idx : IVec (⟨2, ![M, 1]⟩ : Shape) w) (p : Fin M) (q r : Fin D)
    (k : Fin N) :
    (rowsDims N D M wf).resultIdx? (ix2 p q) idx = some (ix2 k r)
      ↔ (idx (ix2 p ⟨0, Nat.one_pos⟩)).toInt = (k.val : ℤ) ∧ q = r := by
  have hs0 := rows_start0 N D M wf idx p q
  have hs1 := rows_start1 N D M wf idx p q
  have hw0 := rows_window0 N D M wf p q
  have hw1 := rows_window1 N D M wf p q
  have hk := k.isLt
  have hq := q.isLt
  have hr := r.isLt
  unfold ScatterDims.resultIdx?
  split
  · rename_i hc
    have h0 := hc 0
    rw [hs0, hw0] at h0
    change 0 ≤ (idx (ix2 p ⟨0, Nat.one_pos⟩)).toInt + ((0 : ℕ) : ℤ)
      ∧ (idx (ix2 p ⟨0, Nat.one_pos⟩)).toInt + ((0 : ℕ) : ℤ) < (N : ℤ) at h0
    rw [Option.some.injEq]
    constructor
    · intro he
      have h1 := congrArg Fin.val (congrFun he 0)
      change ((rowsDims N D M wf).start (ix2 p q) idx 0
        + (((rowsDims N D M wf).window (ix2 p q) 0 : ℕ) : ℤ)).toNat = k.val at h1
      rw [hs0, hw0] at h1
      have h2 := congrArg Fin.val (congrFun he 1)
      change ((rowsDims N D M wf).start (ix2 p q) idx 1
        + (((rowsDims N D M wf).window (ix2 p q) 1 : ℕ) : ℤ)).toNat = r.val at h2
      rw [hs1, hw1] at h2
      exact ⟨by omega, Fin.ext (by omega)⟩
    · rintro ⟨he, rfl⟩
      funext a
      match a with
      | ⟨0, _⟩ =>
        apply Fin.ext
        show ((rowsDims N D M wf).start (ix2 p q) idx 0
          + (((rowsDims N D M wf).window (ix2 p q) 0 : ℕ) : ℤ)).toNat = k.val
        rw [hs0, hw0]
        omega
      | ⟨1, _⟩ =>
        apply Fin.ext
        show ((rowsDims N D M wf).start (ix2 p q) idx 1
          + (((rowsDims N D M wf).window (ix2 p q) 1 : ℕ) : ℤ)).toNat = q.val
        rw [hs1, hw1]
        omega
  · rename_i hc
    constructor
    · intro he
      exact absurd he (by simp)
    · rintro ⟨he, rfl⟩
      exfalso
      apply hc
      intro a
      match a with
      | ⟨0, _⟩ =>
        show 0 ≤ (rowsDims N D M wf).start (ix2 p q) idx 0
            + (((rowsDims N D M wf).window (ix2 p q) 0 : ℕ) : ℤ)
          ∧ (rowsDims N D M wf).start (ix2 p q) idx 0
            + (((rowsDims N D M wf).window (ix2 p q) 0 : ℕ) : ℤ) < (N : ℤ)
        rw [hs0, hw0]
        omega
      | ⟨1, _⟩ =>
        show 0 ≤ (rowsDims N D M wf).start (ix2 p q) idx 1
            + (((rowsDims N D M wf).window (ix2 p q) 1 : ℕ) : ℤ)
          ∧ (rowsDims N D M wf).start (ix2 p q) idx 1
            + (((rowsDims N D M wf).window (ix2 p q) 1 : ℕ) : ℤ) < ((D : ℕ) : ℤ)
        rw [hs1, hw1]
        omega

/-- At the ideal instance, the accumulating scatter of rows into an `N × D` operand read at `(k, r)`: the
operand's element plus the sum, over the updates' rows whose index read as a signed integer is `k`, of that
row's element in column `r`. -/
theorem ideal_rowsScatterAdd_apply (x : (⟨2, ![N, D]⟩ : Shape).Idx → EReal)
    (idx : IVec (⟨2, ![M, 1]⟩ : Shape) w) (upd : (⟨2, ![M, D]⟩ : Shape).Idx → EReal) (k : Fin N)
    (r : Fin D) :
    Ideal.hostScatterAdd (rowsDims N D M wf) x idx upd (ix2 k r)
      = x (ix2 k r) + ∑ p : Fin M,
          if (idx (ix2 p ⟨0, Nat.one_pos⟩)).toInt = (k.val : ℤ) then upd (ix2 p r) else 0 := by
  unfold Ideal.hostScatterAdd
  rw [Finset.sum_filter, sum_idx2]
  congr 1
  apply Finset.sum_congr rfl
  intro p _
  by_cases hc : (idx (ix2 p ⟨0, Nat.one_pos⟩)).toInt = (k.val : ℤ)
  · rw [if_pos hc, Finset.sum_eq_single r]
    · rw [if_pos ((rows_resultIdx?_eq_some_iff N D M wf idx p r r k).mpr ⟨hc, rfl⟩)]
    · intro q _ hq
      rw [if_neg]
      intro h
      exact hq ((rows_resultIdx?_eq_some_iff N D M wf idx p q r k).mp h).2
    · intro h
      exact absurd (Finset.mem_univ r) h
  · rw [if_neg hc]
    apply Finset.sum_eq_zero
    intro q _
    rw [if_neg]
    intro h
    exact hc ((rows_resultIdx?_eq_some_iff N D M wf idx p q r k).mp h).1

end RowScatter

end Idealize.ShloMosaic.ScatterRows
-- ==== Proof.LibMeanCopies.lean ====
import Idealize.ShloMosaic.PureOps.Ideal
import Idealize.ShloMosaic.Lib.ValueIdx

/-!
# The mean of equal terms over the extended reals

Summing a value `v` once for each element of a finite set that satisfies a predicate, and dividing by the
number of such elements (at least one, as an extended real), gives back `v` when there is such an element —
for EVERY extended real `v`, the two infinities included — and `0` when there is none.  The number of such
elements is itself the sum of ones over them.
-/

open scoped BigOperators

namespace Idealize.ShloMosaic.MeanCopies

/-- A positive natural number of copies of `v`, over that number, is `v`: at the infinities too. -/
theorem div_natCast_mul (c : ℕ) (hc : 1 ≤ c) (v : EReal) :
    Ideal.div ((c : EReal) * v) (max (c : EReal) 1) = v := by
  have hcr : (0 : ℝ) < (c : ℝ) := by exact_mod_cast hc
  have hc1 : (1 : EReal) ≤ (c : EReal) := by
    rw [← EReal.coe_natCast, ← EReal.coe_one, EReal.coe_le_coe_iff]
    exact_mod_cast hc
  rw [max_eq_left hc1, ← EReal.coe_natCast, Ideal.div_coe (ne_of_gt hcr)]
  have hinv : (0 : ℝ) < 1 / (c : ℝ) := by positivity
  induction v using EReal.rec with
  | bot => rw [EReal.coe_mul_bot_of_pos hcr, EReal.bot_mul_coe_of_pos hinv]
  | top => rw [EReal.coe_mul_top_of_pos hcr, EReal.top_mul_coe_of_pos hinv]
  | coe r =>
    rw [← EReal.coe_mul, ← EReal.coe_mul]
    congr 1
    field_simp

/-- No copies, over one, is zero. -/
theorem div_zero_mul (v : EReal) : Ideal.div (((0 : ℕ) : EReal) * v) (max ((0 : ℕ) : EReal) 1) = 0 := by
  rw [Nat.cast_zero, zero_mul, max_eq_right (zero_le_one), Ideal.div, if_neg one_ne_zero, zero_mul]

/-- The sum of ones over the elements that satisfy `P` is their number. -/
theorem sum_ones {ι : Type*} [Fintype ι] (P : ι → Prop) [DecidablePred P] :
    (∑ n : ι, if P n then (1 : EReal) else 0) = ((Finset.univ.filter P).card : EReal) :=
  Finset.sum_boole P Finset.univ

/-- The sum of one value over the elements that satisfy `P` is their number times the value. -/
theorem sum_copies {ι : Type*} [Fintype ι] (P : ι → Prop) [DecidablePred P] (v : EReal) :
    (∑ n : ι, if P n then v else 0) = ((Finset.univ.filter P).card : EReal) * v := by
  rw [← Finset.sum_filter, Finset.sum_const, EReal.nsmul_eq_mul]

/-- The mean of one value over the elements that satisfy `P`, the divisor at least one: the value when some
element does, zero when none does.  `cnt` is the number of such elements, given as the sum of ones. -/
theorem mean_copies {ι : Type*} [Fintype ι] (P : ι → Prop) [DecidablePred P] (v : EReal) :
    Ideal.div (∑ n : ι, if P n then v else 0) (max (∑ n : ι, if P n then (1 : EReal) else 0) 1)
      = if 0 < (∑ n : ι, if P n then (1 : EReal) else 0) then v else 0 := by
  rw [sum_copies, sum_ones]
  rcases Nat.eq_zero_or_pos (Finset.univ.filter P).card with h | h
  · rw [h, div_zero_mul, if_neg]
    simp
  · rw [div_natCast_mul _ h, if_pos]
    exact_mod_cast h

end Idealize.ShloMosaic.MeanCopies
-- ==== Proof.RefTop.lean ====
/-
  The last stage against the reference.

  Per graph `g` the result has two halves.  Columns below 128 hold the mean, over the nodes labelled `g`, of the
  second layer's rectified output: on the kernel's side a sum over ALL nodes against the label's indicator, divided
  by the count (at least one); on the reference's side the rows scattered by label into zeros, divided by the same
  count.  Columns from 128 hold the root's row of the first layer's output: the reference scatters, for every node
  labelled `g`, the SAME row (the root of `g`) and divides by the count, which gives the row back when the graph has a
  node (for every extended real entry) and zero when it has none; the kernel selects between the row and zero on
  the count being positive.
-/
import proofs.«118666_j9182640079570_2_alg».proof.Proof.HostTop
import proofs.«118666_j9182640079570_2_alg».proof.Proof.Spec
import proofs.«118666_j9182640079570_2_alg».proof.Proof.Gen.ReferenceIdeal.Read
import proofs.«118666_j9182640079570_2_alg».proof.Proof.LibGatherRows
import proofs.«118666_j9182640079570_2_alg».proof.Proof.LibGatherScatterCol
import proofs.«118666_j9182640079570_2_alg».proof.Proof.LibScatterRows
import proofs.«118666_j9182640079570_2_alg».proof.Proof.LibMeanCopies

set_option maxRecDepth 16384

open scoped BigOperators

noncomputable section

namespace Cert.Bridge

open Idealize.ShloMosaic Idealize.ShloMosaic.ValueIdx

namespace Top

/-! ## Small facts used on both sides -/

/-- The bit pattern of the float one is the extended real one. -/
theorem ofBits_one : Ideal.ofBits .f32 0x3F800000#32 = 1 := by
  simp [Ideal.ofBits, Ideal.ieee, -EReal.coe_mul]; norm_num

/-- A vector spread into a one-column matrix, read at a row. -/
theorem bcast_col {α : Type} {n : ℕ} (hn : n ≠ 1)
    (h : (⟨1, ![n]⟩ : Shape).BroadcastsInDim (⟨2, ![n, 1]⟩ : Shape) ![0]) (x : (⟨1, ![n]⟩ : Shape).Idx → α)
    (p : Fin n) (q : Fin 1) :
    broadcastInDim (⟨2, ![n, 1]⟩ : Shape) ![0] h x (ix2 p q) = x (ix1 p) :=
  broadcastInDim_apply _ h x _ (ix1 p) (fun a => match a with
    | ⟨0, _⟩ => by show p.val = if n = 1 then 0 else p.val; rw [if_neg hn])

/-- A one-column matrix spread along the columns, read at an entry. -/
theorem bcast_rows {α : Type} {n m : ℕ} (hn : n ≠ 1)
    (h : (⟨2, ![n, 1]⟩ : Shape).BroadcastsInDim (⟨2, ![n, m]⟩ : Shape) ![0, 1])
    (x : (⟨2, ![n, 1]⟩ : Shape).Idx → α) (p : Fin n) (j : Fin m) :
    broadcastInDim (⟨2, ![n, m]⟩ : Shape) ![0, 1] h x (ix2 p j) = x (ix2 p 0) :=
  broadcastInDim_apply _ h x _ (ix2 p 0) (fun a => match a with
    | ⟨0, _⟩ => by show p.val = if n = 1 then 0 else p.val; rw [if_neg hn]
    | ⟨1, _⟩ => by show (0 : ℕ) = if (1 : ℕ) = 1 then 0 else j.val; rw [if_pos rfl])

/-- The host's quotient of two arrays, read at an index. -/
theorem hostDivf_at {s : Shape} (a b : s.Idx → EReal) (i : s.Idx) :
    Host.divf (F := Ideal) (φ := .f32) a b i = Ideal.div (a i) (b i) := rfl

/-- The comparison "greater than" of two extended reals as a flag. -/
theorem cmp_ogt (x y : EReal) :
    FloatOps.cmpf (F := Ideal) (φ := .f32) .ogt x y = if y < x then 1#1 else 0#1 := by
  show Ideal.cmp .ogt x y = _
  unfold Ideal.cmp
  by_cases h : y < x
  · simp [h]
  · simp [h]

/-- A start index below zero is shifted up by the number of rows, once. -/
def wrapN (v : BitVec 32) : BitVec 32 :=
  Scalar.select (IntOp.cmpi .slt v 0#32) (IntOp.addi v 200000#32) v

/-- A label that is not negative is not shifted. -/
theorem wrap_of_nonneg (v k : BitVec 32) (h : 0 ≤ v.toInt) :
    Scalar.select (IntOp.cmpi .slt v 0#32) (IntOp.addi v k) v = v := by
  have hs : v.slt 0#32 = false := by
    simp only [BitVec.slt, BitVec.toInt_zero, decide_eq_false_iff_not, not_lt]
    exact h
  unfold IntOp.cmpi Scalar.select
  simp [hs]

/-- The indicator of a label as a number, by the label read as a signed integer. -/
theorem hot_eq (v : BitVec 32) (g : Fin 128) :
    Cert.Gcn.hot v g.val = if v.toInt = (g.val : ℤ) then (1 : EReal) else 0 := by
  unfold Cert.Gcn.hot
  have hg := g.isLt
  have h2 : (BitVec.ofNat 32 g.val).toInt = (g.val : ℤ) := by
    have hn : (BitVec.ofNat 32 g.val).toNat = g.val := by rw [BitVec.toNat_ofNat]; omega
    rw [BitVec.toInt_eq_toNat_cond, hn, if_pos (by omega)]
  by_cases hv : v = BitVec.ofNat 32 g.val
  · rw [if_pos hv, if_pos (by rw [hv, h2])]
  · rw [if_neg hv, if_neg]
    intro h
    exact hv (BitVec.eq_of_toInt_eq (h.trans h2.symm))

/-! ## The kernel's side, read at an index -/

section K
open Cert.KernelIdeal Cert.KernelIdeal.Gen

/-- The count of graph `g`: one for every node whose label, read signed, is `g`. -/
theorem cntK_apply (x2 : (⟨S200000, .i32⟩ : BufTy).Contents (Elt Ideal)) (g : Fin 128) :
    cntK x2 (ix1 g) = ∑ p : Fin 200000, if (x2 (ix1 p)).toInt = (g.val : ℤ) then (1 : EReal) else 0 := by
  unfold cntK
  refine (GatherScatterCol.ideal_vecScatterAdd_apply 128 200000 scatter_S128_S200000x1_S200000_n_0_0_1.wf _ _ _ g).trans ?_
  have hx : broadcastInDim S128 ![] bcast_S_S128 (constant (F := Ideal) S_ .f32 0x00000000#32) (ix1 g) = (0 : EReal) :=
    Ideal.ofBits_zero_f32
  rw [hx, zero_add]
  refine Finset.sum_congr rfl fun p _ => ?_
  rw [bcast_col (by decide)]
  show (if (x2 (ix1 p)).toInt = (g.val : ℤ) then Ideal.ofBits .f32 0x3F800000#32 else 0) = _
  rw [ofBits_one]

/-- The left half at `(g, j)`: the per-graph sum over the count, at least one. -/
theorem meanK_apply (pooled : (⟨S128x128, .f32⟩ : BufTy).Contents (Elt Ideal))
    (x2 : (⟨S200000, .i32⟩ : BufTy).Contents (Elt Ideal)) (g j : Fin 128) :
    meanK pooled x2 (ix2 g j) = Ideal.div (pooled (ix2 g j)) (max (cntK x2 (ix1 g)) 1) := by
  unfold meanK
  rw [hostDivf_at, bcast_rows (by decide), bcast_col (by decide), maximumf_apply]
  rw [show broadcastInDim S128 ![] bcast_S_S128 (constant (F := Ideal) S_ .f32 0x3F800000#32) (ix1 g) = (1 : EReal)
    from ofBits_one]

/-- The start index of graph `g`'s root row. -/
theorem rootK_apply (x3 : (⟨S128, .i32⟩ : BufTy).Contents (Elt Ideal)) (g : Fin 128) (q : Fin 1) :
    rootK x3 (ix2 g q) = wrapN (x3 (ix1 g)) := by
  unfold rootK
  rw [bcast_col (by decide)]
  rfl

/-- The right half at `(g, j)`: the root's row where the graph has a node, else zero. -/
theorem rootRowK_apply (x2arr : (⟨S200000x128, .f32⟩ : BufTy).Contents (Elt Ideal))
    (x2 : (⟨S200000, .i32⟩ : BufTy).Contents (Elt Ideal)) (x3 : (⟨S128, .i32⟩ : BufTy).Contents (Elt Ideal))
    (g j : Fin 128) :
    rootRowK x2arr x2 x3 (ix2 g j)
      = if 0 < cntK x2 (ix1 g) then
          x2arr (ix2 (⟨min (wrapN (x3 (ix1 g))).toInt.toNat (200000 - 1), by omega⟩ : Fin 200000) j)
        else 0 := by
  have hg := Cert.Lib.gather_rows_apply (N := 200000) (D := 128) (E := 128) (by decide)
    gather_S200000x128_S128x1_S128x128_1_0_n_n_0_1_1128.wf x2arr (rootK x3) g j
  unfold rootRowK
  show Scalar.select (broadcastInDim S128x128 ![0, 1] bcast_S128x1_S128x128_0_1 (posK x2) (ix2 g j))
      (Host.gather gather_S200000x128_S128x1_S128x128_1_0_n_n_0_1_1128 x2arr (rootK x3) (ix2 g j))
      (Ideal.ofBits .f32 0x00000000#32) = _
  have hrow : Host.gather gather_S200000x128_S128x1_S128x128_1_0_n_n_0_1_1128 x2arr (rootK x3) (ix2 g j)
      = x2arr (ix2 (⟨min (wrapN (x3 (ix1 g))).toInt.toNat (200000 - 1), by omega⟩ : Fin 200000) j) := by
    refine hg.trans (congrArg x2arr (congrArg (fun r : Fin 200000 => ix2 r j) (Fin.ext ?_)))
    show min (rootK x3 (ix2 g (0 : Fin 1))).toInt.toNat (200000 - 1)
      = min (wrapN (x3 (ix1 g))).toInt.toNat (200000 - 1)
    rw [rootK_apply]
  rw [bcast_rows (by decide), Ideal.ofBits_zero_f32, hrow]
  unfold posK
  rw [cmpf_apply, bcast_col (by decide)]
  rw [show broadcastInDim S128x1 ![] bcast_S_S128x1 (constant (F := Ideal) S_ .f32 0x00000000#32) (ix2 g (0 : Fin 1))
    = (0 : EReal) from Ideal.ofBits_zero_f32]
  rw [cmp_ogt]
  by_cases h : 0 < cntK x2 (ix1 g)
  · rw [if_pos h, if_pos h, select_one]
  · rw [if_neg h, if_neg h, select_zero]

/-- Columns below 128 of the result are the left half. -/
theorem outK_left (pooled : (⟨S128x128, .f32⟩ : BufTy).Contents (Elt Ideal))
    (x2arr : (⟨S200000x128, .f32⟩ : BufTy).Contents (Elt Ideal))
    (x2 : (⟨S200000, .i32⟩ : BufTy).Contents (Elt Ideal)) (x3 : (⟨S128, .i32⟩ : BufTy).Contents (Elt Ideal))
    (g : Fin 128) (c : Fin 256) (hc : c.val < 128) :
    outK pooled x2arr x2 x3 (ix2 g c) = meanK pooled x2 (ix2 g ⟨c.val, hc⟩) := by
  unfold outK
  exact concatenate_pair_apply_left (t := S128x256) (s₁ := S128x128) (s₂ := S128x128) (1 : Fin 2) (meanK pooled x2)
    (rootRowK x2arr x2 x3) concatenates_S128x128_S128x128_S128x256_d1 (ix2 g c) rfl
    (ix2 g (⟨c.val, hc⟩ : Fin 128)) (fun b => match b with | ⟨0, _⟩ => rfl | ⟨1, _⟩ => rfl)

/-- Columns from 128 of the result are the right half. -/
theorem outK_right (pooled : (⟨S128x128, .f32⟩ : BufTy).Contents (Elt Ideal))
    (x2arr : (⟨S200000x128, .f32⟩ : BufTy).Contents (Elt Ideal))
    (x2 : (⟨S200000, .i32⟩ : BufTy).Contents (Elt Ideal)) (x3 : (⟨S128, .i32⟩ : BufTy).Contents (Elt Ideal))
    (g : Fin 128) (c : Fin 256) (hc : 128 ≤ c.val) :
    outK pooled x2arr x2 x3 (ix2 g c) = rootRowK x2arr x2 x3 (ix2 g ⟨c.val - 128, by omega⟩) := by
  unfold outK
  exact concatenate_pair_apply_right (t := S128x256) (s₁ := S128x128) (s₂ := S128x128) (1 : Fin 2) (meanK pooled x2)
    (rootRowK x2arr x2 x3) concatenates_S128x128_S128x128_S128x256_d1 (ix2 g c) rfl rfl
    (ix2 g (⟨c.val - 128, by omega⟩ : Fin 128))
    (fun b => match b with | ⟨0, _⟩ => fun _ => rfl | ⟨1, _⟩ => fun h => absurd (Fin.ext rfl) h)
    (by show c.val - 128 + 128 = c.val; omega)

end K

/-! ## The reference's side, read at an index -/

section R
open Cert.ReferenceIdeal Cert.ReferenceIdeal.Gen Cert.ReferenceIdeal.Read

/-- Both programs count the nodes of each graph by the same scatter of ones. -/
theorem cnt_eq (x2 : (⟨S200000, .i32⟩ : BufTy).Contents (Elt Ideal)) :
    val_main_v132 (F := Ideal) x2 = cntK x2 := rfl

/-- The divisor at `(g, c)`: the count of `g`, at least one. -/
theorem ref_den (x2 : (⟨S200000, .i32⟩ : BufTy).Contents (Elt Ideal)) (g : Fin 128) (c : Fin 256) :
    val_main_v136 (F := Ideal) x2 (ix2 g c) = max (cntK x2 (ix1 g)) 1 := by
  unfold val_main_v136 val_main_v135
  rw [bcast_rows (by decide), bcast_col (by decide), val_main_v134_apply, cnt_eq]
  show max (cntK x2 (ix1 g)) (Ideal.ofBits .f32 0x3F800000#32) = _
  rw [ofBits_one]

variable (x0 : (⟨S200000x256, .f32⟩ : BufTy).Contents (Elt Ideal)) (x1 : (⟨S2x200000, .i32⟩ : BufTy).Contents (Elt Ideal))
  (x2 : (⟨S200000, .i32⟩ : BufTy).Contents (Elt Ideal)) (x3 : (⟨S128, .i32⟩ : BufTy).Contents (Elt Ideal))
  (x4 : (⟨S256x128, .f32⟩ : BufTy).Contents (Elt Ideal)) (x5 : (⟨S128, .f32⟩ : BufTy).Contents (Elt Ideal))
  (x6 : (⟨S384x128, .f32⟩ : BufTy).Contents (Elt Ideal)) (x7 : (⟨S128, .f32⟩ : BufTy).Contents (Elt Ideal))

/-- The scattered rows at `(g, c)`: the sum, over the nodes labelled `g`, of the node's entry in column `c`. -/
theorem ref_sum (g : Fin 128) (c : Fin 256) :
    val_main_v128 (F := Ideal) x0 x1 x2 x3 x4 x5 x6 x7 (ix2 g c)
      = ∑ p : Fin 200000, if (x2 (ix1 p)).toInt = (g.val : ℤ)
          then val_main_v125 (F := Ideal) x0 x1 x2 x3 x4 x5 x6 x7 (ix2 p c) else 0 := by
  unfold val_main_v128
  refine (ScatterRows.ideal_rowsScatterAdd_apply 128 256 200000
    scatter_S128x256_S200000x1_S200000x256_1_0_0_1.wf _ _ _ g c).trans ?_
  have hx : val_main_v126 (F := Ideal) (ix2 g c) = (0 : EReal) := Ideal.ofBits_zero_f32
  rw [hx, zero_add]
  refine Finset.sum_congr rfl fun p _ => ?_
  unfold val_main_v127
  rw [bcast_col (by decide)]

/-- Columns below 128 of the joined rows are the second layer's output. -/
theorem ref_cat_left (p : Fin 200000) (c : Fin 256) (hc : c.val < 128) :
    val_main_v125 (F := Ideal) x0 x1 x2 x3 x4 x5 x6 x7 (ix2 p c)
      = val_main_v110 (F := Ideal) x0 x1 x2 x3 x4 x5 x6 x7 (ix2 p ⟨c.val, hc⟩) := by
  unfold val_main_v125
  exact concatenate_pair_apply_left (t := S200000x256) (s₁ := S200000x128) (s₂ := S200000x128) (1 : Fin 2)
    (val_main_v110 (F := Ideal) x0 x1 x2 x3 x4 x5 x6 x7) (val_main_v124 (F := Ideal) x0 x1 x2 x3 x4 x5)
    concatenates_S200000x128_S200000x128_S200000x256_d1 (ix2 p c) rfl
    (ix2 p (⟨c.val, hc⟩ : Fin 128)) (fun b => match b with | ⟨0, _⟩ => rfl | ⟨1, _⟩ => rfl)

/-- Columns from 128 of the joined rows are the gathered root rows. -/
theorem ref_cat_right (p : Fin 200000) (c : Fin 256) (hc : 128 ≤ c.val) :
    val_main_v125 (F := Ideal) x0 x1 x2 x3 x4 x5 x6 x7 (ix2 p c)
      = val_main_v124 (F := Ideal) x0 x1 x2 x3 x4 x5 (ix2 p ⟨c.val - 128, by omega⟩) := by
  unfold val_main_v125
  exact concatenate_pair_apply_right (t := S200000x256) (s₁ := S200000x128) (s₂ := S200000x128) (1 : Fin 2)
    (val_main_v110 (F := Ideal) x0 x1 x2 x3 x4 x5 x6 x7) (val_main_v124 (F := Ideal) x0 x1 x2 x3 x4 x5)
    concatenates_S200000x128_S200000x128_S200000x256_d1 (ix2 p c) rfl rfl
    (ix2 p (⟨c.val - 128, by omega⟩ : Fin 128))
    (fun b => match b with | ⟨0, _⟩ => fun _ => rfl | ⟨1, _⟩ => fun h => absurd (Fin.ext rfl) h)
    (by show c.val - 128 + 128 = c.val; omega)

/-- The root entry a node reads: that of its graph, when its label is in range. -/
theorem ref_rootOf (p : Fin 200000) (g : Fin 128) (h : (x2 (ix1 p)).toInt = (g.val : ℤ)) :
    val_main_v117 (F := Ideal) x2 x3 (ix1 p) = x3 (ix1 g) := by
  have hv := GatherScatterCol.vecGather_apply 128 200000 (by decide)
    gather_S128_S200000x1_S200000_n_0_n_n_0_1_1.wf x3 (val_main_v116 (F := Ideal) x2) p
  unfold val_main_v117
  have h16 : val_main_v116 (F := Ideal) x2 (ix2 p ⟨0, Nat.one_pos⟩) = x2 (ix1 p) := by
    unfold val_main_v116
    rw [bcast_col (by decide)]
    show Scalar.select (IntOp.cmpi .slt (x2 (ix1 p)) 0#32) (IntOp.addi (x2 (ix1 p)) 128#32) (x2 (ix1 p)) = _
    exact wrap_of_nonneg _ _ (by rw [h]; omega)
  refine hv.trans (congrArg x3 (congrArg (fun r : Fin 128 => (ix1 r : (⟨1, ![128]⟩ : Shape).Idx)) (Fin.ext ?_)))
  show min (val_main_v116 (F := Ideal) x2 (ix2 p ⟨0, Nat.one_pos⟩)).toInt.toNat (128 - 1) = g.val
  rw [h16, h]
  have := g.isLt
  omega

/-- The start index a node labelled `g` gathers its root row at. -/
theorem ref_root (p : Fin 200000) (g : Fin 128) (h : (x2 (ix1 p)).toInt = (g.val : ℤ)) (q : Fin 1) :
    val_main_v123 (F := Ideal) x2 x3 (ix2 p q) = wrapN (x3 (ix1 g)) := by
  unfold val_main_v123
  rw [bcast_col (by decide)]
  show Scalar.select (IntOp.cmpi .slt (val_main_v117 (F := Ideal) x2 x3 (ix1 p)) 0#32)
    (IntOp.addi (val_main_v117 (F := Ideal) x2 x3 (ix1 p)) 200000#32) (val_main_v117 (F := Ideal) x2 x3 (ix1 p)) = _
  rw [ref_rootOf x2 x3 p g h]
  rfl

/-- The gathered root row of a node labelled `g`, at column `j`: the root row of `g`, whichever the node. -/
theorem ref_row (p : Fin 200000) (g : Fin 128) (h : (x2 (ix1 p)).toInt = (g.val : ℤ)) (j : Fin 128) :
    val_main_v124 (F := Ideal) x0 x1 x2 x3 x4 x5 (ix2 p j)
      = val_main_v48 (F := Ideal) x0 x1 x4 x5
          (ix2 (⟨min (wrapN (x3 (ix1 g))).toInt.toNat (200000 - 1), by omega⟩ : Fin 200000) j) := by
  unfold val_main_v124
  refine (Cert.Lib.gather_rows_apply (N := 200000) (D := 128) (E := 200000) (by decide)
    gather_S200000x128_S200000x1_S200000x128_1_0_n_n_0_1_1128.wf (val_main_v48 (F := Ideal) x0 x1 x4 x5)
    (val_main_v123 (F := Ideal) x2 x3) p j).trans
    (congrArg (val_main_v48 (F := Ideal) x0 x1 x4 x5) (congrArg (fun r : Fin 200000 => ix2 r j) (Fin.ext ?_)))
  show min (val_main_v123 (F := Ideal) x2 x3 (ix2 p (0 : Fin 1))).toInt.toNat (200000 - 1)
    = min (wrapN (x3 (ix1 g))).toInt.toNat (200000 - 1)
  rw [ref_root x2 x3 p g h]

end R

end Top

open Top

/-! ## The two sides agree -/

open Cert.ReferenceIdeal.Read in
/-- The result of the kernel's last stretch, over the per-graph sums of the second layer's rectified output and the
    reference's first-layer output, is the reference's result. -/
theorem ref_out (x0 : (⟨Cert.ReferenceIdeal.S200000x256, .f32⟩ : BufTy).Contents (Elt Ideal))
    (x1 : (⟨Cert.ReferenceIdeal.S2x200000, .i32⟩ : BufTy).Contents (Elt Ideal))
    (x2 : (⟨Cert.ReferenceIdeal.S200000, .i32⟩ : BufTy).Contents (Elt Ideal))
    (x3 : (⟨Cert.ReferenceIdeal.S128, .i32⟩ : BufTy).Contents (Elt Ideal))
    (x4 : (⟨Cert.ReferenceIdeal.S256x128, .f32⟩ : BufTy).Contents (Elt Ideal))
    (x5 : (⟨Cert.ReferenceIdeal.S128, .f32⟩ : BufTy).Contents (Elt Ideal))
    (x6 : (⟨Cert.ReferenceIdeal.S384x128, .f32⟩ : BufTy).Contents (Elt Ideal))
    (x7 : (⟨Cert.ReferenceIdeal.S128, .f32⟩ : BufTy).Contents (Elt Ideal))
    (hb : ∀ n : Fin 200000, 0 ≤ (x2 (ix1 n)).toInt ∧ (x2 (ix1 n)).toInt < 128)
    (pooled : (⟨Cert.KernelIdeal.S128x128, .f32⟩ : BufTy).Contents (Elt Ideal))
    (hp : ∀ (g j : Fin 128), pooled (ix2 g j) = ∑ n : Fin 200000,
      Cert.Gcn.hot (x2 (ix1 n)) g.val * val_main_v110 (F := Ideal) x0 x1 x2 x3 x4 x5 x6 x7 (ix2 n j)) :
    outK pooled (val_main_v48 (F := Ideal) x0 x1 x4 x5) x2 x3
      = val_main_v137 (F := Ideal) x0 x1 x2 x3 x4 x5 x6 x7 := by
  funext i
  obtain ⟨g, c, rfl⟩ : ∃ (g : Fin 128) (c : Fin 256), i = ix2 g c := ⟨i 0, i 1, eq_ix2 i⟩
  -- the reference at (g, c): the scattered rows over the count, at least one
  have hR : val_main_v137 (F := Ideal) x0 x1 x2 x3 x4 x5 x6 x7 (ix2 g c)
      = Ideal.div (∑ p : Fin 200000, if (x2 (ix1 p)).toInt = (g.val : ℤ)
          then val_main_v125 (F := Ideal) x0 x1 x2 x3 x4 x5 x6 x7 (ix2 p c) else 0) (max (cntK x2 (ix1 g)) 1) := by
    rw [val_main_v137_apply, ref_sum, ref_den]
    rfl
  rw [hR]
  by_cases hc : c.val < 128
  · -- a column of the mean: both sides sum the same terms over the nodes labelled g
    rw [outK_left _ _ _ _ g c hc, meanK_apply, hp]
    refine congrArg (fun s : EReal => Ideal.div s (max (cntK x2 (ix1 g)) 1)) ?_
    refine Finset.sum_congr rfl fun p _ => ?_
    rw [hot_eq, ref_cat_left x0 x1 x2 x3 x4 x5 x6 x7 p c hc]
    by_cases h : (x2 (ix1 p)).toInt = (g.val : ℤ)
    · rw [if_pos h, if_pos h, one_mul]
    · rw [if_neg h, if_neg h, zero_mul]
  · -- a column of the root row: every node labelled g contributes the same entry
    have hc' : 128 ≤ c.val := Nat.le_of_not_lt hc
    rw [outK_right _ _ _ _ g c hc', rootRowK_apply]
    have hsum : (∑ p : Fin 200000, if (x2 (ix1 p)).toInt = (g.val : ℤ)
          then val_main_v125 (F := Ideal) x0 x1 x2 x3 x4 x5 x6 x7 (ix2 p c) else 0)
        = ∑ p : Fin 200000, if (x2 (ix1 p)).toInt = (g.val : ℤ)
          then val_main_v48 (F := Ideal) x0 x1 x4 x5
            (ix2 (⟨min (wrapN (x3 (ix1 g))).toInt.toNat (200000 - 1), by omega⟩ : Fin 200000)
              (⟨c.val - 128, by omega⟩ : Fin 128)) else 0 := by
      refine Finset.sum_congr rfl fun p _ => ?_
      by_cases h : (x2 (ix1 p)).toInt = (g.val : ℤ)
      · rw [if_pos h, if_pos h, ref_cat_right x0 x1 x2 x3 x4 x5 x6 x7 p c hc', ref_row x0 x1 x2 x3 x4 x5 p g h]
      · rw [if_neg h, if_neg h]
    rw [hsum, cntK_apply]
    exact (MeanCopies.mean_copies (fun p : Fin 200000 => (x2 (ix1 p)).toInt = (g.val : ℤ)) _).symm

end Cert.Bridge

end
-- ==== Proof.Fold4.lean ====
/-
  The last stretches of host operations: the per-graph counts, the division of the pooled sums by max(count, 1),
  the first layer's rows at the root nodes kept where the graph is not empty, and the two halves side by side.
  Against the reference's scatter-add of the rows [rectified second layer | first layer at the node's graph's root]
  by label, divided by max(count, 1).
-/
import proofs.«118666_j9182640079570_2_alg».proof.Proof.Fold3
import proofs.«118666_j9182640079570_2_alg».proof.Proof.RefTop

set_option maxRecDepth 16384

noncomputable section

namespace Cert.KernelIdeal.Fold

open Cert.KernelIdeal Cert.KernelIdeal.Gen
open Idealize.ShloMosaic Idealize.ShloMosaic.TcCoe Idealize.ShloMosaic.Tactic Idealize.ShloMosaic.StableHlo
open Idealize.ShloMosaic.ValueIdx
open Idealize.SL.Sem
open Cert.ReferenceIdeal.Read (val_main_v1 val_main_v3 val_main_v4 val_main_v11 val_main_v26 val_main_v39 val_main_v48 val_main_v65 val_main_v100 val_main_v110 val_main_v137)

variable (m : (ℓ : Loc nD τ sig) → Buf (Elt Ideal) ℓ) (ρ : Dev nD → PrngReg) (c : Dev nD)

/-- The kernel program's result buffer ends at the reference's last stage value of the same arguments. -/
theorem W11_v95 (hb : ∀ n : Fin 200000, 0 ≤ ((A2 m c : (⟨1, ![200000]⟩ : Shape).Idx → BitVec 32) (ix1 n)).toInt ∧ ((A2 m c : (⟨1, ![200000]⟩ : Shape).Idx → BitVec 32) (ix1 n)).toInt < 128) :
    W11 m ρ c (Proc.devRef .tc main_v95)
      = val_main_v137 (F := Ideal) (A0 m c) (A1 m c) (A2 m c) (A3 m c) (A4 m c) (A5 m c) (A6 m c) (A7 m c) := by
  refine (Cert.Bridge.host4 (W8 m ρ c)).trans ?_
  rw [W8_v43 m ρ c, W8_arg2 m ρ c, W8_arg3 m ρ c]
  exact Cert.Bridge.ref_out _ _ _ _ _ _ _ _ hb _ (W8_v74_apply m ρ c hb)

end Cert.KernelIdeal.Fold

end
-- ==== Proof.lean ====
/-
  The certificate of a two-layer graph convolution with per-graph mean pooling, computed by four pipelined calls
  (a feature product; a combine step; a second feature product fused with a table lookup by graph label; a combine
  step fused with the per-graph sums) among host operations (degree normalisation, the gathers and scatter-adds over
  the edge list, the per-graph counts and means), against the plain array program.

  Over the extended reals both programs compute the same [128, 256] array of the same arguments, provided every
  node's graph label lies in [0, 128) — which the precondition states.  Stage by stage the kernel program's array
  is the reference's stage value: the first product; the first aggregate over the edges (the same host operations
  on equal arrays); the first layer (the square of the inverse square root of a degree, a real number at least one,
  is its reciprocal); the second product (a sum over 384 columns splits as 128 + 256, and the 0/1 indicator of a
  label picks that label's row of the table); the second aggregate; and the pooled means (a sum over the nodes of a
  graph, taken block by block or all at once; the mean of c ≥ 1 copies of one extended real is that extended real,
  and an empty graph gives 0 on both sides).  Only the commutative-monoid laws of addition, 0·x = 0 and 1·x = x are
  used on possibly infinite values, so finiteness of the float inputs is not needed for the value claim.

  The frames of the two kernel programs are the generated ones; the reference's frame is its generated run with the
  result dropped; the idealization ledger is empty.
-/
import proofs.«118666_j9182640079570_2_alg».proof.Defs
import proofs.«118666_j9182640079570_2_alg».proof.Proof.Gen.Kernel
import proofs.«118666_j9182640079570_2_alg».proof.Proof.Gen.Kernel.Skeleton
import proofs.«118666_j9182640079570_2_alg».proof.Proof.Gen.Kernel.Launch
import proofs.«118666_j9182640079570_2_alg».proof.Proof.Gen.Kernel.Points
import proofs.«118666_j9182640079570_2_alg».proof.Proof.Gen.Kernel.Frame
import proofs.«118666_j9182640079570_2_alg».proof.Proof.Gen.KernelIdeal
import proofs.«118666_j9182640079570_2_alg».proof.Proof.Gen.KernelIdeal.Skeleton
import proofs.«118666_j9182640079570_2_alg».proof.Proof.Gen.KernelIdeal.Launch
import proofs.«118666_j9182640079570_2_alg».proof.Proof.Gen.KernelIdeal.Points
import proofs.«118666_j9182640079570_2_alg».proof.Proof.Gen.KernelIdeal.Frame
import proofs.«118666_j9182640079570_2_alg».proof.Proof.Gen.ReferenceIdeal
import proofs.«118666_j9182640079570_2_alg».proof.Proof.Gen.Pre_finite_inputs
import proofs.«118666_j9182640079570_2_alg».proof.Proof.Gen.ReferenceIdeal.Run
import proofs.«118666_j9182640079570_2_alg».proof.Proof.Gen.ReferenceIdeal.Read
import proofs.«118666_j9182640079570_2_alg».proof.Proof.KRun
import proofs.«118666_j9182640079570_2_alg».proof.Proof.PreDecode
import proofs.«118666_j9182640079570_2_alg».proof.Proof.Fold4
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two idealized programs end with the same result array: the kernel program's result buffer ends at the last
    boundary's contents, which is the reference's last stage value of the same arguments. -/
theorem algebraic : Cert.algebraic_KernelIdeal_ReferenceIdeal := by
  intro m ρ m' ρ' hpre hagree
  refine ⟨fun c => Cert.KernelIdeal.Gen.W11 m ρ c (Proc.devRef .tc Cert.KernelIdeal.main_v95),
    Cert.KernelIdeal.KRun.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v137_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.KernelIdeal.Fold.W11_v95 m ρ c
    (fun n => Cert.Bridge.batch_range _ _ _ _ _ _ _ _ (hpre c) (ix1 n))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
